-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048 : Shape := ⟨2, ![2048, 2048]⟩
abbrev S65536 : Shape := ⟨1, ![65536]⟩
abbrev S2048x65536 : Shape := ⟨2, ![2048, 65536]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x65536 : S_.BroadcastsInDim S2048x65536 (![] : Fin 0 → Fin S2048x65536.rank)
  reducesTo_S2048x65536_S_d0_1 : S2048x65536.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S256x1 .f32) (main_arg9 : FVec F S1 .f32) (main_v13 : IVec S_ 1) (main_v16 : IVec S2048x65536 1) : IVec S_ 1 :=
  let main_c_5 : IVec S_ 1 := constantI S_ 1 1#1
  let main_v17 : IVec S_ 1 := (fun x v => Host.reduce IntOp.andi x v reducesTo_S2048x65536_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x1 .f32 := Host.absf main_arg8
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg9 main_v33

def fn {F : FTy → Type} [FloatOps F] (main_arg0 : FVec F S2048x128 .f32) (main_arg1 : FVec F S2048x2048 .f32) (main_arg2 : IVec S65536 32) (main_arg3 : IVec S65536 32) (main_arg4 : FVec F S2048x65536 .f32) (main_arg5 : FVec F S2048x65536 .f32) (main_arg6 : FVec F S256x128 .f32) (main_arg7 : FVec F S128 .f32) (main_arg8 : FVec F S256x1 .f32) (main_arg9 : FVec F S1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x65536 .f32 := Host.absf main_arg4
  let main_cst_2 : FVec F S_ .f32 := constant S_ .f32 0x7F800000#32
  let main_v10 : FVec F S2048x65536 .f32 := broadcastInDim S2048x65536 ![] bcast_S_S2048x65536 main_cst_2
  let main_v11 : IVec S2048x65536 1 := cmpf .olt main_v9 main_v10
  let main_c_3 : IVec S_ 1 := constantI S_ 1 1#1
  let main_v12 : IVec S_ 1 := (fun x v => Host.reduce IntOp.andi x v reducesTo_S2048x65536_S_d0_1 h_S_) main_v11 main_c_3
  let main_v13 : IVec S_ 1 := andi main_v8 main_v12
  let main_v14 : FVec F S2048x65536 .f32 := Host.absf main_arg5
  let main_cst_4 : FVec F S_ .f32 := constant S_ .f32 0x7F800000#32
  let main_v15 : FVec F S2048x65536 .f32 := broadcastInDim S2048x65536 ![] bcast_S_S2048x65536 main_cst_4
  let main_v16 : IVec S2048x65536 1 := cmpf .olt main_v14 main_v15
  fn_part1 (F := F) main_arg6 main_arg7 main_arg8 main_arg9 main_v13 main_v16
-- ==== Kernel.lean ====
abbrev S2048x128 : Shape := ⟨2, ![2048, 128]⟩
abbrev S2048x2048 : Shape := ⟨2, ![2048, 2048]⟩
abbrev S65536 : Shape := ⟨1, ![65536]⟩
abbrev S2048x65536 : Shape := ⟨2, ![2048, 65536]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S65536x1 : Shape := ⟨2, ![65536, 1]⟩
abbrev S65536x128 : Shape := ⟨2, ![65536, 128]⟩
abbrev S128x128 : Shape := ⟨2, ![128, 128]⟩
abbrev S128x1 : Shape := ⟨2, ![128, 1]⟩
abbrev S1x128x1x1 : Shape := ⟨4, ![1, 128, 1, 1]⟩
abbrev S1x128x128x1 : Shape := ⟨4, ![1, 128, 128, 1]⟩
abbrev S1x128 : Shape := ⟨2, ![1, 128]⟩
abbrev S4096x128 : Shape := ⟨2, ![4096, 128]⟩
abbrev S1x1 : Shape := ⟨2, ![1, 1]⟩
abbrev S1024x2048 : Shape := ⟨2, ![1024, 2048]⟩
abbrev S1024x128 : Shape := ⟨2, ![1024, 128]⟩

abbrev nBuf : Space → Nat
  | .hbm => 47
  | .vmem => 25
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S65536, .i32⟩
  | .hbm, ⟨3, _⟩ => ⟨S65536, .i32⟩
  | .hbm, ⟨4, _⟩ => ⟨S2048x65536, .f32⟩
  | .hbm, ⟨5, _⟩ => ⟨S2048x65536, .f32⟩
  | .hbm, ⟨6, _⟩ => ⟨S256x128, .f32⟩
  | .hbm, ⟨7, _⟩ => ⟨S128, .f32⟩
  | .hbm, ⟨8, _⟩ => ⟨S256x1, .f32⟩
  | .hbm, ⟨9, _⟩ => ⟨S1, .f32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S65536x128, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x128, .f32⟩
  | .hbm, ⟨28, _⟩ => ⟨S128x128, .f32⟩
  | .hbm, ⟨29, _⟩ => ⟨S128x128, .f32⟩
  | .hbm, ⟨30, _⟩ => ⟨S128x1, .f32⟩
  | .hbm, ⟨31, _⟩ => ⟨S128x1, .f32⟩
  | .hbm, ⟨32, _⟩ => ⟨S1x128x1x1, .f32⟩
  | .hbm, ⟨33, _⟩ => ⟨S1x128x128x1, .f32⟩
  | .hbm, ⟨34, _⟩ => ⟨S128x128, .f32⟩
  | .hbm, ⟨35, _⟩ => ⟨S1x128x1x1, .f32⟩
  | .hbm, ⟨36, _⟩ => ⟨S1x128x128x1, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S65536x128, .f32⟩
  | .hbm, ⟨42, _⟩ => ⟨S65536x128, .f32⟩
  | .hbm, ⟨43, _⟩ => ⟨S_, .f32⟩
  | .hbm, ⟨44, _⟩ => ⟨S_, .f32⟩
  | .hbm, ⟨45, _⟩ => ⟨S1x1, .f32⟩
  | .hbm, ⟨46, _⟩ => ⟨S2048x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1024x2048, .f32⟩
  | .local _ .vmem, ⟨15, _⟩ => ⟨S1024x2048, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1x1, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  slices_S256x128_S128x128_0_0 : S256x128.Slices ![0, 0] S128x128
  slices_S256x128_S128x128_128_0 : S256x128.Slices ![128, 0] S128x128
  slices_S256x1_S128x1_0_0 : S256x1.Slices ![0, 0] S128x1
  slices_S256x1_S128x1_128_0 : S256x1.Slices ![128, 0] S128x1
  shapeCasts_S128x1_S1x128x1x1 : S128x1.ShapeCasts S1x128x1x1
  bcast_S1x128x1x1_S1x128x128x1_0_1_2_3 : S1x128x1x1.BroadcastsInDim S1x128x128x1 (![0, 1, 2, 3] : Fin 4 → Fin S1x128x128x1.rank)
  shapeCasts_S1x128x128x1_S128x128 : S1x128x128x1.ShapeCasts S128x128
  shapeCasts_S128_S1x128 : S128.ShapeCasts S1x128
  bcast_S1_S128_0 : S1.BroadcastsInDim S128 (![0] : Fin 1 → Fin S128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reducesTo_S65536x128_S_d0_1 : S65536x128.ReducesTo [0, 1] S_
  h_S_ : 0 < S_.numel
  shapeCasts_S_S1x1 : S_.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x128 : S1x1.Broadcasts S2048x128
  gather_S2048x128_S65536x1_S65536x128_1_0_n_n_0_1_1128_wf : GatherDims.WF S2048x128 S65536x1 S65536x128 [1] [0] [] [0] [] 1 ![1, 128]
  dot_S4096x128_S128x128_S4096x128_1_0_0_1_n_n_wf : DotDims.WF S4096x128 S128x128 S4096x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S65536x128.size a
  hwx0_8 : ∀ i : grid0.Coords, EltTy.bits .f32 = 32 ∨ (Rect.block (s := S65536x128) S4096x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S65536x128.size a
  hwx0_9 : ∀ i : grid0.Coords, EltTy.bits .f32 = 32 ∨ (Rect.block (s := S65536x128) S4096x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x65536.size a
  hwx1_0 : ∀ i : grid1.Coords, EltTy.bits .f32 = 32 ∨ (Rect.block (s := S2048x65536) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S65536x128.size a
  hwx1_1 : ∀ i : grid1.Coords, EltTy.bits .f32 = 32 ∨ (Rect.block (s := S65536x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S65536x128.size a
  hwx1_2 : ∀ i : grid1.Coords, EltTy.bits .f32 = 32 ∨ (Rect.block (s := S65536x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S2048x128.size a
  hwx1_4 : ∀ i : grid1.Coords, EltTy.bits .f32 = 32 ∨ (Rect.block (s := S2048x128) S1024x128.size (cc1_transform_4 i) (hinb1_4 i)).WholeWords (EltTy.packing .f32)

variable [Facts₀]

def gather_S2048x128_S65536x1_S65536x128_1_0_n_n_0_1_1128 : GatherDims S2048x128 S65536x1 S65536x128 where
  offsetDims := [1]
  collapsedSliceDims := [0]
  operandBatchingDims := []
  startIndicesBatchingDims := []
  startIndexMap := [0]
  indexVectorDim := 1
  sliceSizes := ![1, 128]
  wf := gather_S2048x128_S65536x1_S65536x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27_0) S4096x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v27_1) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg5) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27_1) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2048x128 : Shape := ⟨2, ![2048, 128]⟩
abbrev S2048x2048 : Shape := ⟨2, ![2048, 2048]⟩
abbrev S65536 : Shape := ⟨1, ![65536]⟩
abbrev S2048x65536 : Shape := ⟨2, ![2048, 65536]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S65536x1 : Shape := ⟨2, ![65536, 1]⟩
abbrev S65536x128 : Shape := ⟨2, ![65536, 128]⟩
abbrev S65536x256 : Shape := ⟨2, ![65536, 256]⟩
abbrev S1x128 : Shape := ⟨2, ![1, 128]⟩
abbrev S1x1 : Shape := ⟨2, ![1, 1]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S65536, .i32⟩
  | .hbm, ⟨3, _⟩ => ⟨S65536, .i32⟩
  | .hbm, ⟨4, _⟩ => ⟨S2048x65536, .f32⟩
  | .hbm, ⟨5, _⟩ => ⟨S2048x65536, .f32⟩
  | .hbm, ⟨6, _⟩ => ⟨S256x128, .f32⟩
  | .hbm, ⟨7, _⟩ => ⟨S128, .f32⟩
  | .hbm, ⟨8, _⟩ => ⟨S256x1, .f32⟩
  | .hbm, ⟨9, _⟩ => ⟨S1, .f32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S65536x128, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x128, .f32⟩
  | .hbm, ⟨28, _⟩ => ⟨S65536x256, .f32⟩
  | .hbm, ⟨29, _⟩ => ⟨S65536x128, .f32⟩
  | .hbm, ⟨30, _⟩ => ⟨S1x128, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536x128, .f32⟩
  | .hbm, ⟨35, _⟩ => ⟨S65536x128, .f32⟩
  | .hbm, ⟨36, _⟩ => ⟨S65536x1, .f32⟩
  | .hbm, ⟨37, _⟩ => ⟨S1x1, .f32⟩
  | .hbm, ⟨38, _⟩ => ⟨S65536x1, .f32⟩
  | .hbm, ⟨39, _⟩ => ⟨S65536x1, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S65536x128, .f32⟩
  | .hbm, ⟨51, _⟩ => ⟨S65536x128, .f32⟩
  | .hbm, ⟨52, _⟩ => ⟨S2048x128, .f32⟩
  | .hbm, ⟨53, _⟩ => ⟨S2048x128, .f32⟩
  | .hbm, ⟨54, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x128_S65536x128_S65536x256_d1 : Shape.Concatenates [S65536x128, S65536x128] S65536x256 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S1_d0 : S65536x1.ReducesTo [0] S1
  h_S_ : 0 < S_.numel
  bcast_S_S2048x1 : S_.BroadcastsInDim S2048x1 (![] : Fin 0 → Fin S2048x1.rank)
  bcast_S65536x1_S65536x128_0_1 : S65536x1.BroadcastsInDim S65536x128 (![0, 1] : Fin 2 → Fin S65536x128.rank)
  bcast_S2048x1_S2048x128_0_1 : S2048x1.BroadcastsInDim S2048x128 (![0, 1] : Fin 2 → Fin S2048x128.rank)
  gather_S2048x128_S65536x1_S65536x128_1_0_n_n_0_1_1128_wf : GatherDims.WF S2048x128 S65536x1 S65536x128 [1] [0] [] [0] [] 1 ![1, 128]
  dot_S65536x256_S256x128_S65536x128_1_0_0_1_n_n_wf : DotDims.WF S65536x256 S256x128 S65536x128 [1] [0] [0] [1] [] []
  dot_S65536x256_S256x1_S65536x1_1_0_0_1_n_n_wf : DotDims.WF S65536x256 S256x1 S65536x1 [1] [0] [0] [1] [] []
  dot_S2048x65536_S65536x1_S2048x1_1_0_0_1_n_n_wf : DotDims.WF S2048x65536 S65536x1 S2048x1 [1] [0] [0] [1] [] []
  dot_S2048x65536_S65536x128_S2048x128_1_0_0_1_n_n_wf : DotDims.WF S2048x65536 S65536x128 S2048x128 [1] [0] [0] [1] [] []

variable [Facts₀]

def gather_S2048x128_S65536x1_S65536x128_1_0_n_n_0_1_1128 : GatherDims S2048x128 S65536x1 S65536x128 where
  offsetDims := [1]
  collapsedSliceDims := [0]
  operandBatchingDims := []
  startIndicesBatchingDims := []
  startIndexMap := [0]
  indexVectorDim := 1
  sliceSizes := ![1, 128]
  wf := gather_S2048x128_S65536x1_S65536x128_1_0_n_n_0_1_1128_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf
def dot_S2048x65536_S65536x1_S2048x1_1_0_0_1_n_n : DotDims S2048x65536 S65536x1 S2048x1 where
  lhsContracting := [1]
  rhsContracting := [0]
  lhsNonContracting := [0]
  rhsNonContracting := [1]
  lhsBatch := []
  rhsBatch := []
  wf := dot_S2048x65536_S65536x1_S2048x1_1_0_0_1_n_n_wf
def dot_S2048x65536_S65536x128_S2048x128_1_0_0_1_n_n : DotDims S2048x65536 S65536x128 S2048x128 where
  lhsContracting := [1]
  rhsContracting := [0]
  lhsNonContracting := [0]
  rhsNonContracting := [1]
  lhsBatch := []
  rhsBatch := []
  wf := dot_S2048x65536_S65536x128_S2048x128_1_0_0_1_n_n_wf

class Facts : Prop extends Facts₀ where

variable [Facts]
-- ==== Proof.K.Reg0Defs.lean ====
/-
  Region 0 of the kernel program (the edge perceptron, 16 grid points of 4096 edges): the blocks its windows
  stage, what its body leaves in the two output windows' buffers as a function of the staged blocks, and the
  proof data of its pipeline, at any float instance and at any contents `V` of the buffers when the region is
  entered.  Windows 0 and 1 are the gathered source and target rows (blocked along the edges), windows 2..7
  the four weight matrices and the two bias rows (one block, fetched once), windows 8 and 9 the messages `y`
  and the lane-broadcast logits `ab` (blocked along the edges, written back at every point).
-/
import proofs.«127976_j3624952398656_1_alg».proof.Proof.Gen.Kernel.Launch
import proofs.«127976_j3624952398656_1_alg».proof.Proof.Gen.Kernel.Skeleton
import proofs.«127976_j3624952398656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangles the body loads and stores through. -/
abbrev rE : Rect S4096x128 := Rect.unit (s := S4096x128) ![0, 0] S4096x128.size inb_S4096x128_S4096x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The messages' buffer (window 8) after the body: one whole store of
    max(src·Wy1 + tgt·Wy2 + fb, 0), from the staged blocks. -/
def out0_8 (x0 x1 : Vec F S4096x128 .f32) (x2 x3 : Vec F S128x128 .f32) (x6 : Vec F S1x128 .f32) : Vec F S4096x128 .f32 :=
  View.canon [⟨rE, k0_pay4 (View.ld x0 rE) (View.ld x1 rE) (View.ld x2 rW) (View.ld x3 rW) (View.ld x6 rB)⟩]

/-- The logits' buffer (window 9) after the body: one whole store of src·Wa1 + tgt·Wa2 + wb. -/
def out0_9 (x0 x1 : Vec F S4096x128 .f32) (x4 x5 : Vec F S128x128 .f32) (x7 : Vec F S1x128 .f32) : Vec F S4096x128 .f32 :=
  View.canon [⟨rE, k0_pay3 (View.ld x0 rE) (View.ld x1 rE) (View.ld x4 rW) (View.ld x5 rW) (View.ld x7 rB)⟩]

/-- The proof data of pipeline 0 on core `c`: the arrays as the region finds them; after the body each input's
    buffer still holds its block and each output's holds the body's store; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 6 t)
    | ⟨9, _⟩ => out0_9 (iblk0 V c 0 t) (iblk0 V c 1 t) (iblk0 V c 4 t) (iblk0 V c 5 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 6 t) := by dsimp only [dat0]
theorem after0_9 (c : Dev nD) (t : Fin cfg0.N) : (dat0 V c).after 9 t
    = out0_9 (iblk0 V c 0 t) (iblk0 V c 1 t) (iblk0 V c 4 t) (iblk0 V c 5 t) (iblk0 V c 7 t) := by dsimp only [dat0]

end Cert.Kernel.Fr

end
-- ==== Proof.K.Reg0.lean ====
/-
  Region 0 of the kernel program: the body obligation of its pipeline, at any float instance and at any contents
  `V` of the buffers when the region is entered.  Each of the eight input windows' staging buffers holds the
  window's block at every point (the six one-block windows are fetched at the first point only and never move);
  the body, run on whole staging buffers, leaves the inputs as they were, the messages' buffer at `out0_8` of the
  staged blocks and the logits' buffer at `out0_9` of them; so the body meets the pipeline's obligation at every
  point.
-/
import proofs.«127976_j3624952398656_1_alg».proof.Proof.K.Reg0Defs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not: unfetched, the
    block index has not moved, and the body leaves the block in place; the window is uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not: unfetched, the
    block index has not moved, and the body leaves the block in place; the window is uncut and never idle. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not: unfetched, the
    block index has not moved, and the body leaves the block in place; the window is uncut and never idle. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not: unfetched, the
    block index has not moved, and the body leaves the block in place; the window is uncut and never idle. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4's current staging buffer holds its block at every point, fetched there or not: unfetched, the
    block index has not moved, and the body leaves the block in place; the window is uncut and never idle. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5's current staging buffer holds its block at every point, fetched there or not: unfetched, the
    block index has not moved, and the body leaves the block in place; the window is uncut and never idle. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Input window 6's current staging buffer holds its block at every point, fetched there or not: unfetched, the
    block index has not moved, and the body leaves the block in place; the window is uncut and never idle. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Input window 7's current staging buffer holds its block at every point, fetched there or not: unfetched, the
    block index has not moved, and the body leaves the block in place; the window is uncut and never idle. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body's stores cover the output buffers -/

/-- One whole store tiles the buffer, so it covers it. -/
theorem coverE (p0 : Vec F S4096x128 .f32) (y : S4096x128.Idx) :
    ∃ pc ∈ ([⟨rE, p0⟩] : List (View.Piece (Elt F) S4096x128 .f32)), y ∈ pc.1.set :=
  View.cover_of_tiled [⟨rE, p0⟩] S4096x128.size (by rfl) y

/-! ## The body's triple -/
set_option maxHeartbeats 1000000 in
/-- The kernel body on whole staging buffers, the inputs' at read contents `xW` and the outputs' at anything, runs to
    the continuation holding the inputs' as they were, the messages' buffer at `out0_8` and the logits' at `out0_9` of
    the inputs': the body and its part are their skeletons of loads and stores over payloads, run operation by
    operation through the part's call (the part stores the messages and returns the logits' payload, which the
    body then stores). -/
theorem sound_kernel0 (c : Dev nD) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S4096x128 .f32) (harg10 : arg10.IsWhole)
    (x0 x1 : Vec F S4096x128 .f32) (x2 x3 x4 x5 : Vec F S128x128 .f32) (x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x6) ∗ owns (c : Thread nD τ) arg10 fullShare (out0_9 x0 x1 x4 x5 x7)) -∗ K ⟨⟩))
      ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10) K := by
  simp only [cc0__kernel_a_body_eq_skeleton]; unfold cc0__kernel_a_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverE _)
  iexists _; isplitr
  swap; · iexact H9
  ipureintro
  try dsimp only
  exact View.read_writes_eq_canon _ _ _ (coverE _)

/-! ## The body obligation, at a generic point -/

/-- What the body is called with at point `t`: the invariant, the core's debts, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks (`before0_W`), so `sound_kernel0` applies;
    the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1Defs.lean ====
/-
  Region 1 of the kernel program (the edge-softmax aggregation, a 2 x 32 grid: row block i of 1024 nodes, edge
  tile j of 2048 edges): the blocks its windows stage, the two accumulators its body carries in scratch from
  one grid point to the next (the weighted sum of messages and the normaliser of the row block, restarted at
  every first tile), what the body leaves in the output window at a last tile, the invariant between points and
  the proof data of its pipeline, at any float instance and at any contents `V` of the buffers when the region
  is entered.  Window 0 is the incidence matrix (block (i, j)), windows 1 and 2 the messages and the logits
  (block (j, 0)), window 3 the global maximum (one block), window 4 the result (block (i, 0), stored and written
  back at the last tile of a row block only).
-/
import proofs.«127976_j3624952398656_1_alg».proof.Proof.Gen.Kernel.Launch
import proofs.«127976_j3624952398656_1_alg».proof.Proof.Gen.Kernel.Skeleton
import proofs.«127976_j3624952398656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, from the grid coordinates -/

/-- "This is the first edge tile of the row block": the accumulators are restarted. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- "This is the last edge tile of the row block": the quotient is stored. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The output window is idle exactly off the last tiles, where it is not written back either. -/
theorem idle1_4 : ∀ t : Fin cfg1.N, ¬ t.val % 32 = 31 → cfg1.idle 4 (grid1.coords t) = true :=
  (by decide +kernel : ∀ t : Fin grid1.N, ¬ t.val % 32 = 31 → cfg1.idle 4 (grid1.coords t) = true)
theorem live1_4 : ∀ t : Fin cfg1.N, t.val % 32 = 31 → cfg1.idle 4 (grid1.coords t) = false :=
  (by decide +kernel : ∀ t : Fin grid1.N, t.val % 32 = 31 → cfg1.idle 4 (grid1.coords t) = false)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel

/-! ## The carried accumulators -/

/-- The two scratch operands: whole scoped buffers of the kernel's own. -/
abbrev scM0 : Memref sig .tc .vmem S1024x128 .f32 := Memref.whole cc1_scratch0
abbrev scM1 : Memref sig .tc .vmem S1024x128 .f32 := Memref.whole cc1_scratch1

/-- The accumulators as restarted at a first tile: both zero. -/
def accInit : Vec F S1024x128 .f32 × Vec F S1024x128 .f32 := (k1_pay1 (F := F), k1_pay2 (F := F))

/-- One tile's step: the incidence block times (messages · exp(logits − max)) is added to the first
    accumulator, the incidence block times exp(logits − max) to the second. -/
def accStep (x0 : Vec F S1024x2048 .f32) (x1 x2 : Vec F S2048x128 .f32) (x3 : Vec F S1x1 .f32)
    (s : Vec F S1024x128 .f32 × Vec F S1024x128 .f32) : Vec F S1024x128 .f32 × Vec F S1024x128 .f32 :=
  (k1_pay5 x0 x1 x2 x3 s.1, k1_pay6 x0 x2 x3 s.2)

/-- What the two scratch buffers hold after the body at position `n`. -/
def acc1 (c : Dev nD) : (n : ℕ) → n < cfg1.N → Vec F S1024x128 .f32 × Vec F S1024x128 .f32
  | 0, hn => accStep (iblk1 V c 0 ⟨0, hn⟩) (iblk1 V c 1 ⟨0, hn⟩) (iblk1 V c 2 ⟨0, hn⟩) (iblk1 V c 3 ⟨0, hn⟩) accInit
  | n + 1, hn => accStep (iblk1 V c 0 ⟨n + 1, hn⟩) (iblk1 V c 1 ⟨n + 1, hn⟩) (iblk1 V c 2 ⟨n + 1, hn⟩) (iblk1 V c 3 ⟨n + 1, hn⟩)
      (if (n + 1) % 32 = 0 then accInit else acc1 c n (Nat.lt_of_succ_lt hn))

theorem acc1_first (c : Dev nD) (t : Fin cfg1.N) (h : t.val % 32 = 0) :
    acc1 V c t.val t.isLt = accStep (iblk1 V c 0 t) (iblk1 V c 1 t) (iblk1 V c 2 t) (iblk1 V c 3 t) accInit := by
  obtain ⟨n, hn⟩ := t
  cases n with
  | zero => rfl
  | succ n => exact congrArg _ (if_pos h)

theorem acc1_next (c : Dev nD) (t : Fin cfg1.N) (h : ¬ t.val % 32 = 0) :
    acc1 V c t.val t.isLt = accStep (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The scoped buffers of the core that are neither a staging buffer of this pipeline nor its scratch
    (the other pipeline's staging buffers), each at some contents, beside `P`. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ P)

theorem restWith_mono (c : Dev nD) {P Q : sProp 𝕄} (h : P ⊢ Q) : restWith (F := F) c P ⊢ restWith c Q := by
  unfold restWith
  iintro ⟨A1, A2, A3, A4, A5, A6, A7, A8, A9, A10, A11, A12, A13, A14, HP⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iapply h; iexact HP

/-- The class invariant (the scoped rest and the generator register) with the two scratch buffers owned
    as memrefs at some contents. -/
theorem PhiA1_eq (c : Dev nD) :
    (Pipeline.ΦA spec1 c : sProp 𝕄)
      = iprop(restWith c iprop((∃ d, owns (c : Thread nD τ) scM0 fullShare d) ∗ (∃ d, owns (c : Thread nD τ) scM1 fullShare d)) ∗ (∃ r, prngReg c r)) := by
  unfold Pipeline.ΦA restWith; rw [scopedRest1_eq]; simp only [scM0, scM1, owns_whole]; try rfl

/-- The invariant: before the first point the class invariant; after position `n` the scratch buffers at
    the accumulators `acc1 … n`, the other scoped buffers and the generator register as they come. -/
def PhiS (c : Dev nD) : (n : ℕ) → n ≤ cfg1.N → sProp 𝕄
  | 0, _ => Pipeline.ΦA spec1 c
  | n + 1, hn => iprop(restWith c iprop(owns (c : Thread nD τ) scM0 fullShare (acc1 V c n hn).1 ∗ owns (c : Thread nD τ) scM1 fullShare (acc1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c iprop(owns (c : Thread nD τ) scM0 fullShare (acc1 V c n hn).1 ∗ owns (c : Thread nD τ) scM1 fullShare (acc1 V c n hn).2) ∗ (∃ r, prngReg c r)) := rfl

theorem PhiS_pos (c : Dev nD) (n : ℕ) (h : n ≤ cfg1.N) (hz : n ≠ 0) :
    PhiS V c n h = iprop(restWith c iprop(owns (c : Thread nD τ) scM0 fullShare (acc1 V c (n - 1) (by omega)).1 ∗ owns (c : Thread nD τ) scM1 fullShare (acc1 V c (n - 1) (by omega)).2) ∗ (∃ r, prngReg c r)) := by
  cases n with
  | zero => exact absurd rfl hz
  | succ n => rfl

/-! ## The proof data -/

/-- The quotient the body stores at a last tile, from the accumulators it has then. -/
def out1_4 (s : Vec F S1024x128 .f32 × Vec F S1024x128 .f32) : Vec F S1024x128 .f32 := k1_pay7 s.1 s.2

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (acc1 V c t.val t.isLt) := by dsimp only [dat1]

theorem Phi1_castSucc (c : Dev nD) (t : Fin cfg1.N) :
    (dat1 V c).Φ t.castSucc = PhiS V c t.val (Nat.le_of_lt t.isLt) := by dsimp only [dat1]; rfl

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- Named contents of the two scratch buffers are in particular some contents. -/
theorem own2_forget (c : Dev nD) (a b : Vec F S1024x128 .f32) :
    (iprop(owns (c : Thread nD τ) scM0 fullShare a ∗ owns (c : Thread nD τ) scM1 fullShare b) : sProp 𝕄)
      ⊢ iprop((∃ d, owns (c : Thread nD τ) scM0 fullShare d) ∗ (∃ d, owns (c : Thread nD τ) scM1 fullShare d)) := by
  iintro ⟨H0, H1⟩
  isplitl [H0]
  · iexists _; iexact H0
  · iexists _; iexact H1

/-- After any point but the first the invariant gives the class invariant back: the accumulators are forgotten. -/
theorem Phi1_out (c : Dev nD) (n : ℕ) (h : n ≤ cfg1.N) (hz : n ≠ 0) : PhiS V c n h ⊢ (Pipeline.ΦA spec1 c : sProp 𝕄) := by
  rw [PhiS_pos V c n h hz, PhiA1_eq]
  exact sep_mono (restWith_mono c (own2_forget c _ _)) .rfl

/-- The same after the last point. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl]
  exact Phi1_out V c _ _ (by rw [Fin.val_last]; have : cfg1.N = 64 := N_1; omega)

end Cert.Kernel.Fr

end
-- ==== Proof.K.Reg1Body.lean ====
/-
  The body of region 1 on whole staging memrefs, case by case of its two conditions (first tile of a row
  block: the accumulators are zeroed, then the tile is added; a tile in between: the tile is added; last
  tile: the tile is added and the quotient of the two accumulators is stored), and from these the body
  obligation of the pipeline over the proof data `dat1`.
-/
import proofs.«127976_j3624952398656_1_alg».proof.Proof.K.Reg1Defs
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offset, as the whole-rectangle lemmas ask for it. -/
theorem zero2 : (![0, 0] : Fin 2 → Nat) = fun _ => 0 := by
  funext a; fin_cases a <;> rfl

abbrev rA : Rect S1024x128 := Rect.unit (s := S1024x128) ![0, 0] S1024x128.size inb_S1024x128_S1024x128_0_0

/-- One whole store covers the accumulator's shape. -/
theorem coverA (p0 : Vec F S1024x128 .f32) (y : S1024x128.Idx) :
    ∃ pc ∈ ([⟨rA, p0⟩] : List (View.Piece (Elt F) S1024x128 .f32)), y ∈ pc.1.set :=
  View.cover_of_tiled [⟨rA, p0⟩] S1024x128.size (by rfl) y

/-- So does a whole store on top of anything. -/
theorem coverA_cons (p0 : Vec F S1024x128 .f32) (L : List (View.Piece (Elt F) S1024x128 .f32)) (y : S1024x128.Idx) :
    ∃ pc ∈ ((⟨rA, p0⟩ : View.Piece (Elt F) S1024x128 .f32) :: L), y ∈ pc.1.set := by
  obtain ⟨pc, hpc, hy⟩ := coverA p0 y
  exact ⟨pc, List.mem_cons.mpr (Or.inl (List.mem_singleton.mp hpc)), hy⟩

/-- What a whole store over anything leaves, read back. -/
theorem read_whole_store (v : View sig .tc .vmem S1024x128 .f32) (g : v.ty.Contents (Elt F)) (p0 : Vec F S1024x128 .f32)
    (L : List (View.Piece (Elt F) S1024x128 .f32)) :
    v.read (Elt F) (v.writes (Elt F) g ((⟨rA, p0⟩ : View.Piece (Elt F) S1024x128 .f32) :: L)) = p0 := by
  rw [View.read_writes_eq_canon _ _ _ (coverA_cons p0 L)]
  exact View.canon_cons_unit_zero zero2 _ p0 L

set_option maxHeartbeats 1000000 in
/-- A tile in between: each accumulator gains the tile's term. -/
theorem sound_kernel1_B (c : Dev nD) (E : Set ℕ) (i : grid1.Coords) (arg2 : Memref sig .tc .vmem S1024x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (hc0 : ¬ cond1_0 i) (hc1 : ¬ cond1_1 i)
    (x0 : Vec F S1024x2048 .f32) (x1 x2 : Vec F S2048x128 .f32) (x3 : Vec F S1x1 .f32) (s0 s1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k1_pay5 x0 x1 x2 x3 s0) ∗ owns (c : Thread nD τ) arg8 fullShare (k1_pay6 x0 x2 x3 s1)) -∗ K ⟨⟩))
      ⊢ wp frame (wpE (defs₀ (F := F)) Variants.none c none) E (cc1__kernel_c_body i arg2 harg2 arg3 harg3 arg4 harg4 arg5 harg5 arg6 harg6 arg7 harg7 arg8 harg8) K := by
  simp only [cc1__kernel_c_body_eq_skeleton]; unfold cc1__kernel_c_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%g0, %hg0, HS0⟩, ⟨%g1, %hg1, HS1⟩, Hk⟩
  subst hf0 hf1 hf2 hf3 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  · iexists _; isplitr
    swap; · iexact HS1
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]

set_option maxHeartbeats 1000000 in
/-- The first tile of a row block: the accumulators are zeroed, then gain the tile's term. -/
theorem sound_kernel1_A (c : Dev nD) (E : Set ℕ) (i : grid1.Coords) (arg2 : Memref sig .tc .vmem S1024x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (hc0 : cond1_0 i) (hc1 : ¬ cond1_1 i)
    (x0 : Vec F S1024x2048 .f32) (x1 x2 : Vec F S2048x128 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k1_pay5 x0 x1 x2 x3 (k1_pay1 (F := F))) ∗ owns (c : Thread nD τ) arg8 fullShare (k1_pay6 x0 x2 x3 (k1_pay2 (F := F)))) -∗ K ⟨⟩))
      ⊢ wp frame (wpE (defs₀ (F := F)) Variants.none c none) E (cc1__kernel_c_body i arg2 harg2 arg3 harg3 arg4 harg4 arg5 harg5 arg6 harg6 arg7 harg7 arg8 harg8) K := by
  simp only [cc1__kernel_c_body_eq_skeleton]; unfold cc1__kernel_c_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d0, %g0, -, HS0⟩, ⟨%d1, %g1, -, HS1⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  · iexists _; isplitr
    swap; · iexact HS1
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]

set_option maxHeartbeats 1000000 in
/-- The last tile of a row block: the accumulators gain the tile's term and their quotient is stored. -/
theorem sound_kernel1_C (c : Dev nD) (E : Set ℕ) (i : grid1.Coords) (arg2 : Memref sig .tc .vmem S1024x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (hc0 : ¬ cond1_0 i) (hc1 : cond1_1 i)
    (x0 : Vec F S1024x2048 .f32) (x1 x2 : Vec F S2048x128 .f32) (x3 : Vec F S1x1 .f32) (s0 s1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay7 (k1_pay5 x0 x1 x2 x3 s0) (k1_pay6 x0 x2 x3 s1))
            ∗ owns (c : Thread nD τ) arg7 fullShare (k1_pay5 x0 x1 x2 x3 s0) ∗ owns (c : Thread nD τ) arg8 fullShare (k1_pay6 x0 x2 x3 s1)) -∗ K ⟨⟩))
      ⊢ wp frame (wpE (defs₀ (F := F)) Variants.none c none) E (cc1__kernel_c_body i arg2 harg2 arg3 harg3 arg4 harg4 arg5 harg5 arg6 harg6 arg7 harg7 arg8 harg8) K := by
  simp only [cc1__kernel_c_body_eq_skeleton]; unfold cc1__kernel_c_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d6, %g6, -, H6⟩, ⟨%g0, %hg0, HS0⟩, ⟨%g1, %hg1, HS1⟩, Hk⟩
  subst hf0 hf1 hf2 hf3 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  isplitl [HS0]
  · iexists _; isplitr
    swap; · iexact HS0
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  · iexists _; isplitr
    swap; · iexact HS1
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]

end Cert.Kernel.Fr

end
-- ==== Proof.K.Reg1.lean ====
/-
  The body obligation of region 1: at every grid point the body, called on the windows' current staging
  buffers and on the two scratch buffers the invariant hands it, runs to the invariant of the next point - the
  scratch buffers at the accumulators of this point - with every input's buffer as it was and the output's
  buffer untouched off the last tiles and at the quotient of the accumulators at a last tile.
-/
import proofs.«127976_j3624952398656_1_alg».proof.Proof.K.Reg1Body

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer: the window's block, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The other scoped buffers ride along -/

theorem restWith_elim (c : Dev nD) (P : sProp 𝕄) : restWith (F := F) c P ⊢ iprop(restWith c iprop(emp) ∗ P) := by
  unfold restWith
  iintro ⟨A1, A2, A3, A4, A5, A6, A7, A8, A9, A10, A11, A12, A13, A14, HP⟩
  isplitr [HP]
  swap; · iexact HP
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iempintro

theorem restWith_intro (c : Dev nD) (P : sProp 𝕄) : iprop(restWith c iprop(emp) ∗ P) ⊢ restWith (F := F) c P := by
  unfold restWith
  iintro ⟨⟨A1, A2, A3, A4, A5, A6, A7, A8, A9, A10, A11, A12, A13, A14, -⟩, HP⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iexact HP

/-! ## The output window off and at the last tiles -/

theorem noflush1_4 (t : Fin cfg1.N) (h : ¬ t.val % 32 = 31) : (cfg1.win 4).flush t = false := by
  cases hf : (cfg1.win 4).flush t
  · rfl
  · exact absurd ((flush1_4 t).mp hf) h

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
        unfold Dat.leavesExact; rw [live1_0 t], after1_0,
    show (dat1 V c).leavesExact 1 t = owns (c : Thread nD τ) (st1_1 t) fullShare ((dat1 V c).after 1 t) from by
        unfold Dat.leavesExact; rw [live1_1 t], after1_1,
    show (dat1 V c).leavesExact 2 t = owns (c : Thread nD τ) (st1_2 t) fullShare ((dat1 V c).after 2 t) from by
        unfold Dat.leavesExact; rw [live1_2 t], after1_2,
    show (dat1 V c).leavesExact 3 t = owns (c : Thread nD τ) (st1_3 t) fullShare ((dat1 V c).after 3 t) from by
        unfold Dat.leavesExact; rw [live1_3 t], after1_3]
  have hN : t.val < 64 := lt_of_lt_of_eq t.isLt (show cfg1.N = 64 from N_1)
  by_cases h0 : t.val % 32 = 0
  · -- the first tile of a row block
    have h1 : ¬ t.val % 32 = 31 := by omega
    rw [Dat.leavesExact_idle (dat1 V c) 4 t (idle1_4 t h1) (noflush1_4 t h1)]
    rw [acc1_first V c t h0]; unfold accStep accInit; dsimp only
    have hΦ : (dat1 V c).Φ t.castSucc ⊢ (iprop(restWith c iprop((∃ d, owns (c : Thread nD τ) scM0 fullShare d) ∗ (∃ d, owns (c : Thread nD τ) scM1 fullShare d)) ∗ (∃ r, prngReg c r)) : sProp 𝕄) := by
      rw [← PhiA1_eq, Phi1_castSucc]
      by_cases hz : t.val = 0
      · rw [PhiS_zero V c _ _ hz]
      · exact Phi1_out V c _ _ hz
    iintro ⟨HPhi, Ho, ⟨%d0, H0⟩, ⟨%d1, H1⟩, ⟨%d2, H2⟩, ⟨%d3, H3⟩, ⟨%d4, H4⟩⟩
    ihave HP2 := hΦ $$ HPhi
    icases HP2 with ⟨HR, Hg⟩
    ihave HR' := (restWith_elim c _) $$ HR
    icases HR' with ⟨HR0, ⟨HS0, HS1⟩⟩
    iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HR0 HS0 HS1 Hg]
    · isplitl [HR0 HS0 HS1]
      · iapply (restWith_intro c _)
        isplitl [HR0]; · iexact HR0
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · by_cases h1 : t.val % 32 = 31
    · -- the last tile of a row block
      have hz : t.val ≠ 0 := by omega
      rw [show (dat1 V c).leavesExact 4 t = owns (c : Thread nD τ) (st1_4 t) fullShare ((dat1 V c).after 4 t) from by
            unfold Dat.leavesExact; rw [live1_4 t h1], after1_4]
      rw [acc1_next V c t h0]; unfold out1_4 accStep; dsimp only
      rw [Phi1_castSucc, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (restWith_elim c _) $$ HR
      icases HR' with ⟨HR0, ⟨HS0, HS1⟩⟩
      iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HR0 HS0 HS1 Hg]
      · isplitl [HR0 HS0 HS1]
        · iapply (restWith_intro c _)
          isplitl [HR0]; · iexact HR0
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a tile in between
      have hz : t.val ≠ 0 := by omega
      rw [Dat.leavesExact_idle (dat1 V c) 4 t (idle1_4 t h1) (noflush1_4 t h1)]
      rw [acc1_next V c t h0]; unfold accStep; dsimp only
      rw [Phi1_castSucc, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (restWith_elim c _) $$ HR
      icases HR' with ⟨HR0, ⟨HS0, HS1⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HR0 HS0 HS1 Hg]
      · isplitl [HR0 HS0 HS1]
        · iapply (restWith_intro c _)
          isplitl [HR0]; · iexact HR0
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The run of the kernel program's entry function: a stretch of 31 host operations, the first kernel region
  (10 windows), a stretch of 3 host operations, the second kernel region (5 windows).  Stated at any float
  instance and at ANY proof data of the two pipelines of which the following is known: each window's array at
  entry is read off the buffer contents the region is entered from, every share is full, nothing is owed, the
  body obligation holds, and the invariant at the first point follows from (at the last point gives back) the
  scoped buffers no window stages beside the generator register.  From these: the buffer contents at the five
  segment boundaries as a fold from the launch memory, the two regions as segments over the thread state "every
  unscoped buffer at the boundary's contents, the generator register at some state, nothing owed", and the run
  itself: every weakly fair execution terminates and every unscoped buffer ends at the last boundary's contents.
  The arguments are read back through the fold to their launch contents; the regions' outputs to what the
  pipelines' write-backs leave.
-/
import proofs.«127976_j3624952398656_1_alg».proof.Proof.Gen.Kernel.Launch
import proofs.«127976_j3624952398656_1_alg».proof.Proof.Gen.Kernel.Skeleton
import proofs.«127976_j3624952398656_1_alg».proof.Proof.Gen.Kernel.Points
import proofs.«127976_j3624952398656_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

section Run

variable {F : FTy → Type} [FloatOps F]

local notation "𝕄" => MT nD τ sig Unit (Elt F) ℕ (UR sig nD τ) ℕ

-- the two pipelines' proof data, each a function of the buffer contents its region is entered from
variable (dat0 : (V : (c : Dev nD) → (b : Ref sig .tc) → Buf (Elt F) ((c : Thread nD τ).loc b)) → (c : Dev nD) → Dat τ (Elt F) Unit ℕ (UR sig nD τ) ℕ cfg0 c)
variable (dat1 : (V : (c : Dev nD) → (b : Ref sig .tc) → Buf (Elt F) ((c : Thread nD τ).loc b)) → (c : Dev nD) → Dat τ (Elt F) Unit ℕ (UR sig nD τ) ℕ cfg1 c)

/-- What the run needs to know of the two proof data. -/
structure RegData : Prop where
  /-- Each window's array at entry is the entry contents' at the window's reference. -/
  hA0 : ∀ V c w, (dat0 V c).A w = V c (Pipeline.arrRef spec0 w)
  hA1 : ∀ V c w, (dat1 V c).A w = V c (Pipeline.arrRef spec1 w)
  /-- Every input array is held at the full share. -/
  hq0 : ∀ V c w, (dat0 V c).q w = fullShare
  hq1 : ∀ V c w, (dat1 V c).q w = fullShare
  /-- Nothing is owed at any point. -/
  howed0 : ∀ V c t, (dat0 V c).owed t = 0
  howed1 : ∀ V c t, (dat1 V c).owed t = 0
  /-- No bound is put on the pairs recorded before the first point. -/
  hrec0 : ∀ V c, (dat0 V c).recorded 0 = Set.univ
  hrec1 : ∀ V c, (dat1 V c).recorded 0 = Set.univ
  /-- The body obligations. -/
  hbody0 : ∀ V c, BodyObligation (dat0 V c) (defs₀ (F := F)) Variants.none () Set.univ
  hbody1 : ∀ V c, BodyObligation (dat1 V c) (defs₀ (F := F)) Variants.none () Set.univ
  /-- The invariant at the first point from, and at the last point back to, the scoped buffers no window
      stages beside the generator register. -/
  hin0 : ∀ V c, (Pipeline.ΦA spec0 c : sProp 𝕄) ⊢ (dat0 V c).Φ 0
  hout0 : ∀ V c, (dat0 V c).Φ (Fin.last cfg0.N) ⊢ (Pipeline.ΦA spec0 c : sProp 𝕄)
  hin1 : ∀ V c, (Pipeline.ΦA spec1 c : sProp 𝕄) ⊢ (dat1 V c).Φ 0
  hout1 : ∀ V c, (dat1 V c).Φ (Fin.last cfg1.N) ⊢ (Pipeline.ΦA spec1 c : sProp 𝕄)

variable (m : (ℓ : Loc nD τ sig) → Buf (Elt F) ℓ)

/-! ## The buffer contents at each segment boundary: a fold through the entry function -/

/-- Core c's buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b
/-- At the first region's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 dat0 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m c (Proc.devRef .tc b) = W1 m c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 dat0 m c b
/-- At the first region's exit each of its arrays holds what the pipeline leaves and every other buffer what it
    held at entry. -/
theorem hF0 (c : Dev nD) (w : Fin cfg0.W) : (dat0 (V1 m) c).arrAt w cfg0.N = V2 dat0 m c (Pipeline.arrRef spec0 w) :=
  (W2_arr dat0 m c w).symm
theorem hrest0 (c : Dev nD) : ∀ b, b ∉ Finset.univ.image (Pipeline.arrRef spec0) → V2 dat0 m c b = V1 m c b :=
  fun b hb => W2_of_ne dat0 m c b fun w e => hb (Finset.mem_image.mpr ⟨w, Finset.mem_univ _, e⟩)

/-- After the second host stretch (the second region's entry). -/
abbrev W3 : Dev nD → Valuation τ sig (Elt F) := fun c => StableHlo.after hostOps1 (W2 dat0 m c)
/-- The same read at the TensorCore's references (what the second region's proof data take). -/
abbrev V3 : (c : Dev nD) → (b : Ref sig .tc) → Buf (Elt F) ((c : Thread nD τ).loc b) := fun c b => W3 dat0 m c b
/-- At the second region's exit: its arrays at what the pipeline leaves, every other buffer as entered. -/
def W4 (c : Dev nD) : Valuation τ sig (Elt F) :=
  Pipeline.withArrays spec1 c (W3 dat0 m c) fun w => (dat1 (V3 dat0 m) c).arrAt w cfg1.N
theorem W4_arr (c : Dev nD) (w : Fin cfg1.W) :
    W4 dat0 dat1 m c (Proc.devRef .tc (Pipeline.arrRef spec1 w)) = (dat1 (V3 dat0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m c (Proc.devRef .tc b) = W3 dat0 m c (Proc.devRef .tc b) := by
  unfold W4; exact Pipeline.withArrays_of_ne spec1 c _ _ b hb
/-- The same read at the TensorCore's references (the second region's exit contents). -/
abbrev V4 : (c : Dev nD) → (b : Ref sig .tc) → Buf (Elt F) ((c : Thread nD τ).loc b) := fun c b => W4 dat0 dat1 m c b
theorem hF1 (c : Dev nD) (w : Fin cfg1.W) : (dat1 (V3 dat0 m) c).arrAt w cfg1.N = V4 dat0 dat1 m c (Pipeline.arrRef spec1 w) :=
  (W4_arr dat0 dat1 m c w).symm
theorem hrest1 (c : Dev nD) : ∀ b, b ∉ Finset.univ.image (Pipeline.arrRef spec1) → V4 dat0 dat1 m c b = V3 dat0 m c b :=
  fun b hb => W4_of_ne dat0 dat1 m c b fun w e => hb (Finset.mem_image.mpr ⟨w, Finset.mem_univ _, e⟩)

/-! ### A buffer no host operation writes and no region's window names walks back to the launch memory -/

/-- The first host stretch leaves a buffer it does not write as launched. -/
theorem W1_of (c : Dev nD) (r : Ref sig .tc) (h : r ∉ hostOps0_W) :
    W1 m c (Proc.devRef .tc r) = m ((c : Thread nD τ).loc r) :=
  (StableHlo.after_of_writes_sub hostOps0 _ hostOps0_writes h).trans rfl
/-- The second host stretch leaves a buffer it does not write as the first region left it. -/
theorem W3_of (c : Dev nD) (r : Ref sig .tc) (h : r ∉ hostOps1_W) :
    W3 dat0 m c (Proc.devRef .tc r) = W2 dat0 m c (Proc.devRef .tc r) :=
  StableHlo.after_of_writes_sub hostOps1 _ hostOps1_writes h

/-- A buffer that is no window's array of either region and that no host operation writes ends as launched. -/
theorem W4_of_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 dat0 dat1 m c (Proc.devRef .tc r) = m ((c : Thread nD τ).loc r) :=
  calc W4 dat0 dat1 m c (Proc.devRef .tc r)
    _ = W3 dat0 m c (Proc.devRef .tc r) := W4_of_ne dat0 dat1 m c r h4
    _ = W2 dat0 m c (Proc.devRef .tc r) := W3_of dat0 m c r h3
    _ = W1 m c (Proc.devRef .tc r) := W2_of_ne dat0 m c r h2
    _ = m ((c : Thread nD τ).loc r) := W1_of m c r h1

theorem W4_main_arg0 (c : Dev nD) : W4 dat0 dat1 m c (Proc.devRef .tc main_arg0) = m ((c : Thread nD τ).loc main_arg0) :=
  W4_of_untouched dat0 dat1 m c main_arg0 (by decide) (by decide) (by decide) (by decide)
theorem W4_main_arg1 (c : Dev nD) : W4 dat0 dat1 m c (Proc.devRef .tc main_arg1) = m ((c : Thread nD τ).loc main_arg1) :=
  W4_of_untouched dat0 dat1 m c main_arg1 (by decide) (by decide) (by decide) (by decide)
theorem W4_main_arg2 (c : Dev nD) : W4 dat0 dat1 m c (Proc.devRef .tc main_arg2) = m ((c : Thread nD τ).loc main_arg2) :=
  W4_of_untouched dat0 dat1 m c main_arg2 (by decide) (by decide) (by decide) (by decide)
theorem W4_main_arg3 (c : Dev nD) : W4 dat0 dat1 m c (Proc.devRef .tc main_arg3) = m ((c : Thread nD τ).loc main_arg3) :=
  W4_of_untouched dat0 dat1 m c main_arg3 (by decide) (by decide) (by decide) (by decide)
theorem W4_main_arg4 (c : Dev nD) : W4 dat0 dat1 m c (Proc.devRef .tc main_arg4) = m ((c : Thread nD τ).loc main_arg4) :=
  W4_of_untouched dat0 dat1 m c main_arg4 (by decide) (by decide) (by decide) (by decide)
theorem W4_main_arg6 (c : Dev nD) : W4 dat0 dat1 m c (Proc.devRef .tc main_arg6) = m ((c : Thread nD τ).loc main_arg6) :=
  W4_of_untouched dat0 dat1 m c main_arg6 (by decide) (by decide) (by decide) (by decide)
theorem W4_main_arg7 (c : Dev nD) : W4 dat0 dat1 m c (Proc.devRef .tc main_arg7) = m ((c : Thread nD τ).loc main_arg7) :=
  W4_of_untouched dat0 dat1 m c main_arg7 (by decide) (by decide) (by decide) (by decide)
theorem W4_main_arg8 (c : Dev nD) : W4 dat0 dat1 m c (Proc.devRef .tc main_arg8) = m ((c : Thread nD τ).loc main_arg8) :=
  W4_of_untouched dat0 dat1 m c main_arg8 (by decide) (by decide) (by decide) (by decide)
theorem W4_main_arg9 (c : Dev nD) : W4 dat0 dat1 m c (Proc.devRef .tc main_arg9) = m ((c : Thread nD τ).loc main_arg9) :=
  W4_of_untouched dat0 dat1 m c main_arg9 (by decide) (by decide) (by decide) (by decide)

/-- The second region reads this argument through its window 0, an input: the window's array stays as entered. -/
theorem W4_main_arg5 (hd : RegData dat0 dat1) (c : Dev nD) :
    W4 dat0 dat1 m c (Proc.devRef .tc main_arg5) = m ((c : Thread nD τ).loc main_arg5) :=
  calc W4 dat0 dat1 m c (Proc.devRef .tc main_arg5)
    _ = W3 dat0 m c (Proc.devRef .tc main_arg5) :=
        (W4_arr dat0 dat1 m c 0).trans (((dat1 (V3 dat0 m) c).arrAt_in 0 rfl _).trans (hd.hA1 (V3 dat0 m) c 0))
    _ = W2 dat0 m c (Proc.devRef .tc main_arg5) := W3_of dat0 m c main_arg5 (by decide)
    _ = W1 m c (Proc.devRef .tc main_arg5) := W2_of_ne dat0 m c main_arg5 (by decide)
    _ = m ((c : Thread nD τ).loc main_arg5) := W1_of m c main_arg5 (by decide)

/-- The second region's output array ends at what its write-backs leave. -/
theorem W4_main_v30 (c : Dev nD) :
    W4 dat0 dat1 m c (Proc.devRef .tc main_v30) = (dat1 (V3 dat0 m) c).arrAt 4 cfg1.N :=
  W4_arr dat0 dat1 m c 4
/-- The first region's output arrays leave it at what its write-backs leave. -/
theorem W2_main_v27_0 (c : Dev nD) :
    W2 dat0 m c (Proc.devRef .tc main_v27_0) = (dat0 (V1 m) c).arrAt 8 cfg0.N :=
  W2_arr dat0 m c 8
theorem W2_main_v27_1 (c : Dev nD) :
    W2 dat0 m c (Proc.devRef .tc main_v27_1) = (dat0 (V1 m) c).arrAt 9 cfg0.N :=
  W2_arr dat0 m c 9

/-! ## The proof data family and the thread state -/

/-- Every pipeline's proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 dat0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it is left at
    the fold of its operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 dat0 dat1 m c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at the contents before it, left at the
    contents after it.  Its arrays are split out of the unscoped buffers and put back at the exit contents; the
    generator register goes into the invariant and comes back; nothing is owed; the kernel has no semaphore of
    its own. -/
def reg0 (hd : RegData dat0 dat1) : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := (hd.hbody0 (V1 m) c).loose
  hwaits := Pipeline.hwaits_of_owed_zero _ _ _ _ L lv 0 fun c t => hd.howed0 (V1 m) c t
  pre c := iprop(StableHlo.held (c : Thread nD τ) (Pipeline.ucRefs τ sig) (W1 m c) ∗ R c)
  post c := iprop(StableHlo.held (c : Thread nD τ) (Pipeline.ucRefs τ sig) (W2 dat0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hd.hq0 (V1 m) c w) (V1 m c) fun w => hd.hA0 (V1 m) c w
    rw [Pipeline.unscopedBufs_held] at hsplit
    have hrec : (pdats dat0 dat1 m 0 c).recorded 0 = Set.univ := hd.hrec0 (V1 m) c
    have how : (pdats dat0 dat1 m 0 c).owed 0 = 0 := hd.howed0 (V1 m) c 0
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how]
      icases HO with ⟨%W, HO⟩; iexists W; isplitr; · ipureintro; exact fun x _ => Or.inl (by rw [hrec]; trivial)
      iexact HO
    isplitl [Hp]; · iexact Hp
    iexact Hrest
  hin c := by
    have h : (Pipeline.ΦA spec0 c : sProp 𝕄) ⊢ (pdats dat0 dat1 m 0 c).Φ 0 := hd.hin0 (V1 m) c
    refine BIBase.Entails.trans ?_ h
    unfold Pipeline.ΦA
    iintro ⟨Hp, -, Hr⟩
    isplitl [Hr]; · iexact Hr
    iexact Hp
  hout c := by
    have h : (pdats dat0 dat1 m 0 c).Φ (Fin.last _) ⊢ (Pipeline.ΦA spec0 c : sProp 𝕄) := hd.hout0 (V1 m) c
    rw [Pipeline.ownSems0_none]
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hd.hq0 (V1 m) c w)
      (V1 m c) (V2 dat0 m c) ((pdats dat0 dat1 m 0 c).arrAt · cfg0.N) (hF0 dat0 m c) (hrest0 dat0 m c)
    rw [Pipeline.unscopedBufs_held] at hjoin
    have how : (pdats dat0 dat1 m 0 c).owed (Fin.last _) = 0 := hd.howed0 (V1 m) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how]
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at the contents before it, left at the
    contents after it.  Its arrays are split out of the unscoped buffers and put back at the exit contents; the
    generator register goes into the invariant and comes back; nothing is owed; the kernel has no semaphore of
    its own. -/
def reg1 (hd : RegData dat0 dat1) : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := (hd.hbody1 (V3 dat0 m) c).loose
  hwaits := Pipeline.hwaits_of_owed_zero _ _ _ _ L lv 1 fun c t => hd.howed1 (V3 dat0 m) c t
  pre c := iprop(StableHlo.held (c : Thread nD τ) (Pipeline.ucRefs τ sig) (W3 dat0 m c) ∗ R c)
  post c := iprop(Tₙ dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hd.hq1 (V3 dat0 m) c w) (V3 dat0 m c) fun w => hd.hA1 (V3 dat0 m) c w
    rw [Pipeline.unscopedBufs_held] at hsplit
    have hrec : (pdats dat0 dat1 m 1 c).recorded 0 = Set.univ := hd.hrec1 (V3 dat0 m) c
    have how : (pdats dat0 dat1 m 1 c).owed 0 = 0 := hd.howed1 (V3 dat0 m) c 0
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how]
      icases HO with ⟨%W, HO⟩; iexists W; isplitr; · ipureintro; exact fun x _ => Or.inl (by rw [hrec]; trivial)
      iexact HO
    isplitl [Hp]; · iexact Hp
    iexact Hrest
  hin c := by
    have h : (Pipeline.ΦA spec1 c : sProp 𝕄) ⊢ (pdats dat0 dat1 m 1 c).Φ 0 := hd.hin1 (V3 dat0 m) c
    refine BIBase.Entails.trans ?_ h
    unfold Pipeline.ΦA
    iintro ⟨Hp, -, Hr⟩
    isplitl [Hr]; · iexact Hr
    iexact Hp
  hout c := by
    have h : (pdats dat0 dat1 m 1 c).Φ (Fin.last _) ⊢ (Pipeline.ΦA spec1 c : sProp 𝕄) := hd.hout1 (V3 dat0 m) c
    rw [Pipeline.ownSems0_none]
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hd.hq1 (V3 dat0 m) c w)
      (V3 dat0 m c) (V4 dat0 dat1 m c) ((pdats dat0 dat1 m 1 c).arrAt · cfg1.N) (hF1 dat0 dat1 m c) (hrest1 dat0 dat1 m c)
    rw [Pipeline.unscopedBufs_held] at hjoin
    have how : (pdats dat0 dat1 m 1 c).owed (Fin.last _) = 0 := hd.howed1 (V3 dat0 m) c _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [how]
    icases HO with ⟨%W, -, HO⟩; iexists W; iexact HO

/-! ## The entry function as segments, and the launch -/

/-- The 4 segments in order: a host segment per stretch from its boundary's contents, a region per kernel call. -/
abbrev segs (hd : RegData dat0 dat1) : List (Pipeline.Seg (pcfgs (F := F)) adm (pdats dat0 dat1 m) () defs₀ 𝒱₀ L lv) :=
  [ .host (hseg hostOps0 hostOps0_sub hostOps0_fresh (W0 m)),
    .region (reg0 dat0 dat1 m hd),
    .host (hseg hostOps1 hostOps1_sub hostOps1_fresh (W2 dat0 m)),
    .region (reg1 dat0 dat1 m hd) ]
/-- The entry function IS the run of the segments. -/
theorem main_run (hd : RegData dat0 dat1) (c : Dev nD) : main (F := F) c = Pipeline.Seg.run (segs dat0 dat1 m hd) :=
  (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the entry function on the
    TensorCores terminates, nothing faulting, and in every final state every unscoped buffer holds the last
    boundary's contents. -/
theorem run_all (hd : RegData dat0 dat1) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W4 dat0 dat1 m c b) :=
  Pipeline.θ_run_regions_kit (pcfgs (F := F)) adm (pdats dat0 dat1 m) () cellOf_inj emb₁ defs₀ 𝒱₀ L lv m ρ main (segs dat0 dat1 m hd)
    (fun c Q => by rw [main_run dat0 dat1 m hd c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ dat0 dat1 m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (W4 dat0 dat1 m c) s')
      isplitl [Hh] <;> iassumption)
    (hQ := fun s h => h)

end Run

end Cert.Kernel.Fr

end
-- ==== Proof.K.Frames.lean ====
/-
  The frame of the kernel program: the facts about the two regions' proof data that its run over the four
  segments of @main asks for, and from the run - every unscoped buffer read at the last boundary's contents -
  the claim that every argument array ends as launched, and the same run with the result array named.
-/
import proofs.«127976_j3624952398656_1_alg».proof.Proof.K.Reg0
import proofs.«127976_j3624952398656_1_alg».proof.Proof.K.Reg1
import proofs.«127976_j3624952398656_1_alg».proof.Proof.K.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the run asks of the two regions' proof data. -/
theorem regData : RegData (F := F) (fun V c => dat0 V c) (fun V c => dat1 V c) where
  hA0 := fun V c w => A_eq0 V c w
  hA1 := fun V c w => A_eq1 V c w
  hq0 := fun _ _ _ => rfl
  hq1 := fun _ _ _ => rfl
  howed0 := fun _ _ _ => rfl
  howed1 := fun _ _ _ => rfl
  hrec0 := fun _ _ => rfl
  hrec1 := fun _ _ => rfl
  hbody0 := fun V c => body_obligation0 V c
  hbody1 := fun V c => body_obligation1 V c
  hin0 := fun _ _ => .rfl
  hout0 := fun _ _ => .rfl
  hin1 := fun V c => hin1 V c
  hout1 := fun V c => hout1 V c

variable (m : (ℓ : Loc nD τ sig) → Buf (Elt F) ℓ) (ρ : Dev nD → PrngReg)

/-- What the result array holds when @main returns: what region 1's write-backs leave in it. -/
abbrev resultOf (c : Dev nD) : Buf (Elt F) ((c.tc : Thread nD τ).loc main_v30) :=
  (dat1 (V3 (fun V c => dat0 V c) m) c).arrAt 4 cfg1.N

/-- Every weakly fair execution of @main terminates, faults nowhere, and ends with the result array at
    `resultOf` and every argument array as launched. -/
theorem run_out : θ_run defs (onTc (τ := τ) (main (F := F))) ⟨m, fun _ => 0, ρ⟩ (fun r => ∀ c : Dev nD,
      r.2.mem ((c.tc : Thread nD τ).loc main_v30) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c =>
    ⟨(h c _ (mem_uc main_v30 (by decide))).trans (W4_main_v30 _ _ m c),
      (h c _ (mem_uc main_arg0 (by decide))).trans (W4_main_arg0 _ _ m c),
      (h c _ (mem_uc main_arg1 (by decide))).trans (W4_main_arg1 _ _ m c),
      (h c _ (mem_uc main_arg2 (by decide))).trans (W4_main_arg2 _ _ m c),
      (h c _ (mem_uc main_arg3 (by decide))).trans (W4_main_arg3 _ _ m c),
      (h c _ (mem_uc main_arg4 (by decide))).trans (W4_main_arg4 _ _ m c),
      (h c _ (mem_uc main_arg5 (by decide))).trans (W4_main_arg5 _ _ m regData c),
      (h c _ (mem_uc main_arg6 (by decide))).trans (W4_main_arg6 _ _ m c),
      (h c _ (mem_uc main_arg7 (by decide))).trans (W4_main_arg7 _ _ m c),
      (h c _ (mem_uc main_arg8 (by decide))).trans (W4_main_arg8 _ _ m c),
      (h c _ (mem_uc main_arg9 (by decide))).trans (W4_main_arg9 _ _ m c)⟩) (run_all (fun V c => dat0 V c) (fun V c => dat1 V c) m regData ρ)

/-- The frame: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c => (h c).2) (run_out m ρ)

end Cert.Kernel.Fr

end
-- ==== Proof.KI.Reg0Defs.lean ====
/-
  Region 0 of the kernel program (the edge perceptron, 16 grid points of 4096 edges): the blocks its windows
  stage, what its body leaves in the two output windows' buffers as a function of the staged blocks, and the
  proof data of its pipeline, at any float instance and at any contents `V` of the buffers when the region is
  entered.  Windows 0 and 1 are the gathered source and target rows (blocked along the edges), windows 2..7
  the four weight matrices and the two bias rows (one block, fetched once), windows 8 and 9 the messages `y`
  and the lane-broadcast logits `ab` (blocked along the edges, written back at every point).
-/
import proofs.«127976_j3624952398656_1_alg».proof.Proof.Gen.KernelIdeal.Launch
import proofs.«127976_j3624952398656_1_alg».proof.Proof.Gen.KernelIdeal.Skeleton
import proofs.«127976_j3624952398656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangles the body loads and stores through. -/
abbrev rE : Rect S4096x128 := Rect.unit (s := S4096x128) ![0, 0] S4096x128.size inb_S4096x128_S4096x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The messages' buffer (window 8) after the body: one whole store of
    max(src·Wy1 + tgt·Wy2 + fb, 0), from the staged blocks. -/
def out0_8 (x0 x1 : Vec F S4096x128 .f32) (x2 x3 : Vec F S128x128 .f32) (x6 : Vec F S1x128 .f32) : Vec F S4096x128 .f32 :=
  View.canon [⟨rE, k0_pay4 (View.ld x0 rE) (View.ld x1 rE) (View.ld x2 rW) (View.ld x3 rW) (View.ld x6 rB)⟩]

/-- The logits' buffer (window 9) after the body: one whole store of src·Wa1 + tgt·Wa2 + wb. -/
def out0_9 (x0 x1 : Vec F S4096x128 .f32) (x4 x5 : Vec F S128x128 .f32) (x7 : Vec F S1x128 .f32) : Vec F S4096x128 .f32 :=
  View.canon [⟨rE, k0_pay3 (View.ld x0 rE) (View.ld x1 rE) (View.ld x4 rW) (View.ld x5 rW) (View.ld x7 rB)⟩]

/-- The proof data of pipeline 0 on core `c`: the arrays as the region finds them; after the body each input's
    buffer still holds its block and each output's holds the body's store; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 6 t)
    | ⟨9, _⟩ => out0_9 (iblk0 V c 0 t) (iblk0 V c 1 t) (iblk0 V c 4 t) (iblk0 V c 5 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 6 t) := by dsimp only [dat0]
theorem after0_9 (c : Dev nD) (t : Fin cfg0.N) : (dat0 V c).after 9 t
    = out0_9 (iblk0 V c 0 t) (iblk0 V c 1 t) (iblk0 V c 4 t) (iblk0 V c 5 t) (iblk0 V c 7 t) := by dsimp only [dat0]

end Cert.KernelIdeal.Fr

end
-- ==== Proof.KI.Reg0.lean ====
/-
  Region 0 of the kernel program: the body obligation of its pipeline, at any float instance and at any contents
  `V` of the buffers when the region is entered.  Each of the eight input windows' staging buffers holds the
  window's block at every point (the six one-block windows are fetched at the first point only and never move);
  the body, run on whole staging buffers, leaves the inputs as they were, the messages' buffer at `out0_8` of the
  staged blocks and the logits' buffer at `out0_9` of them; so the body meets the pipeline's obligation at every
  point.
-/
import proofs.«127976_j3624952398656_1_alg».proof.Proof.KI.Reg0Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not: unfetched, the
    block index has not moved, and the body leaves the block in place; the window is uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not: unfetched, the
    block index has not moved, and the body leaves the block in place; the window is uncut and never idle. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not: unfetched, the
    block index has not moved, and the body leaves the block in place; the window is uncut and never idle. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not: unfetched, the
    block index has not moved, and the body leaves the block in place; the window is uncut and never idle. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4's current staging buffer holds its block at every point, fetched there or not: unfetched, the
    block index has not moved, and the body leaves the block in place; the window is uncut and never idle. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5's current staging buffer holds its block at every point, fetched there or not: unfetched, the
    block index has not moved, and the body leaves the block in place; the window is uncut and never idle. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Input window 6's current staging buffer holds its block at every point, fetched there or not: unfetched, the
    block index has not moved, and the body leaves the block in place; the window is uncut and never idle. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Input window 7's current staging buffer holds its block at every point, fetched there or not: unfetched, the
    block index has not moved, and the body leaves the block in place; the window is uncut and never idle. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body's stores cover the output buffers -/

/-- One whole store tiles the buffer, so it covers it. -/
theorem coverE (p0 : Vec F S4096x128 .f32) (y : S4096x128.Idx) :
    ∃ pc ∈ ([⟨rE, p0⟩] : List (View.Piece (Elt F) S4096x128 .f32)), y ∈ pc.1.set :=
  View.cover_of_tiled [⟨rE, p0⟩] S4096x128.size (by rfl) y

/-! ## The body's triple -/
set_option maxHeartbeats 1000000 in
/-- The kernel body on whole staging buffers, the inputs' at read contents `xW` and the outputs' at anything, runs to
    the continuation holding the inputs' as they were, the messages' buffer at `out0_8` and the logits' at `out0_9` of
    the inputs': the body and its part are their skeletons of loads and stores over payloads, run operation by
    operation through the part's call (the part stores the messages and returns the logits' payload, which the
    body then stores). -/
theorem sound_kernel0 (c : Dev nD) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S4096x128 .f32) (harg10 : arg10.IsWhole)
    (x0 x1 : Vec F S4096x128 .f32) (x2 x3 x4 x5 : Vec F S128x128 .f32) (x6 x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x6) ∗ owns (c : Thread nD τ) arg10 fullShare (out0_9 x0 x1 x4 x5 x7)) -∗ K ⟨⟩))
      ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10) K := by
  simp only [cc0__kernel_a_body_eq_skeleton]; unfold cc0__kernel_a_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverE _)
  iexists _; isplitr
  swap; · iexact H9
  ipureintro
  try dsimp only
  exact View.read_writes_eq_canon _ _ _ (coverE _)

/-! ## The body obligation, at a generic point -/

/-- What the body is called with at point `t`: the invariant, the core's debts, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks (`before0_W`), so `sound_kernel0` applies;
    the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1Defs.lean ====
/-
  Region 1 of the kernel program (the edge-softmax aggregation, a 2 x 32 grid: row block i of 1024 nodes, edge
  tile j of 2048 edges): the blocks its windows stage, the two accumulators its body carries in scratch from
  one grid point to the next (the weighted sum of messages and the normaliser of the row block, restarted at
  every first tile), what the body leaves in the output window at a last tile, the invariant between points and
  the proof data of its pipeline, at any float instance and at any contents `V` of the buffers when the region
  is entered.  Window 0 is the incidence matrix (block (i, j)), windows 1 and 2 the messages and the logits
  (block (j, 0)), window 3 the global maximum (one block), window 4 the result (block (i, 0), stored and written
  back at the last tile of a row block only).
-/
import proofs.«127976_j3624952398656_1_alg».proof.Proof.Gen.KernelIdeal.Launch
import proofs.«127976_j3624952398656_1_alg».proof.Proof.Gen.KernelIdeal.Skeleton
import proofs.«127976_j3624952398656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, from the grid coordinates -/

/-- "This is the first edge tile of the row block": the accumulators are restarted. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- "This is the last edge tile of the row block": the quotient is stored. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The output window is idle exactly off the last tiles, where it is not written back either. -/
theorem idle1_4 : ∀ t : Fin cfg1.N, ¬ t.val % 32 = 31 → cfg1.idle 4 (grid1.coords t) = true :=
  (by decide +kernel : ∀ t : Fin grid1.N, ¬ t.val % 32 = 31 → cfg1.idle 4 (grid1.coords t) = true)
theorem live1_4 : ∀ t : Fin cfg1.N, t.val % 32 = 31 → cfg1.idle 4 (grid1.coords t) = false :=
  (by decide +kernel : ∀ t : Fin grid1.N, t.val % 32 = 31 → cfg1.idle 4 (grid1.coords t) = false)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel

/-! ## The carried accumulators -/

/-- The two scratch operands: whole scoped buffers of the kernel's own. -/
abbrev scM0 : Memref sig .tc .vmem S1024x128 .f32 := Memref.whole cc1_scratch0
abbrev scM1 : Memref sig .tc .vmem S1024x128 .f32 := Memref.whole cc1_scratch1

/-- The accumulators as restarted at a first tile: both zero. -/
def accInit : Vec F S1024x128 .f32 × Vec F S1024x128 .f32 := (k1_pay1 (F := F), k1_pay2 (F := F))

/-- One tile's step: the incidence block times (messages · exp(logits − max)) is added to the first
    accumulator, the incidence block times exp(logits − max) to the second. -/
def accStep (x0 : Vec F S1024x2048 .f32) (x1 x2 : Vec F S2048x128 .f32) (x3 : Vec F S1x1 .f32)
    (s : Vec F S1024x128 .f32 × Vec F S1024x128 .f32) : Vec F S1024x128 .f32 × Vec F S1024x128 .f32 :=
  (k1_pay5 x0 x1 x2 x3 s.1, k1_pay6 x0 x2 x3 s.2)

/-- What the two scratch buffers hold after the body at position `n`. -/
def acc1 (c : Dev nD) : (n : ℕ) → n < cfg1.N → Vec F S1024x128 .f32 × Vec F S1024x128 .f32
  | 0, hn => accStep (iblk1 V c 0 ⟨0, hn⟩) (iblk1 V c 1 ⟨0, hn⟩) (iblk1 V c 2 ⟨0, hn⟩) (iblk1 V c 3 ⟨0, hn⟩) accInit
  | n + 1, hn => accStep (iblk1 V c 0 ⟨n + 1, hn⟩) (iblk1 V c 1 ⟨n + 1, hn⟩) (iblk1 V c 2 ⟨n + 1, hn⟩) (iblk1 V c 3 ⟨n + 1, hn⟩)
      (if (n + 1) % 32 = 0 then accInit else acc1 c n (Nat.lt_of_succ_lt hn))

theorem acc1_first (c : Dev nD) (t : Fin cfg1.N) (h : t.val % 32 = 0) :
    acc1 V c t.val t.isLt = accStep (iblk1 V c 0 t) (iblk1 V c 1 t) (iblk1 V c 2 t) (iblk1 V c 3 t) accInit := by
  obtain ⟨n, hn⟩ := t
  cases n with
  | zero => rfl
  | succ n => exact congrArg _ (if_pos h)

theorem acc1_next (c : Dev nD) (t : Fin cfg1.N) (h : ¬ t.val % 32 = 0) :
    acc1 V c t.val t.isLt = accStep (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The scoped buffers of the core that are neither a staging buffer of this pipeline nor its scratch
    (the other pipeline's staging buffers), each at some contents, beside `P`. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ P)

theorem restWith_mono (c : Dev nD) {P Q : sProp 𝕄} (h : P ⊢ Q) : restWith (F := F) c P ⊢ restWith c Q := by
  unfold restWith
  iintro ⟨A1, A2, A3, A4, A5, A6, A7, A8, A9, A10, A11, A12, A13, A14, HP⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iapply h; iexact HP

/-- The class invariant (the scoped rest and the generator register) with the two scratch buffers owned
    as memrefs at some contents. -/
theorem PhiA1_eq (c : Dev nD) :
    (Pipeline.ΦA spec1 c : sProp 𝕄)
      = iprop(restWith c iprop((∃ d, owns (c : Thread nD τ) scM0 fullShare d) ∗ (∃ d, owns (c : Thread nD τ) scM1 fullShare d)) ∗ (∃ r, prngReg c r)) := by
  unfold Pipeline.ΦA restWith; rw [scopedRest1_eq]; simp only [scM0, scM1, owns_whole]; try rfl

/-- The invariant: before the first point the class invariant; after position `n` the scratch buffers at
    the accumulators `acc1 … n`, the other scoped buffers and the generator register as they come. -/
def PhiS (c : Dev nD) : (n : ℕ) → n ≤ cfg1.N → sProp 𝕄
  | 0, _ => Pipeline.ΦA spec1 c
  | n + 1, hn => iprop(restWith c iprop(owns (c : Thread nD τ) scM0 fullShare (acc1 V c n hn).1 ∗ owns (c : Thread nD τ) scM1 fullShare (acc1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c iprop(owns (c : Thread nD τ) scM0 fullShare (acc1 V c n hn).1 ∗ owns (c : Thread nD τ) scM1 fullShare (acc1 V c n hn).2) ∗ (∃ r, prngReg c r)) := rfl

theorem PhiS_pos (c : Dev nD) (n : ℕ) (h : n ≤ cfg1.N) (hz : n ≠ 0) :
    PhiS V c n h = iprop(restWith c iprop(owns (c : Thread nD τ) scM0 fullShare (acc1 V c (n - 1) (by omega)).1 ∗ owns (c : Thread nD τ) scM1 fullShare (acc1 V c (n - 1) (by omega)).2) ∗ (∃ r, prngReg c r)) := by
  cases n with
  | zero => exact absurd rfl hz
  | succ n => rfl

/-! ## The proof data -/

/-- The quotient the body stores at a last tile, from the accumulators it has then. -/
def out1_4 (s : Vec F S1024x128 .f32 × Vec F S1024x128 .f32) : Vec F S1024x128 .f32 := k1_pay7 s.1 s.2

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (acc1 V c t.val t.isLt) := by dsimp only [dat1]

theorem Phi1_castSucc (c : Dev nD) (t : Fin cfg1.N) :
    (dat1 V c).Φ t.castSucc = PhiS V c t.val (Nat.le_of_lt t.isLt) := by dsimp only [dat1]; rfl

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- Named contents of the two scratch buffers are in particular some contents. -/
theorem own2_forget (c : Dev nD) (a b : Vec F S1024x128 .f32) :
    (iprop(owns (c : Thread nD τ) scM0 fullShare a ∗ owns (c : Thread nD τ) scM1 fullShare b) : sProp 𝕄)
      ⊢ iprop((∃ d, owns (c : Thread nD τ) scM0 fullShare d) ∗ (∃ d, owns (c : Thread nD τ) scM1 fullShare d)) := by
  iintro ⟨H0, H1⟩
  isplitl [H0]
  · iexists _; iexact H0
  · iexists _; iexact H1

/-- After any point but the first the invariant gives the class invariant back: the accumulators are forgotten. -/
theorem Phi1_out (c : Dev nD) (n : ℕ) (h : n ≤ cfg1.N) (hz : n ≠ 0) : PhiS V c n h ⊢ (Pipeline.ΦA spec1 c : sProp 𝕄) := by
  rw [PhiS_pos V c n h hz, PhiA1_eq]
  exact sep_mono (restWith_mono c (own2_forget c _ _)) .rfl

/-- The same after the last point. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl]
  exact Phi1_out V c _ _ (by rw [Fin.val_last]; have : cfg1.N = 64 := N_1; omega)

end Cert.KernelIdeal.Fr

end
-- ==== Proof.KI.Reg1Body.lean ====
/-
  The body of region 1 on whole staging memrefs, case by case of its two conditions (first tile of a row
  block: the accumulators are zeroed, then the tile is added; a tile in between: the tile is added; last
  tile: the tile is added and the quotient of the two accumulators is stored), and from these the body
  obligation of the pipeline over the proof data `dat1`.
-/
import proofs.«127976_j3624952398656_1_alg».proof.Proof.KI.Reg1Defs
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offset, as the whole-rectangle lemmas ask for it. -/
theorem zero2 : (![0, 0] : Fin 2 → Nat) = fun _ => 0 := by
  funext a; fin_cases a <;> rfl

abbrev rA : Rect S1024x128 := Rect.unit (s := S1024x128) ![0, 0] S1024x128.size inb_S1024x128_S1024x128_0_0

/-- One whole store covers the accumulator's shape. -/
theorem coverA (p0 : Vec F S1024x128 .f32) (y : S1024x128.Idx) :
    ∃ pc ∈ ([⟨rA, p0⟩] : List (View.Piece (Elt F) S1024x128 .f32)), y ∈ pc.1.set :=
  View.cover_of_tiled [⟨rA, p0⟩] S1024x128.size (by rfl) y

/-- So does a whole store on top of anything. -/
theorem coverA_cons (p0 : Vec F S1024x128 .f32) (L : List (View.Piece (Elt F) S1024x128 .f32)) (y : S1024x128.Idx) :
    ∃ pc ∈ ((⟨rA, p0⟩ : View.Piece (Elt F) S1024x128 .f32) :: L), y ∈ pc.1.set := by
  obtain ⟨pc, hpc, hy⟩ := coverA p0 y
  exact ⟨pc, List.mem_cons.mpr (Or.inl (List.mem_singleton.mp hpc)), hy⟩

/-- What a whole store over anything leaves, read back. -/
theorem read_whole_store (v : View sig .tc .vmem S1024x128 .f32) (g : v.ty.Contents (Elt F)) (p0 : Vec F S1024x128 .f32)
    (L : List (View.Piece (Elt F) S1024x128 .f32)) :
    v.read (Elt F) (v.writes (Elt F) g ((⟨rA, p0⟩ : View.Piece (Elt F) S1024x128 .f32) :: L)) = p0 := by
  rw [View.read_writes_eq_canon _ _ _ (coverA_cons p0 L)]
  exact View.canon_cons_unit_zero zero2 _ p0 L

set_option maxHeartbeats 1000000 in
/-- A tile in between: each accumulator gains the tile's term. -/
theorem sound_kernel1_B (c : Dev nD) (E : Set ℕ) (i : grid1.Coords) (arg2 : Memref sig .tc .vmem S1024x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (hc0 : ¬ cond1_0 i) (hc1 : ¬ cond1_1 i)
    (x0 : Vec F S1024x2048 .f32) (x1 x2 : Vec F S2048x128 .f32) (x3 : Vec F S1x1 .f32) (s0 s1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k1_pay5 x0 x1 x2 x3 s0) ∗ owns (c : Thread nD τ) arg8 fullShare (k1_pay6 x0 x2 x3 s1)) -∗ K ⟨⟩))
      ⊢ wp frame (wpE (defs₀ (F := F)) Variants.none c none) E (cc1__kernel_c_body i arg2 harg2 arg3 harg3 arg4 harg4 arg5 harg5 arg6 harg6 arg7 harg7 arg8 harg8) K := by
  simp only [cc1__kernel_c_body_eq_skeleton]; unfold cc1__kernel_c_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%g0, %hg0, HS0⟩, ⟨%g1, %hg1, HS1⟩, Hk⟩
  subst hf0 hf1 hf2 hf3 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  · iexists _; isplitr
    swap; · iexact HS1
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]

set_option maxHeartbeats 1000000 in
/-- The first tile of a row block: the accumulators are zeroed, then gain the tile's term. -/
theorem sound_kernel1_A (c : Dev nD) (E : Set ℕ) (i : grid1.Coords) (arg2 : Memref sig .tc .vmem S1024x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (hc0 : cond1_0 i) (hc1 : ¬ cond1_1 i)
    (x0 : Vec F S1024x2048 .f32) (x1 x2 : Vec F S2048x128 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k1_pay5 x0 x1 x2 x3 (k1_pay1 (F := F))) ∗ owns (c : Thread nD τ) arg8 fullShare (k1_pay6 x0 x2 x3 (k1_pay2 (F := F)))) -∗ K ⟨⟩))
      ⊢ wp frame (wpE (defs₀ (F := F)) Variants.none c none) E (cc1__kernel_c_body i arg2 harg2 arg3 harg3 arg4 harg4 arg5 harg5 arg6 harg6 arg7 harg7 arg8 harg8) K := by
  simp only [cc1__kernel_c_body_eq_skeleton]; unfold cc1__kernel_c_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d0, %g0, -, HS0⟩, ⟨%d1, %g1, -, HS1⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  · iexists _; isplitr
    swap; · iexact HS1
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]

set_option maxHeartbeats 1000000 in
/-- The last tile of a row block: the accumulators gain the tile's term and their quotient is stored. -/
theorem sound_kernel1_C (c : Dev nD) (E : Set ℕ) (i : grid1.Coords) (arg2 : Memref sig .tc .vmem S1024x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (hc0 : ¬ cond1_0 i) (hc1 : cond1_1 i)
    (x0 : Vec F S1024x2048 .f32) (x1 x2 : Vec F S2048x128 .f32) (x3 : Vec F S1x1 .f32) (s0 s1 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay7 (k1_pay5 x0 x1 x2 x3 s0) (k1_pay6 x0 x2 x3 s1))
            ∗ owns (c : Thread nD τ) arg7 fullShare (k1_pay5 x0 x1 x2 x3 s0) ∗ owns (c : Thread nD τ) arg8 fullShare (k1_pay6 x0 x2 x3 s1)) -∗ K ⟨⟩))
      ⊢ wp frame (wpE (defs₀ (F := F)) Variants.none c none) E (cc1__kernel_c_body i arg2 harg2 arg3 harg3 arg4 harg4 arg5 harg5 arg6 harg6 arg7 harg7 arg8 harg8) K := by
  simp only [cc1__kernel_c_body_eq_skeleton]; unfold cc1__kernel_c_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d6, %g6, -, H6⟩, ⟨%g0, %hg0, HS0⟩, ⟨%g1, %hg1, HS1⟩, Hk⟩
  subst hf0 hf1 hf2 hf3 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  isplitl [HS0]
  · iexists _; isplitr
    swap; · iexact HS0
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]
  · iexists _; isplitr
    swap; · iexact HS1
    ipureintro
    (try sl_unfold_run_names)
    rw [read_whole_store]
    (try sl_unfold_run_names)
    simp only [View.readAt_eq_ld, View.ld_unit_zero (S := S1024x2048) zero2, View.ld_unit_zero (S := S2048x128) zero2, View.ld_unit_zero (S := S1x1) zero2, View.ld_unit_zero (S := S1024x128) zero2, View.readCov_unit_zero (S := S1024x128) _ zero2]

end Cert.KernelIdeal.Fr

end
-- ==== Proof.KI.Reg1.lean ====
/-
  The body obligation of region 1: at every grid point the body, called on the windows' current staging
  buffers and on the two scratch buffers the invariant hands it, runs to the invariant of the next point - the
  scratch buffers at the accumulators of this point - with every input's buffer as it was and the output's
  buffer untouched off the last tiles and at the quotient of the accumulators at a last tile.
-/
import proofs.«127976_j3624952398656_1_alg».proof.Proof.KI.Reg1Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer: the window's block, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The other scoped buffers ride along -/

theorem restWith_elim (c : Dev nD) (P : sProp 𝕄) : restWith (F := F) c P ⊢ iprop(restWith c iprop(emp) ∗ P) := by
  unfold restWith
  iintro ⟨A1, A2, A3, A4, A5, A6, A7, A8, A9, A10, A11, A12, A13, A14, HP⟩
  isplitr [HP]
  swap; · iexact HP
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iempintro

theorem restWith_intro (c : Dev nD) (P : sProp 𝕄) : iprop(restWith c iprop(emp) ∗ P) ⊢ restWith (F := F) c P := by
  unfold restWith
  iintro ⟨⟨A1, A2, A3, A4, A5, A6, A7, A8, A9, A10, A11, A12, A13, A14, -⟩, HP⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iexact HP

/-! ## The output window off and at the last tiles -/

theorem noflush1_4 (t : Fin cfg1.N) (h : ¬ t.val % 32 = 31) : (cfg1.win 4).flush t = false := by
  cases hf : (cfg1.win 4).flush t
  · rfl
  · exact absurd ((flush1_4 t).mp hf) h

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
        unfold Dat.leavesExact; rw [live1_0 t], after1_0,
    show (dat1 V c).leavesExact 1 t = owns (c : Thread nD τ) (st1_1 t) fullShare ((dat1 V c).after 1 t) from by
        unfold Dat.leavesExact; rw [live1_1 t], after1_1,
    show (dat1 V c).leavesExact 2 t = owns (c : Thread nD τ) (st1_2 t) fullShare ((dat1 V c).after 2 t) from by
        unfold Dat.leavesExact; rw [live1_2 t], after1_2,
    show (dat1 V c).leavesExact 3 t = owns (c : Thread nD τ) (st1_3 t) fullShare ((dat1 V c).after 3 t) from by
        unfold Dat.leavesExact; rw [live1_3 t], after1_3]
  have hN : t.val < 64 := lt_of_lt_of_eq t.isLt (show cfg1.N = 64 from N_1)
  by_cases h0 : t.val % 32 = 0
  · -- the first tile of a row block
    have h1 : ¬ t.val % 32 = 31 := by omega
    rw [Dat.leavesExact_idle (dat1 V c) 4 t (idle1_4 t h1) (noflush1_4 t h1)]
    rw [acc1_first V c t h0]; unfold accStep accInit; dsimp only
    have hΦ : (dat1 V c).Φ t.castSucc ⊢ (iprop(restWith c iprop((∃ d, owns (c : Thread nD τ) scM0 fullShare d) ∗ (∃ d, owns (c : Thread nD τ) scM1 fullShare d)) ∗ (∃ r, prngReg c r)) : sProp 𝕄) := by
      rw [← PhiA1_eq, Phi1_castSucc]
      by_cases hz : t.val = 0
      · rw [PhiS_zero V c _ _ hz]
      · exact Phi1_out V c _ _ hz
    iintro ⟨HPhi, Ho, ⟨%d0, H0⟩, ⟨%d1, H1⟩, ⟨%d2, H2⟩, ⟨%d3, H3⟩, ⟨%d4, H4⟩⟩
    ihave HP2 := hΦ $$ HPhi
    icases HP2 with ⟨HR, Hg⟩
    ihave HR' := (restWith_elim c _) $$ HR
    icases HR' with ⟨HR0, ⟨HS0, HS1⟩⟩
    iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HR0 HS0 HS1 Hg]
    · isplitl [HR0 HS0 HS1]
      · iapply (restWith_intro c _)
        isplitl [HR0]; · iexact HR0
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · by_cases h1 : t.val % 32 = 31
    · -- the last tile of a row block
      have hz : t.val ≠ 0 := by omega
      rw [show (dat1 V c).leavesExact 4 t = owns (c : Thread nD τ) (st1_4 t) fullShare ((dat1 V c).after 4 t) from by
            unfold Dat.leavesExact; rw [live1_4 t h1], after1_4]
      rw [acc1_next V c t h0]; unfold out1_4 accStep; dsimp only
      rw [Phi1_castSucc, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (restWith_elim c _) $$ HR
      icases HR' with ⟨HR0, ⟨HS0, HS1⟩⟩
      iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HR0 HS0 HS1 Hg]
      · isplitl [HR0 HS0 HS1]
        · iapply (restWith_intro c _)
          isplitl [HR0]; · iexact HR0
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a tile in between
      have hz : t.val ≠ 0 := by omega
      rw [Dat.leavesExact_idle (dat1 V c) 4 t (idle1_4 t h1) (noflush1_4 t h1)]
      rw [acc1_next V c t h0]; unfold accStep; dsimp only
      rw [Phi1_castSucc, PhiS_pos V c _ _ hz]
      iintro ⟨⟨HR, Hg⟩, Ho, ⟨%d0, H0⟩, ⟨%d1, H1⟩, ⟨%d2, H2⟩, ⟨%d3, H3⟩, ⟨%d4, H4⟩⟩
      ihave HR' := (restWith_elim c _) $$ HR
      icases HR' with ⟨HR0, ⟨HS0, HS1⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HR0 HS0 HS1 Hg]
      · isplitl [HR0 HS0 HS1]
        · iapply (restWith_intro c _)
          isplitl [HR0]; · iexact HR0
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The run of the kernel program's entry function: a stretch of 31 host operations, the first kernel region
  (10 windows), a stretch of 3 host operations, the second kernel region (5 windows).  Stated at any float
  instance and at ANY proof data of the two pipelines of which the following is known: each window's array at
  entry is read off the buffer contents the region is entered from, every share is full, nothing is owed, the
  body obligation holds, and the invariant at the first point follows from (at the last point gives back) the
  scoped buffers no window stages beside the generator register.  From these: the buffer contents at the five
  segment boundaries as a fold from the launch memory, the two regions as segments over the thread state "every
  unscoped buffer at the boundary's contents, the generator register at some state, nothing owed", and the run
  itself: every weakly fair execution terminates and every unscoped buffer ends at the last boundary's contents.
  The arguments are read back through the fold to their launch contents; the regions' outputs to what the
  pipelines' write-backs leave.
-/
import proofs.«127976_j3624952398656_1_alg».proof.Proof.Gen.KernelIdeal.Launch
import proofs.«127976_j3624952398656_1_alg».proof.Proof.Gen.KernelIdeal.Skeleton
import proofs.«127976_j3624952398656_1_alg».proof.Proof.Gen.KernelIdeal.Points
import proofs.«127976_j3624952398656_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F]

local notation "𝕄" => MT nD τ sig Unit (Elt F) ℕ (UR sig nD τ) ℕ

-- the two pipelines' proof data, each a function of the buffer contents its region is entered from
variable (dat0 : (V : (c : Dev nD) → (b : Ref sig .tc) → Buf (Elt F) ((c : Thread nD τ).loc b)) → (c : Dev nD) → Dat τ (Elt F) Unit ℕ (UR sig nD τ) ℕ cfg0 c)
variable (dat1 : (V : (c : Dev nD) → (b : Ref sig .tc) → Buf (Elt F) ((c : Thread nD τ).loc b)) → (c : Dev nD) → Dat τ (Elt F) Unit ℕ (UR sig nD τ) ℕ cfg1 c)

/-- What the run needs to know of the two proof data. -/
structure RegData : Prop where
  /-- Each window's array at entry is the entry contents' at the window's reference. -/
  hA0 : ∀ V c w, (dat0 V c).A w = V c (Pipeline.arrRef spec0 w)
  hA1 : ∀ V c w, (dat1 V c).A w = V c (Pipeline.arrRef spec1 w)
  /-- Every input array is held at the full share. -/
  hq0 : ∀ V c w, (dat0 V c).q w = fullShare
  hq1 : ∀ V c w, (dat1 V c).q w = fullShare
  /-- Nothing is owed at any point. -/
  howed0 : ∀ V c t, (dat0 V c).owed t = 0
  howed1 : ∀ V c t, (dat1 V c).owed t = 0
  /-- No bound is put on the pairs recorded before the first point. -/
  hrec0 : ∀ V c, (dat0 V c).recorded 0 = Set.univ
  hrec1 : ∀ V c, (dat1 V c).recorded 0 = Set.univ
  /-- The body obligations. -/
  hbody0 : ∀ V c, BodyObligation (dat0 V c) (defs₀ (F := F)) Variants.none () Set.univ
  hbody1 : ∀ V c, BodyObligation (dat1 V c) (defs₀ (F := F)) Variants.none () Set.univ
  /-- The invariant at the first point from, and at the last point back to, the scoped buffers no window
      stages beside the generator register. -/
  hin0 : ∀ V c, (Pipeline.ΦA spec0 c : sProp 𝕄) ⊢ (dat0 V c).Φ 0
  hout0 : ∀ V c, (dat0 V c).Φ (Fin.last cfg0.N) ⊢ (Pipeline.ΦA spec0 c : sProp 𝕄)
  hin1 : ∀ V c, (Pipeline.ΦA spec1 c : sProp 𝕄) ⊢ (dat1 V c).Φ 0
  hout1 : ∀ V c, (dat1 V c).Φ (Fin.last cfg1.N) ⊢ (Pipeline.ΦA spec1 c : sProp 𝕄)

variable (m : (ℓ : Loc nD τ sig) → Buf (Elt F) ℓ)

/-! ## The buffer contents at each segment boundary: a fold through the entry function -/

/-- Core c's buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b
/-- At the first region's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 dat0 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m c (Proc.devRef .tc b) = W1 m c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 dat0 m c b
/-- At the first region's exit each of its arrays holds what the pipeline leaves and every other buffer what it
    held at entry. -/
theorem hF0 (c : Dev nD) (w : Fin cfg0.W) : (dat0 (V1 m) c).arrAt w cfg0.N = V2 dat0 m c (Pipeline.arrRef spec0 w) :=
  (W2_arr dat0 m c w).symm
theorem hrest0 (c : Dev nD) : ∀ b, b ∉ Finset.univ.image (Pipeline.arrRef spec0) → V2 dat0 m c b = V1 m c b :=
  fun b hb => W2_of_ne dat0 m c b fun w e => hb (Finset.mem_image.mpr ⟨w, Finset.mem_univ _, e⟩)

/-- After the second host stretch (the second region's entry). -/
abbrev W3 : Dev nD → Valuation τ sig (Elt F) := fun c => StableHlo.after hostOps1 (W2 dat0 m c)
/-- The same read at the TensorCore's references (what the second region's proof data take). -/
abbrev V3 : (c : Dev nD) → (b : Ref sig .tc) → Buf (Elt F) ((c : Thread nD τ).loc b) := fun c b => W3 dat0 m c b
/-- At the second region's exit: its arrays at what the pipeline leaves, every other buffer as entered. -/
def W4 (c : Dev nD) : Valuation τ sig (Elt F) :=
  Pipeline.withArrays spec1 c (W3 dat0 m c) fun w => (dat1 (V3 dat0 m) c).arrAt w cfg1.N
theorem W4_arr (c : Dev nD) (w : Fin cfg1.W) :
    W4 dat0 dat1 m c (Proc.devRef .tc (Pipeline.arrRef spec1 w)) = (dat1 (V3 dat0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m c (Proc.devRef .tc b) = W3 dat0 m c (Proc.devRef .tc b) := by
  unfold W4; exact Pipeline.withArrays_of_ne spec1 c _ _ b hb
/-- The same read at the TensorCore's references (the second region's exit contents). -/
abbrev V4 : (c : Dev nD) → (b : Ref sig .tc) → Buf (Elt F) ((c : Thread nD τ).loc b) := fun c b => W4 dat0 dat1 m c b
theorem hF1 (c : Dev nD) (w : Fin cfg1.W) : (dat1 (V3 dat0 m) c).arrAt w cfg1.N = V4 dat0 dat1 m c (Pipeline.arrRef spec1 w) :=
  (W4_arr dat0 dat1 m c w).symm
theorem hrest1 (c : Dev nD) : ∀ b, b ∉ Finset.univ.image (Pipeline.arrRef spec1) → V4 dat0 dat1 m c b = V3 dat0 m c b :=
  fun b hb => W4_of_ne dat0 dat1 m c b fun w e => hb (Finset.mem_image.mpr ⟨w, Finset.mem_univ _, e⟩)

/-! ### A buffer no host operation writes and no region's window names walks back to the launch memory -/

/-- The first host stretch leaves a buffer it does not write as launched. -/
theorem W1_of (c : Dev nD) (r : Ref sig .tc) (h : r ∉ hostOps0_W) :
    W1 m c (Proc.devRef .tc r) = m ((c : Thread nD τ).loc r) :=
  (StableHlo.after_of_writes_sub hostOps0 _ hostOps0_writes h).trans rfl
/-- The second host stretch leaves a buffer it does not write as the first region left it. -/
theorem W3_of (c : Dev nD) (r : Ref sig .tc) (h : r ∉ hostOps1_W) :
    W3 dat0 m c (Proc.devRef .tc r) = W2 dat0 m c (Proc.devRef .tc r) :=
  StableHlo.after_of_writes_sub hostOps1 _ hostOps1_writes h

/-- A buffer that is no window's array of either region and that no host operation writes ends as launched. -/
theorem W4_of_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 dat0 dat1 m c (Proc.devRef .tc r) = m ((c : Thread nD τ).loc r) :=
  calc W4 dat0 dat1 m c (Proc.devRef .tc r)
    _ = W3 dat0 m c (Proc.devRef .tc r) := W4_of_ne dat0 dat1 m c r h4
    _ = W2 dat0 m c (Proc.devRef .tc r) := W3_of dat0 m c r h3
    _ = W1 m c (Proc.devRef .tc r) := W2_of_ne dat0 m c r h2
    _ = m ((c : Thread nD τ).loc r) := W1_of m c r h1

theorem W4_main_arg0 (c : Dev nD) : W4 dat0 dat1 m c (Proc.devRef .tc main_arg0) = m ((c : Thread nD τ).loc main_arg0) :=
  W4_of_untouched dat0 dat1 m c main_arg0 (by decide) (by decide) (by decide) (by decide)
theorem W4_main_arg1 (c : Dev nD) : W4 dat0 dat1 m c (Proc.devRef .tc main_arg1) = m ((c : Thread nD τ).loc main_arg1) :=
  W4_of_untouched dat0 dat1 m c main_arg1 (by decide) (by decide) (by decide) (by decide)
theorem W4_main_arg2 (c : Dev nD) : W4 dat0 dat1 m c (Proc.devRef .tc main_arg2) = m ((c : Thread nD τ).loc main_arg2) :=
  W4_of_untouched dat0 dat1 m c main_arg2 (by decide) (by decide) (by decide) (by decide)
theorem W4_main_arg3 (c : Dev nD) : W4 dat0 dat1 m c (Proc.devRef .tc main_arg3) = m ((c : Thread nD τ).loc main_arg3) :=
  W4_of_untouched dat0 dat1 m c main_arg3 (by decide) (by decide) (by decide) (by decide)
theorem W4_main_arg4 (c : Dev nD) : W4 dat0 dat1 m c (Proc.devRef .tc main_arg4) = m ((c : Thread nD τ).loc main_arg4) :=
  W4_of_untouched dat0 dat1 m c main_arg4 (by decide) (by decide) (by decide) (by decide)
theorem W4_main_arg6 (c : Dev nD) : W4 dat0 dat1 m c (Proc.devRef .tc main_arg6) = m ((c : Thread nD τ).loc main_arg6) :=
  W4_of_untouched dat0 dat1 m c main_arg6 (by decide) (by decide) (by decide) (by decide)
theorem W4_main_arg7 (c : Dev nD) : W4 dat0 dat1 m c (Proc.devRef .tc main_arg7) = m ((c : Thread nD τ).loc main_arg7) :=
  W4_of_untouched dat0 dat1 m c main_arg7 (by decide) (by decide) (by decide) (by decide)
theorem W4_main_arg8 (c : Dev nD) : W4 dat0 dat1 m c (Proc.devRef .tc main_arg8) = m ((c : Thread nD τ).loc main_arg8) :=
  W4_of_untouched dat0 dat1 m c main_arg8 (by decide) (by decide) (by decide) (by decide)
theorem W4_main_arg9 (c : Dev nD) : W4 dat0 dat1 m c (Proc.devRef .tc main_arg9) = m ((c : Thread nD τ).loc main_arg9) :=
  W4_of_untouched dat0 dat1 m c main_arg9 (by decide) (by decide) (by decide) (by decide)

/-- The second region reads this argument through its window 0, an input: the window's array stays as entered. -/
theorem W4_main_arg5 (hd : RegData dat0 dat1) (c : Dev nD) :
    W4 dat0 dat1 m c (Proc.devRef .tc main_arg5) = m ((c : Thread nD τ).loc main_arg5) :=
  calc W4 dat0 dat1 m c (Proc.devRef .tc main_arg5)
    _ = W3 dat0 m c (Proc.devRef .tc main_arg5) :=
        (W4_arr dat0 dat1 m c 0).trans (((dat1 (V3 dat0 m) c).arrAt_in 0 rfl _).trans (hd.hA1 (V3 dat0 m) c 0))
    _ = W2 dat0 m c (Proc.devRef .tc main_arg5) := W3_of dat0 m c main_arg5 (by decide)
    _ = W1 m c (Proc.devRef .tc main_arg5) := W2_of_ne dat0 m c main_arg5 (by decide)
    _ = m ((c : Thread nD τ).loc main_arg5) := W1_of m c main_arg5 (by decide)

/-- The second region's output array ends at what its write-backs leave. -/
theorem W4_main_v30 (c : Dev nD) :
    W4 dat0 dat1 m c (Proc.devRef .tc main_v30) = (dat1 (V3 dat0 m) c).arrAt 4 cfg1.N :=
  W4_arr dat0 dat1 m c 4
/-- The first region's output arrays leave it at what its write-backs leave. -/
theorem W2_main_v27_0 (c : Dev nD) :
    W2 dat0 m c (Proc.devRef .tc main_v27_0) = (dat0 (V1 m) c).arrAt 8 cfg0.N :=
  W2_arr dat0 m c 8
theorem W2_main_v27_1 (c : Dev nD) :
    W2 dat0 m c (Proc.devRef .tc main_v27_1) = (dat0 (V1 m) c).arrAt 9 cfg0.N :=
  W2_arr dat0 m c 9

/-! ## The proof data family and the thread state -/

/-- Every pipeline's proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 dat0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it is left at
    the fold of its operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 dat0 dat1 m c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at the contents before it, left at the
    contents after it.  Its arrays are split out of the unscoped buffers and put back at the exit contents; the
    generator register goes into the invariant and comes back; nothing is owed; the kernel has no semaphore of
    its own. -/
def reg0 (hd : RegData dat0 dat1) : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := (hd.hbody0 (V1 m) c).loose
  hwaits := Pipeline.hwaits_of_owed_zero _ _ _ _ L lv 0 fun c t => hd.howed0 (V1 m) c t
  pre c := iprop(StableHlo.held (c : Thread nD τ) (Pipeline.ucRefs τ sig) (W1 m c) ∗ R c)
  post c := iprop(StableHlo.held (c : Thread nD τ) (Pipeline.ucRefs τ sig) (W2 dat0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hd.hq0 (V1 m) c w) (V1 m c) fun w => hd.hA0 (V1 m) c w
    rw [Pipeline.unscopedBufs_held] at hsplit
    have hrec : (pdats dat0 dat1 m 0 c).recorded 0 = Set.univ := hd.hrec0 (V1 m) c
    have how : (pdats dat0 dat1 m 0 c).owed 0 = 0 := hd.howed0 (V1 m) c 0
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how]
      icases HO with ⟨%W, HO⟩; iexists W; isplitr; · ipureintro; exact fun x _ => Or.inl (by rw [hrec]; trivial)
      iexact HO
    isplitl [Hp]; · iexact Hp
    iexact Hrest
  hin c := by
    have h : (Pipeline.ΦA spec0 c : sProp 𝕄) ⊢ (pdats dat0 dat1 m 0 c).Φ 0 := hd.hin0 (V1 m) c
    refine BIBase.Entails.trans ?_ h
    unfold Pipeline.ΦA
    iintro ⟨Hp, -, Hr⟩
    isplitl [Hr]; · iexact Hr
    iexact Hp
  hout c := by
    have h : (pdats dat0 dat1 m 0 c).Φ (Fin.last _) ⊢ (Pipeline.ΦA spec0 c : sProp 𝕄) := hd.hout0 (V1 m) c
    rw [Pipeline.ownSems0_none]
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hd.hq0 (V1 m) c w)
      (V1 m c) (V2 dat0 m c) ((pdats dat0 dat1 m 0 c).arrAt · cfg0.N) (hF0 dat0 m c) (hrest0 dat0 m c)
    rw [Pipeline.unscopedBufs_held] at hjoin
    have how : (pdats dat0 dat1 m 0 c).owed (Fin.last _) = 0 := hd.howed0 (V1 m) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how]
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at the contents before it, left at the
    contents after it.  Its arrays are split out of the unscoped buffers and put back at the exit contents; the
    generator register goes into the invariant and comes back; nothing is owed; the kernel has no semaphore of
    its own. -/
def reg1 (hd : RegData dat0 dat1) : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := (hd.hbody1 (V3 dat0 m) c).loose
  hwaits := Pipeline.hwaits_of_owed_zero _ _ _ _ L lv 1 fun c t => hd.howed1 (V3 dat0 m) c t
  pre c := iprop(StableHlo.held (c : Thread nD τ) (Pipeline.ucRefs τ sig) (W3 dat0 m c) ∗ R c)
  post c := iprop(Tₙ dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hd.hq1 (V3 dat0 m) c w) (V3 dat0 m c) fun w => hd.hA1 (V3 dat0 m) c w
    rw [Pipeline.unscopedBufs_held] at hsplit
    have hrec : (pdats dat0 dat1 m 1 c).recorded 0 = Set.univ := hd.hrec1 (V3 dat0 m) c
    have how : (pdats dat0 dat1 m 1 c).owed 0 = 0 := hd.howed1 (V3 dat0 m) c 0
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how]
      icases HO with ⟨%W, HO⟩; iexists W; isplitr; · ipureintro; exact fun x _ => Or.inl (by rw [hrec]; trivial)
      iexact HO
    isplitl [Hp]; · iexact Hp
    iexact Hrest
  hin c := by
    have h : (Pipeline.ΦA spec1 c : sProp 𝕄) ⊢ (pdats dat0 dat1 m 1 c).Φ 0 := hd.hin1 (V3 dat0 m) c
    refine BIBase.Entails.trans ?_ h
    unfold Pipeline.ΦA
    iintro ⟨Hp, -, Hr⟩
    isplitl [Hr]; · iexact Hr
    iexact Hp
  hout c := by
    have h : (pdats dat0 dat1 m 1 c).Φ (Fin.last _) ⊢ (Pipeline.ΦA spec1 c : sProp 𝕄) := hd.hout1 (V3 dat0 m) c
    rw [Pipeline.ownSems0_none]
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hd.hq1 (V3 dat0 m) c w)
      (V3 dat0 m c) (V4 dat0 dat1 m c) ((pdats dat0 dat1 m 1 c).arrAt · cfg1.N) (hF1 dat0 dat1 m c) (hrest1 dat0 dat1 m c)
    rw [Pipeline.unscopedBufs_held] at hjoin
    have how : (pdats dat0 dat1 m 1 c).owed (Fin.last _) = 0 := hd.howed1 (V3 dat0 m) c _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [how]
    icases HO with ⟨%W, -, HO⟩; iexists W; iexact HO

/-! ## The entry function as segments, and the launch -/

/-- The 4 segments in order: a host segment per stretch from its boundary's contents, a region per kernel call. -/
abbrev segs (hd : RegData dat0 dat1) : List (Pipeline.Seg (pcfgs (F := F)) adm (pdats dat0 dat1 m) () defs₀ 𝒱₀ L lv) :=
  [ .host (hseg hostOps0 hostOps0_sub hostOps0_fresh (W0 m)),
    .region (reg0 dat0 dat1 m hd),
    .host (hseg hostOps1 hostOps1_sub hostOps1_fresh (W2 dat0 m)),
    .region (reg1 dat0 dat1 m hd) ]
/-- The entry function IS the run of the segments. -/
theorem main_run (hd : RegData dat0 dat1) (c : Dev nD) : main (F := F) c = Pipeline.Seg.run (segs dat0 dat1 m hd) :=
  (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the entry function on the
    TensorCores terminates, nothing faulting, and in every final state every unscoped buffer holds the last
    boundary's contents. -/
theorem run_all (hd : RegData dat0 dat1) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W4 dat0 dat1 m c b) :=
  Pipeline.θ_run_regions_kit (pcfgs (F := F)) adm (pdats dat0 dat1 m) () cellOf_inj emb₁ defs₀ 𝒱₀ L lv m ρ main (segs dat0 dat1 m hd)
    (fun c Q => by rw [main_run dat0 dat1 m hd c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ dat0 dat1 m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (W4 dat0 dat1 m c) s')
      isplitl [Hh] <;> iassumption)
    (hQ := fun s h => h)

end Run

end Cert.KernelIdeal.Fr

end
-- ==== Proof.KI.Frames.lean ====
/-
  The frame of the kernel program: the facts about the two regions' proof data that its run over the four
  segments of @main asks for, and from the run - every unscoped buffer read at the last boundary's contents -
  the claim that every argument array ends as launched, and the same run with the result array named.
-/
import proofs.«127976_j3624952398656_1_alg».proof.Proof.KI.Reg0
import proofs.«127976_j3624952398656_1_alg».proof.Proof.KI.Reg1
import proofs.«127976_j3624952398656_1_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the run asks of the two regions' proof data. -/
theorem regData : RegData (F := F) (fun V c => dat0 V c) (fun V c => dat1 V c) where
  hA0 := fun V c w => A_eq0 V c w
  hA1 := fun V c w => A_eq1 V c w
  hq0 := fun _ _ _ => rfl
  hq1 := fun _ _ _ => rfl
  howed0 := fun _ _ _ => rfl
  howed1 := fun _ _ _ => rfl
  hrec0 := fun _ _ => rfl
  hrec1 := fun _ _ => rfl
  hbody0 := fun V c => body_obligation0 V c
  hbody1 := fun V c => body_obligation1 V c
  hin0 := fun _ _ => .rfl
  hout0 := fun _ _ => .rfl
  hin1 := fun V c => hin1 V c
  hout1 := fun V c => hout1 V c

variable (m : (ℓ : Loc nD τ sig) → Buf (Elt F) ℓ) (ρ : Dev nD → PrngReg)

/-- What the result array holds when @main returns: what region 1's write-backs leave in it. -/
abbrev resultOf (c : Dev nD) : Buf (Elt F) ((c.tc : Thread nD τ).loc main_v30) :=
  (dat1 (V3 (fun V c => dat0 V c) m) c).arrAt 4 cfg1.N

/-- Every weakly fair execution of @main terminates, faults nowhere, and ends with the result array at
    `resultOf` and every argument array as launched. -/
theorem run_out : θ_run defs (onTc (τ := τ) (main (F := F))) ⟨m, fun _ => 0, ρ⟩ (fun r => ∀ c : Dev nD,
      r.2.mem ((c.tc : Thread nD τ).loc main_v30) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c =>
    ⟨(h c _ (mem_uc main_v30 (by decide))).trans (W4_main_v30 _ _ m c),
      (h c _ (mem_uc main_arg0 (by decide))).trans (W4_main_arg0 _ _ m c),
      (h c _ (mem_uc main_arg1 (by decide))).trans (W4_main_arg1 _ _ m c),
      (h c _ (mem_uc main_arg2 (by decide))).trans (W4_main_arg2 _ _ m c),
      (h c _ (mem_uc main_arg3 (by decide))).trans (W4_main_arg3 _ _ m c),
      (h c _ (mem_uc main_arg4 (by decide))).trans (W4_main_arg4 _ _ m c),
      (h c _ (mem_uc main_arg5 (by decide))).trans (W4_main_arg5 _ _ m regData c),
      (h c _ (mem_uc main_arg6 (by decide))).trans (W4_main_arg6 _ _ m c),
      (h c _ (mem_uc main_arg7 (by decide))).trans (W4_main_arg7 _ _ m c),
      (h c _ (mem_uc main_arg8 (by decide))).trans (W4_main_arg8 _ _ m c),
      (h c _ (mem_uc main_arg9 (by decide))).trans (W4_main_arg9 _ _ m c)⟩) (run_all (fun V c => dat0 V c) (fun V c => dat1 V c) m regData ρ)

/-- The frame: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c => (h c).2) (run_out m ρ)

end Cert.KernelIdeal.Fr

end
-- ==== Proof.LibHostMaxAll.lean ====
/-
  The host's one-operand reduction by the float maximum, read on the extended reals.

  On the extended reals the float maximum is `max`, which commutes and associates, so a reduction by it at a result
  index `j` is the fold of `max`, from the initial value, over the set of operand indices that reduce into `j`, in any
  order.  Such a fold is determined by what it is bounded by: `fold max b f ≤ c` exactly when `b ≤ c` and every
  `f i ≤ c`.  That is the universal property of `b ⊔ ⨆ i, f i`, so the two are equal.

  * `fold_max_eq_sup_iSup`: the fold over a finite set is `b ⊔ ⨆ i ∈ S, f i`.
  * `hostReduce_maximumf_eq_iSup`: a reduction over any axes, at `j`, is the initial value joined with the supremum of
    the operand over the indices that reduce into `j`.
  * `hostReduce_maximumf_all`: into a shape whose every axis has size one (rank zero in particular, where the
    hypothesis is vacuous) every operand index reduces into the one result index, and the value is the initial value
    joined with the supremum of the whole operand.
  * `ofBits_negInf_f32`: the f32 word `0xFF800000` (minus infinity) is `⊥`.
  * `hostReduce_maximumf_all_bot`, `hostReduce_maximumf_all_negInf`: from `⊥`, just the supremum of the operand.
-/
import Idealize.ShloMosaic.PureOps.Ideal
import Idealize.ShloMosaic.PureOps.Ideal.Laws
import Idealize.ShloMosaic.PureOps.Reduce
import Idealize.ShloMosaic.PureOps.Contract
import Idealize.ShloMosaic.PureOps.Vector

noncomputable section

namespace Cert.Attn.Lib

open Idealize.ShloMosaic

/-- A fold of `max` from `b` over a finite set is `b` joined with the supremum of the function over the set: both are
    below `c` exactly when `b` and every value are. -/
theorem fold_max_eq_sup_iSup {ι : Type} (S : Finset ι) (b : EReal) (f : ι → EReal) :
    S.fold max b f = b ⊔ ⨆ i ∈ S, f i := by
  refine eq_of_forall_ge_iff fun c => ?_
  rw [Finset.fold_max_le, sup_le_iff, iSup₂_le_iff]

/-- The same over every index of a finite type. -/
theorem fold_max_univ_eq_sup_iSup {ι : Type} [Fintype ι] (b : EReal) (f : ι → EReal) :
    (Finset.univ : Finset ι).fold max b f = b ⊔ ⨆ i, f i := by
  rw [fold_max_eq_sup_iSup]
  simp only [Finset.mem_univ, iSup_pos]

/-- The host's reduction by the float maximum over ANY axes, on the extended reals, read at a result index `j`: the
    initial value's element joined with the supremum of the operand over the indices that reduce into `j`. -/
theorem hostReduce_maximumf_eq_iSup {s t u : Shape} {axes : List (Fin s.rank)} {φ : FTy}
    (x : s.Idx → Ideal φ) (init : u.Idx → Ideal φ) (h : s.ReducesTo axes t) (hu : 0 < u.numel) (j : t.Idx) :
    Host.reduce (FloatOps.maximumf (F := Ideal) (φ := φ)) x init h hu j
      = init (Shape.Idx.first hu) ⊔ ⨆ i : s.Idx, ⨆ _ : h.drop i = j, x i := by
  rw [Host.reduce_eq_fold]
  refine (fold_max_eq_sup_iSup _ _ _).trans ?_
  simp only [Finset.mem_filter, Finset.mem_univ, true_and]

/-- The host's reduction by the float maximum over ALL axes — into a shape whose every axis has size one, rank zero in
    particular — on the extended reals, read at its one index: the initial value's element joined with the supremum
    of the whole operand. -/
theorem hostReduce_maximumf_all {s t u : Shape} {axes : List (Fin s.rank)} {φ : FTy}
    (x : s.Idx → Ideal φ) (init : u.Idx → Ideal φ) (h : s.ReducesTo axes t) (hu : 0 < u.numel)
    (ht : ∀ b, t.size b = 1) (j : t.Idx) :
    Host.reduce (FloatOps.maximumf (F := Ideal) (φ := φ)) x init h hu j
      = init (Shape.Idx.first hu) ⊔ ⨆ i : s.Idx, x i := by
  rw [Host.reduce_eq_fold, Finset.filter_true_of_mem fun i _ => funext fun b => Fin.ext (by
    have := (h.drop i b).isLt; have := (j b).isLt; have := ht b; omega)]
  exact fold_max_univ_eq_sup_iSup _ _

/-- The f32 word of minus infinity is the bottom of the extended reals. -/
theorem ofBits_negInf_f32 : Ideal.ofBits .f32 0xFF800000#32 = ⊥ := by
  simp [Ideal.ofBits, Ideal.ieee]

/-- From an initial value whose element is `⊥` the reduction over all axes is the supremum of the operand. -/
theorem hostReduce_maximumf_all_bot {s t u : Shape} {axes : List (Fin s.rank)} {φ : FTy}
    (x : s.Idx → Ideal φ) (init : u.Idx → Ideal φ) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [hostReduce_maximumf_all x init h hu ht j, hinit, bot_sup_eq]

/-- From the constant f32 word `0xFF800000` (minus infinity): the supremum of the operand. -/
theorem hostReduce_maximumf_all_negInf {s t u : Shape} {axes : List (Fin s.rank)}
    (x : s.Idx → Ideal .f32) (h : s.ReducesTo axes t) (hu : 0 < u.numel) (ht : ∀ b, t.size b = 1) (j : t.Idx) :
    Host.reduce (FloatOps.maximumf (F := Ideal) (φ := .f32)) x (constant (F := Ideal) u .f32 0xFF800000#32) h hu j
      = ⨆ i : s.Idx, x i :=
  hostReduce_maximumf_all_bot x _ h hu ht ofBits_negInf_f32 j

/-- From the same constant, over any axes: the supremum over the indices that reduce into `j`. -/
theorem hostReduce_maximumf_negInf {s t u : Shape} {axes : List (Fin s.rank)}
    (x : s.Idx → Ideal .f32) (h : s.ReducesTo axes t) (hu : 0 < u.numel) (j : t.Idx) :
    Host.reduce (FloatOps.maximumf (F := Ideal) (φ := .f32)) x (constant (F := Ideal) u .f32 0xFF800000#32) h hu j
      = ⨆ i : s.Idx, ⨆ _ : h.drop i = j, x i := by
  rw [hostReduce_maximumf_eq_iSup x _ h hu j]
  exact (congrArg (· ⊔ _) ofBits_negInf_f32).trans (bot_sup_eq _)

end Cert.Attn.Lib

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Ref.RefG.lean ====
/-
  The reference program read as ONE explicit function on the extended reals.

  For every edge e the two gathered rows (source row, target row) are laid side by side into a row of 256 entries
  (hcat).  From it: the message y(e, q) = max(sum_k hcat(e,k) * fW(k,q) + fb(q), 0) and the logit
  a(e) = sum_k hcat(e,k) * wW(k,0) + wb(0).  With amax the supremum of all logits, aexp(e) = exp(a(e) - amax), and
  the result at (n, q) is the quotient of sum_e M(n,e) * (y(e,q) * aexp(e)) by (sum_e M(n,e) * aexp(e)) + eps.
  The gathered rows themselves are carried as opaque arrays (hs, ht): nothing below looks inside the gather.
-/
import proofs.«127976_j3624952398656_1_alg».proof.Proof.Gen.ReferenceIdeal.Read
import proofs.«127976_j3624952398656_1_alg».proof.Proof.LibHostMaxAll
import proofs.«127976_j3624952398656_1_alg».proof.Proof.LibUnitAxes
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

variable (x0 : (⟨S2048x128, .f32⟩ : BufTy).Contents (Elt Ideal))
  (x2 x3 : (⟨S65536, .i32⟩ : BufTy).Contents (Elt Ideal))
  (x5 : (⟨S2048x65536, .f32⟩ : BufTy).Contents (Elt Ideal))
  (x6 : (⟨S256x128, .f32⟩ : BufTy).Contents (Elt Ideal))
  (x7 : (⟨S128, .f32⟩ : BufTy).Contents (Elt Ideal))
  (x8 : (⟨S256x1, .f32⟩ : BufTy).Contents (Elt Ideal))
  (x9 : (⟨S1, .f32⟩ : BufTy).Contents (Elt Ideal))

/-! ## The function -/

/-- The rows gathered at the source endpoints, as an array [65536, 128]. -/
def hs : (⟨S65536x128, .f32⟩ : BufTy).Contents (Elt Ideal) := Read.val_main_v6 (F := Ideal) x0 x2

/-- The rows gathered at the target endpoints, as an array [65536, 128]. -/
def ht : (⟨S65536x128, .f32⟩ : BufTy).Contents (Elt Ideal) := Read.val_main_v13 (F := Ideal) x0 x3

/-- Edge e's concatenated row: the source row in columns 0..127, the target row in columns 128..255. -/
def hcat (e : Fin 65536) (k : Fin 256) : EReal :=
  if h : k.val < 128 then hs x0 x2 (ix2 e ⟨k.val, h⟩) else ht x0 x3 (ix2 e ⟨k.val - 128, by omega⟩)

/-- Edge e's message at feature q: the affine map of the concatenated row, clamped below at zero. -/
def yR (e : Fin 65536) (q : Fin 128) : EReal :=
  max ((∑ k : Fin 256, hcat x0 x2 x3 e k * x6 (ix2 k q)) + x7 (ix1 q)) 0

/-- Edge e's attention logit. -/
def aR (e : Fin 65536) : EReal :=
  (∑ k : Fin 256, hcat x0 x2 x3 e k * x8 (ix2 k (0 : Fin 1))) + x9 (ix1 (0 : Fin 1))

/-- The largest logit over all edges. -/
def amaxR : EReal := ⨆ e : Fin 65536, aR x0 x2 x3 x8 x9 e

/-- Edge e's stabilized exponential weight. -/
def aexpR (e : Fin 65536) : EReal := Ideal.exp (aR x0 x2 x3 x8 x9 e - amaxR x0 x2 x3 x8 x9)

/-- The result at node n, feature q: the weighted sum of the messages into n over the sum of the weights plus eps. -/
def oR (n : Fin 2048) (q : Fin 128) : EReal :=
  Ideal.div (∑ e : Fin 65536, x5 (ix2 n e) * (yR x0 x2 x3 x6 x7 e q * aexpR x0 x2 x3 x8 x9 e))
    ((∑ e : Fin 65536, x5 (ix2 n e) * aexpR x0 x2 x3 x8 x9 e) + Ideal.ofBits .f32 0x358637BD#32)

/-! ## Index maps at literal coordinates -/

/-- Closes an equation between two indices given by a match on the axis, coordinate by coordinate. -/
local macro "idx2_rfl" : tactic =>
  `(tactic| (funext a; match a with | ⟨0, _⟩ => rfl | ⟨1, _⟩ => rfl))
local macro "idx1_rfl" : tactic =>
  `(tactic| (funext a; match a with | ⟨0, _⟩ => rfl))

/-! ## The concatenated row -/

/-- The concatenation along the columns, at (e, k): the source row for k < 128, else the target row at k - 128. -/
theorem v14_apply (e : Fin 65536) (k : Fin 256) :
    Read.val_main_v14 (F := Ideal) x0 x2 x3 (ix2 e k) = hcat x0 x2 x3 e k := by
  unfold Read.val_main_v14 hcat hs ht
  by_cases h : k.val < 128
  · rw [dif_pos h]
    exact concatenate_pair_apply_left (t := S65536x256) (s₁ := S65536x128) (s₂ := S65536x128) (1 : Fin S65536x256.rank)
      _ _ _ (ix2 e k) rfl (ix2 e (⟨k.val, h⟩ : Fin 128))
      (fun b => match b with | ⟨0, _⟩ => rfl | ⟨1, _⟩ => rfl)
  · rw [dif_neg h]
    exact concatenate_pair_apply_right (t := S65536x256) (s₁ := S65536x128) (s₂ := S65536x128) (1 : Fin S65536x256.rank)
      _ _ _ (ix2 e k) rfl rfl (ix2 e (⟨k.val - 128, by omega⟩ : Fin 128))
      (fun b hb => match b, hb with | ⟨0, _⟩, _ => rfl | ⟨1, _⟩, hb => absurd rfl hb)
      (by show (k.val - 128) + 128 = k.val; omega)

/-! ## The messages -/

theorem v15_apply (e : Fin 65536) (q : Fin 128) :
    Read.val_main_v15 (F := Ideal) x0 x2 x3 x6 (ix2 e q) = ∑ k : Fin 256, hcat x0 x2 x3 e k * x6 (ix2 k q) := by
  rw [Read.val_main_v15_apply]
  refine Finset.sum_congr rfl fun k _ => ?_
  rw [show Read.lidx_main_v15 (ix2 e q) k = ix2 e k by idx2_rfl,
    show Read.ridx_main_v15 (ix2 e q) k = ix2 k q by idx2_rfl, v14_apply]

theorem v17_apply (e : Fin 65536) (q : Fin 128) :
    Read.val_main_v17 (F := Ideal) x7 (ix2 e q) = x7 (ix1 q) := by
  rw [Read.val_main_v17_apply, Read.val_main_v16_apply]
  exact congrArg x7 (by idx1_rfl)

theorem v19_apply (e : Fin 65536) (q : Fin 128) :
    Read.val_main_v19 (F := Ideal) x0 x2 x3 x6 x7 (ix2 e q) = yR x0 x2 x3 x6 x7 e q := by
  rw [Read.val_main_v19_apply, Read.val_main_v18_apply, v15_apply, v17_apply, Read.val_main_call0_v0_apply,
    Read.val_main_call0_cst_apply]
  show max _ (Ideal.ofBits .f32 0x00000000#32) = _
  rw [Ideal.ofBits_zero_f32]
  rfl

/-! ## The logits, their maximum, the weights -/

theorem v20_apply (e : Fin 65536) (u : Fin 1) :
    Read.val_main_v20 (F := Ideal) x0 x2 x3 x8 (ix2 e u) = ∑ k : Fin 256, hcat x0 x2 x3 e k * x8 (ix2 k (0 : Fin 1)) := by
  obtain rfl : u = 0 := Subsingleton.elim _ _
  rw [Read.val_main_v20_apply]
  refine Finset.sum_congr rfl fun k _ => ?_
  rw [show Read.lidx_main_v20 (ix2 e (0 : Fin 1)) k = ix2 e k by idx2_rfl,
    show Read.ridx_main_v20 (ix2 e (0 : Fin 1)) k = ix2 k (0 : Fin 1) by idx2_rfl, v14_apply]

theorem v22_apply (e : Fin 65536) (u : Fin 1) :
    Read.val_main_v22 (F := Ideal) x9 (ix2 e u) = x9 (ix1 (0 : Fin 1)) := by
  rw [Read.val_main_v22_apply, Read.val_main_v21_apply]
  exact congrArg x9 (by idx1_rfl)

theorem v23_apply (e : Fin 65536) (u : Fin 1) :
    Read.val_main_v23 (F := Ideal) x0 x2 x3 x8 x9 (ix2 e u) = aR x0 x2 x3 x8 x9 e := by
  rw [Read.val_main_v23_apply, v20_apply, v22_apply]
  rfl

/-- The maximum over the edge axis, from minus infinity: the supremum of the logits. -/
theorem v24_apply (j : S1.Idx) :
    Read.val_main_v24 (F := Ideal) x0 x2 x3 x8 x9 j = amaxR x0 x2 x3 x8 x9 := by
  unfold Read.val_main_v24 Read.val_main_cst amaxR
  refine (Cert.Attn.Lib.hostReduce_maximumf_all_negInf _ _ _ (fun b => match b with | ⟨0, _⟩ => rfl) j).trans ?_
  refine le_antisymm (iSup_le fun i => ?_) (iSup_le fun e => ?_)
  · obtain ⟨e, u, rfl⟩ : ∃ (e : Fin 65536) (u : Fin 1), i = ix2 e u := ⟨i 0, i 1, eq_ix2 i⟩
    rw [v23_apply]
    exact le_iSup (fun e : Fin 65536 => aR x0 x2 x3 x8 x9 e) e
  · rw [← v23_apply x0 x2 x3 x8 x9 e (0 : Fin 1)]
    exact le_iSup (fun i : S65536x1.Idx => Read.val_main_v23 (F := Ideal) x0 x2 x3 x8 x9 i) (ix2 e (0 : Fin 1))

theorem v28_apply (e : Fin 65536) (u : Fin 1) :
    Read.val_main_v28 (F := Ideal) x0 x2 x3 x8 x9 (ix2 e u) = aexpR x0 x2 x3 x8 x9 e := by
  rw [Read.val_main_v28_apply, Read.val_main_v27_apply, v23_apply, Read.val_main_v26_apply, Read.val_main_v25_apply,
    v24_apply]
  rfl

/-! ## The two sums over the edges, and the quotient -/

theorem v29_apply (n : Fin 2048) (u : Fin 1) :
    Read.val_main_v29 (F := Ideal) x0 x2 x3 x5 x8 x9 (ix2 n u) = ∑ e : Fin 65536, x5 (ix2 n e) * aexpR x0 x2 x3 x8 x9 e := by
  obtain rfl : u = 0 := Subsingleton.elim _ _
  rw [Read.val_main_v29_apply]
  refine Finset.sum_congr rfl fun e _ => ?_
  rw [show Read.lidx_main_v29 (ix2 n (0 : Fin 1)) e = ix2 n e by idx2_rfl,
    show Read.ridx_main_v29 (ix2 n (0 : Fin 1)) e = ix2 e (0 : Fin 1) by idx2_rfl, v28_apply]

theorem v35_apply (n : Fin 2048) (q : Fin 128) :
    Read.val_main_v35 (F := Ideal) x0 x2 x3 x5 x8 x9 (ix2 n q)
      = (∑ e : Fin 65536, x5 (ix2 n e) * aexpR x0 x2 x3 x8 x9 e) + Ideal.ofBits .f32 0x358637BD#32 := by
  rw [Read.val_main_v35_apply, show Read.idx_main_v35 (ix2 n q) = ix2 n (0 : Fin 1) by idx2_rfl,
    Read.val_main_v31_apply, v29_apply, Read.val_main_v30_apply, Read.val_main_cst_3_apply]
  rfl

theorem v33_apply (e : Fin 65536) (q : Fin 128) :
    Read.val_main_v33 (F := Ideal) x0 x2 x3 x6 x7 x8 x9 (ix2 e q) = yR x0 x2 x3 x6 x7 e q * aexpR x0 x2 x3 x8 x9 e := by
  rw [Read.val_main_v33_apply, v19_apply, Read.val_main_v32_apply,
    show Read.idx_main_v32 (ix2 e q) = ix2 e (0 : Fin 1) by idx2_rfl, v28_apply]
  rfl

theorem v34_apply (n : Fin 2048) (q : Fin 128) :
    Read.val_main_v34 (F := Ideal) x0 x2 x3 x5 x6 x7 x8 x9 (ix2 n q)
      = ∑ e : Fin 65536, x5 (ix2 n e) * (yR x0 x2 x3 x6 x7 e q * aexpR x0 x2 x3 x8 x9 e) := by
  rw [Read.val_main_v34_apply]
  refine Finset.sum_congr rfl fun e _ => ?_
  rw [show Read.lidx_main_v34 (ix2 n q) e = ix2 n e by idx2_rfl,
    show Read.ridx_main_v34 (ix2 n q) e = ix2 e q by idx2_rfl, v33_apply]

/-! ## The reference's last stage is the function -/

theorem ref_apply (n : Fin 2048) (q : Fin 128) :
    Read.val_main_v36 (F := Ideal) x0 x2 x3 x5 x6 x7 x8 x9 (ix2 n q) = oR x0 x2 x3 x5 x6 x7 x8 x9 n q := by
  rw [Read.val_main_v36_apply, v34_apply, v35_apply]
  rfl

/-- Every weakly fair execution of the reference terminates with the result array holding the function of the
    argument arrays at every index, and the arguments unchanged. -/
theorem run_oR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (n : Fin 2048) (q : Fin 128), r.2.mem ((c.tc : Thread nD τ).loc main_v36) (ix2 n q)
          = oR (m ((c.tc : Thread nD τ).loc main_arg0)) (m ((c.tc : Thread nD τ).loc main_arg2))
              (m ((c.tc : Thread nD τ).loc main_arg3)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9)) n q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono
    (fun _ h c => ⟨fun n q => by
        have h1 := (h c).1
        rw [Read.val_main_v36_eq] at h1
        rw [h1]
        exact ref_apply _ _ _ _ _ _ _ _ n q, (h c).2⟩)
    (Cert.ReferenceIdeal.Value.run (F := Ideal) m ρ)

end Cert.ReferenceIdeal.RefValue

end
-- ==== Proof.LibTileExtrema.lean ====
/-
  The smallest and the largest entry of one rectangular tile, read off a vector reduction, and the unit axes
  around it.

  A minimum-reduction of a [1, a, b] array over its two long axes, started from the f32 word of +∞, has exactly
  the lower bounds of the tile: a number is below it iff it is below every entry (`le_minAll_iff`).  The
  maximum-reduction from -∞ has exactly the tile's upper bounds (`maxAll_le_iff`).  Carried this way a running
  minimum over several tiles needs no algebra of finite sets: only which entries each side ranges over.
  Beside them: the [1] result seen as [1, 1, 1] and read at its one position; a [1, 1] array spread to [a, b];
  and two leading unit axes added to or dropped from a matrix, each read at coordinates.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibTileExtrema

open Idealize.ShloMosaic Idealize.ShloMosaic.ValueIdx

variable {α : Type}

/-! ## Unit axes -/

/-- A [1, 1, a, b] array seen as [a, b] reads, at (i, j), the array at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array seen as [1, 1, a, b] reads, at (u, v, i, j), the array at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A [1, 1] array spread to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A [1] array seen as [1, 1, 1] and read at its one position is the array's one entry. -/
theorem extractAt_cast_1_111 (v : (⟨1, ![1]⟩ : Shape).Idx → α) (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ v h) hp = v (ix1 (0 : Fin 1)) := by
  unfold extractAt
  refine shapeCast_apply v h _ _ ?_
  rw [Shape.rowMajor_val_one, Shape.rowMajor_val_three]
  rfl

/-! ## The extrema of a tile -/

/-- Every index of a [1, a, b] array is (0, i, j). -/
theorem eq_ix3_zero {a b : ℕ} (x : (⟨3, ![1, a, b]⟩ : Shape).Idx) : ∃ (i : Fin a) (j : Fin b), x = ix3 (0 : Fin 1) i j := by
  refine ⟨x 1, x 2, ?_⟩
  have h0 : x 0 = (0 : Fin 1) := Fin.ext (by
    have hlt : (x 0).val < 1 := (x 0).isLt
    show (x 0).val = 0
    omega)
  have e := eq_ix3 x
  rw [h0] at e
  exact e

/-- Every index of a [1] array is 0. -/
theorem eq_ix1_zero (y : (⟨1, ![1]⟩ : Shape).Idx) : y = ix1 (0 : Fin 1) := by
  rw [eq_ix1 y]
  exact congrArg ix1 (Fin.ext (by
    have hlt : (y 0).val < 1 := (y 0).isLt
    show (y 0).val = 0
    omega))

/-- A number is below the minimum of a whole [1, a, b] tile, taken from +∞, iff it is below every entry. -/
theorem le_minAll_iff {a b : ℕ} (src : FVec Ideal (⟨3, ![1, a, b]⟩ : Shape) .f32) (acc : BitVec 32)
    (h : (⟨3, ![1, a, b]⟩ : Shape).Reduces [1, 2] ⟨1, ![1]⟩) (hφ : FKind.Formats .f32)
    (hacc : acc = FKind.minimumf.neutral .f32 hφ) (htop : Ideal.ofBits .f32 acc = (⊤ : EReal)) (z : EReal) :
    z ≤ multiReduction .minimumf [1, 2] (⟨1, ![1]⟩ : Shape) src acc h hφ hacc (ix1 (0 : Fin 1))
      ↔ ∀ (i : Fin a) (j : Fin b), z ≤ src (ix3 (0 : Fin 1) i j) := by
  rw [multiReduction_minimumf_eq_fold]
  refine (Finset.le_fold_min (b := (Ideal.ofBits .f32 acc : EReal)) (f := fun x => (src x : EReal)) z).trans ?_
  rw [htop]
  constructor
  · rintro ⟨-, hx⟩ i j
    exact hx _ (Finset.mem_filter.2 ⟨Finset.mem_univ _, (eq_ix1_zero _)⟩)
  · intro hx
    refine ⟨le_top, fun x _ => ?_⟩
    obtain ⟨i, j, rfl⟩ := eq_ix3_zero x
    exact hx i j

/-- The maximum of a whole [1, a, b] tile, taken from -∞, is below a number iff every entry is. -/
theorem maxAll_le_iff {a b : ℕ} (src : FVec Ideal (⟨3, ![1, a, b]⟩ : Shape) .f32) (acc : BitVec 32)
    (h : (⟨3, ![1, a, b]⟩ : Shape).Reduces [1, 2] ⟨1, ![1]⟩) (hφ : FKind.Formats .f32)
    (hacc : acc = FKind.maximumf.neutral .f32 hφ) (hbot : Ideal.ofBits .f32 acc = (⊥ : EReal)) (z : EReal) :
    multiReduction .maximumf [1, 2] (⟨1, ![1]⟩ : Shape) src acc h hφ hacc (ix1 (0 : Fin 1)) ≤ z
      ↔ ∀ (i : Fin a) (j : Fin b), src (ix3 (0 : Fin 1) i j) ≤ z := by
  rw [multiReduction_maximumf_eq_fold]
  refine (Finset.fold_max_le (b := (Ideal.ofBits .f32 acc : EReal)) (f := fun x => (src x : EReal)) z).trans ?_
  rw [hbot]
  constructor
  · rintro ⟨-, hx⟩ i j
    exact hx _ (Finset.mem_filter.2 ⟨Finset.mem_univ _, (eq_ix1_zero _)⟩)
  · intro hx
    refine ⟨bot_le, fun x _ => ?_⟩
    obtain ⟨i, j, rfl⟩ := eq_ix3_zero x
    exact hx i j

/-- The f32 word of +∞ denotes the top of the extended reals, and that of -∞ the bottom. -/
theorem pinf32_eq_top : Ideal.ofBits .f32 0x7F800000#32 = (⊤ : EReal) := by
  simp [Ideal.ofBits, Ideal.ieee]

theorem ninf32_eq_bot : Ideal.ofBits .f32 0xFF800000#32 = (⊥ : EReal) := by
  simp [Ideal.ofBits, Ideal.ieee]

end Cert.LibTileExtrema

end
-- ==== Proof.Val.Host.lean ====
/-
  The two host stretches of the kernel program, read at the extended reals for arbitrary contents `W` of the buffers
  before the stretch.

  First stretch.  The two gathered row arrays are the same terms the reference program's read module names
  (index normalisation i ↦ if i < 0 then i + 2048 else i, a column of indices, a row gather of the first argument): the
  gather itself is never opened.  The four weight slices are rows 0..127 and 128..255 of the [256, 128] matrix and of
  the [256, 1] column; each half of the column is then tiled across 128 lanes, so that element (k, q) of the tiled
  array is element (k, 0) of the half-column whatever q is.  The two bias arrays are a [128] vector seen as one row and
  a one-element vector spread to 128 lanes and seen as one row.  No operation writes an argument.

  Second stretch.  The reduction of a [65536, 128] array by the float maximum over both axes from minus infinity,
  seen as a [1, 1] array, is the supremum of the array; the arrays the first region produced and the arguments are
  not written.
-/
import proofs.«127976_j3624952398656_1_alg».proof.Proof.Gen.KernelIdeal.Launch
import proofs.«127976_j3624952398656_1_alg».proof.Proof.Gen.KernelIdeal.Regions
import proofs.«127976_j3624952398656_1_alg».proof.Proof.Gen.ReferenceIdeal.Read
import proofs.«127976_j3624952398656_1_alg».proof.Proof.LibUnitAxes
import proofs.«127976_j3624952398656_1_alg».proof.Proof.LibHostMaxAll
import proofs.«127976_j3624952398656_1_alg».proof.Proof.LibTileExtrema
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.ShloMosaic.ValueIdx Idealize.ShloMosaic.StableHlo
open Cert.KernelIdeal Cert.KernelIdeal.Gen

variable (W : Valuation τ sig (Elt Ideal))

/-! ## The first stretch: slices of the weights -/

set_option maxHeartbeats 400000 in
theorem h0_v14 (k q : Fin 128) :
    (StableHlo.after (hostOps0 (F := Ideal)) W (Proc.devRef .tc main_v14) : S128x128.Idx → EReal) (ix2 k q)
      = (W (Proc.devRef .tc main_arg6) : S256x128.Idx → EReal) (ix2 (⟨k.val, by omega⟩ : Fin 256) q) := by
  have e : (StableHlo.after (hostOps0 (F := Ideal)) W (Proc.devRef .tc main_v14) : S128x128.Idx → EReal)
      = extractStridedSlice S128x128 ![0, 0] (W (Proc.devRef .tc main_arg6)) slices_S256x128_S128x128_0_0 := by
    after_results
  rw [e]
  exact slice2_axis0_apply 0 _ _ k q _ (Nat.zero_add _).symm

set_option maxHeartbeats 400000 in
theorem h0_v15 (k q : Fin 128) :
    (StableHlo.after (hostOps0 (F := Ideal)) W (Proc.devRef .tc main_v15) : S128x128.Idx → EReal) (ix2 k q)
      = (W (Proc.devRef .tc main_arg6) : S256x128.Idx → EReal) (ix2 (⟨128 + k.val, by omega⟩ : Fin 256) q) := by
  have e : (StableHlo.after (hostOps0 (F := Ideal)) W (Proc.devRef .tc main_v15) : S128x128.Idx → EReal)
      = extractStridedSlice S128x128 ![128, 0] (W (Proc.devRef .tc main_arg6)) slices_S256x128_S128x128_128_0 := by
    after_results
  rw [e]
  exact slice2_axis0_apply 128 _ _ k q _ rfl

/-! ## The first stretch: the biases and the tiled columns -/

set_option maxHeartbeats 400000 in
theorem h0_v24 (q : Fin 128) :
    (StableHlo.after (hostOps0 (F := Ideal)) W (Proc.devRef .tc main_v24) : S1x128.Idx → EReal) (ix2 (0 : Fin 1) q)
      = (W (Proc.devRef .tc main_arg7) : S128.Idx → EReal) (ix1 q) := by
  have e : (StableHlo.after (hostOps0 (F := Ideal)) W (Proc.devRef .tc main_v24) : S1x128.Idx → EReal)
      = shapeCast S1x128 (W (Proc.devRef .tc main_arg7)) shapeCasts_S128_S1x128 := by
    after_results; rfl
  rw [e]
  exact shapeCast_a_1a_apply _ _ 0 q

set_option maxHeartbeats 400000 in
theorem h0_v26 (q : Fin 128) :
    (StableHlo.after (hostOps0 (F := Ideal)) W (Proc.devRef .tc main_v26) : S1x128.Idx → EReal) (ix2 (0 : Fin 1) q)
      = (W (Proc.devRef .tc main_arg9) : S1.Idx → EReal) (ix1 (0 : Fin 1)) := by
  have e : (StableHlo.after (hostOps0 (F := Ideal)) W (Proc.devRef .tc main_v26) : S1x128.Idx → EReal)
      = shapeCast S1x128 (broadcastInDim S128 ![0] bcast_S1_S128_0 (W (Proc.devRef .tc main_arg9))) shapeCasts_S128_S1x128 := by
    after_results; rfl
  rw [e, shapeCast_a_1a_apply _ _ 0 q]
  exact broadcastInDim_apply _ _ _ _ _ (fun a => match a with
    | ⟨0, _⟩ => by show (0 : Nat) = if (1 : Nat) = 1 then 0 else q.val; rw [if_pos rfl])

/-- A column [a, 1] cast to [1, a, 1, 1], spread along the third axis to [1, a, b, 1] and cast to [a, b]
    reads, at (k, q), the column at (k, 0): the cast to [a, b] keeps the row-major position k·b + q, which is
    (0, k, q, 0) in the rank-4 array, the spreading forgets q, and (0, k, 0, 0) is position k of the column. -/
theorem tile_column_apply {α : Type} {a b : ℕ} (x : (⟨2, ![a, 1]⟩ : Shape).Idx → α)
    (h1 : (⟨2, ![a, 1]⟩ : Shape).ShapeCasts ⟨4, ![1, a, 1, 1]⟩)
    (h2 : (⟨4, ![1, a, 1, 1]⟩ : Shape).BroadcastsInDim ⟨4, ![1, a, b, 1]⟩ ![0, 1, 2, 3])
    (h3 : (⟨4, ![1, a, b, 1]⟩ : Shape).ShapeCasts ⟨2, ![a, b]⟩) (k : Fin a) (q : Fin b) :
    shapeCast ⟨2, ![a, b]⟩ (broadcastInDim ⟨4, ![1, a, b, 1]⟩ ![0, 1, 2, 3] h2 (shapeCast ⟨4, ![1, a, 1, 1]⟩ x h1)) h3 (ix2 k q)
      = x (ix2 k (0 : Fin 1)) := by
  rw [shapeCast_apply _ h3 (ix2 k q) (ix4 (0 : Fin 1) k q (0 : Fin 1)) (by
        rw [Shape.rowMajor_val_four, Shape.rowMajor_val_two]
        show ((0 * a + k.val) * b + q.val) * 1 + 0 = k.val * b + q.val
        rw [Nat.zero_mul, Nat.zero_add, Nat.mul_one, Nat.add_zero]),
      broadcastInDim_apply ![0, 1, 2, 3] h2 _ (ix4 (0 : Fin 1) k q (0 : Fin 1)) (ix4 (0 : Fin 1) k (0 : Fin 1) (0 : Fin 1)) (fun ax =>
        match ax with
        | ⟨0, _⟩ => by show (0 : ℕ) = if (1 : ℕ) = 1 then 0 else 0; rw [if_pos rfl]
        | ⟨1, _⟩ => by
          show k.val = if a = 1 then 0 else k.val
          split
          · have := k.isLt; omega
          · rfl
        | ⟨2, _⟩ => by show (0 : ℕ) = if (1 : ℕ) = 1 then 0 else q.val; rw [if_pos rfl]
        | ⟨3, _⟩ => by show (0 : ℕ) = if (1 : ℕ) = 1 then 0 else 0; rw [if_pos rfl]),
      shapeCast_apply x h1 (ix4 (0 : Fin 1) k (0 : Fin 1) (0 : Fin 1)) (ix2 k (0 : Fin 1)) (by
        rw [Shape.rowMajor_val_four, Shape.rowMajor_val_two]
        show k.val * 1 + 0 = ((0 * a + k.val) * 1 + 0) * 1 + 0
        rw [Nat.zero_mul, Nat.zero_add, Nat.mul_one, Nat.add_zero, Nat.mul_one, Nat.add_zero])]

set_option maxHeartbeats 400000 in
theorem h0_v20 (k q : Fin 128) :
    (StableHlo.after (hostOps0 (F := Ideal)) W (Proc.devRef .tc main_v20) : S128x128.Idx → EReal) (ix2 k q)
      = (W (Proc.devRef .tc main_arg8) : S256x1.Idx → EReal) (ix2 (⟨k.val, by omega⟩ : Fin 256) (0 : Fin 1)) := by
  have e : (StableHlo.after (hostOps0 (F := Ideal)) W (Proc.devRef .tc main_v20) : S128x128.Idx → EReal)
      = shapeCast S128x128 (broadcastInDim S1x128x128x1 ![0, 1, 2, 3] bcast_S1x128x1x1_S1x128x128x1_0_1_2_3
          (shapeCast S1x128x1x1 (extractStridedSlice S128x1 ![0, 0] (W (Proc.devRef .tc main_arg8)) slices_S256x1_S128x1_0_0)
            shapeCasts_S128x1_S1x128x1x1)) shapeCasts_S1x128x128x1_S128x128 := by
    after_results; rfl
  rw [e, tile_column_apply _ _ _ _ k q]
  exact slice2_axis0_apply 0 _ _ k (0 : Fin 1) _ (Nat.zero_add _).symm

set_option maxHeartbeats 400000 in
theorem h0_v23 (k q : Fin 128) :
    (StableHlo.after (hostOps0 (F := Ideal)) W (Proc.devRef .tc main_v23) : S128x128.Idx → EReal) (ix2 k q)
      = (W (Proc.devRef .tc main_arg8) : S256x1.Idx → EReal) (ix2 (⟨128 + k.val, by omega⟩ : Fin 256) (0 : Fin 1)) := by
  have e : (StableHlo.after (hostOps0 (F := Ideal)) W (Proc.devRef .tc main_v23) : S128x128.Idx → EReal)
      = shapeCast S128x128 (broadcastInDim S1x128x128x1 ![0, 1, 2, 3] bcast_S1x128x1x1_S1x128x128x1_0_1_2_3
          (shapeCast S1x128x1x1 (extractStridedSlice S128x1 ![128, 0] (W (Proc.devRef .tc main_arg8)) slices_S256x1_S128x1_128_0)
            shapeCasts_S128x1_S1x128x1x1)) shapeCasts_S1x128x128x1_S128x128 := by
    after_results; rfl
  rw [e, tile_column_apply _ _ _ _ k q]
  exact slice2_axis0_apply 128 _ _ k (0 : Fin 1) _ rfl

/-! ## The first stretch: the gathered rows, as the reference's terms -/

set_option maxHeartbeats 400000 in
theorem h0_v6 :
    (StableHlo.after (hostOps0 (F := Ideal)) W (Proc.devRef .tc main_v6) : S65536x128.Idx → EReal)
      = Cert.ReferenceIdeal.Read.val_main_v6 (F := Ideal) (W (Proc.devRef .tc main_arg0)) (W (Proc.devRef .tc main_arg2)) := by
  after_results
  unfold Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_c_0
    Cert.ReferenceIdeal.Read.val_main_v1 Cert.ReferenceIdeal.Read.val_main_v0 Cert.ReferenceIdeal.Read.val_main_c
  rfl

set_option maxHeartbeats 400000 in
theorem h0_v13 :
    (StableHlo.after (hostOps0 (F := Ideal)) W (Proc.devRef .tc main_v13) : S65536x128.Idx → EReal)
      = Cert.ReferenceIdeal.Read.val_main_v13 (F := Ideal) (W (Proc.devRef .tc main_arg0)) (W (Proc.devRef .tc main_arg3)) := by
  after_results
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_c_2
    Cert.ReferenceIdeal.Read.val_main_v8 Cert.ReferenceIdeal.Read.val_main_v7 Cert.ReferenceIdeal.Read.val_main_c_1
  rfl

/-! ## What the first stretch leaves alone, and the second stretch -/

theorem h0_arg5 :
    StableHlo.after (hostOps0 (F := Ideal)) W (Proc.devRef .tc main_arg5) = W (Proc.devRef .tc main_arg5) :=
  StableHlo.after_of_writes_sub hostOps0 W hostOps0_writes (by decide)

set_option maxHeartbeats 400000 in
theorem h1_v29 :
    (StableHlo.after (hostOps1 (F := Ideal)) W (Proc.devRef .tc main_v29) : S1x1.Idx → EReal) (ix2 (0 : Fin 1) (0 : Fin 1))
      = iSup (α := EReal) (fun j : S65536x128.Idx => (W (Proc.devRef .tc main_v27_1) : S65536x128.Idx → EReal) j) := by
  have e : (StableHlo.after (hostOps1 (F := Ideal)) W (Proc.devRef .tc main_v29) : S1x1.Idx → EReal)
      = shapeCast S1x1 (Host.reduce (FloatOps.maximumf (F := Ideal)) (W (Proc.devRef .tc main_v27_1))
          (constant (F := Ideal) S_ .f32 0xFF800000#32) reducesTo_S65536x128_S_d0_1 h_S_) shapeCasts_S_S1x1 := by
    after_results; rfl
  rw [e, shapeCast_apply _ shapeCasts_S_S1x1 (ix2 (0 : Fin 1) (0 : Fin 1)) ix0 (by
        rw [Shape.rowMajor_val_two]
        exact Shape.rowMajorPi_zero _ _)]
  exact Cert.Attn.Lib.hostReduce_maximumf_all_negInf (t := S_) _ _ _ (fun b => b.elim0) _

theorem h1_v27_0 :
    StableHlo.after (hostOps1 (F := Ideal)) W (Proc.devRef .tc main_v27_0) = W (Proc.devRef .tc main_v27_0) :=
  StableHlo.after_of_writes_sub hostOps1 W hostOps1_writes (by decide)

theorem h1_v27_1 :
    StableHlo.after (hostOps1 (F := Ideal)) W (Proc.devRef .tc main_v27_1) = W (Proc.devRef .tc main_v27_1) :=
  StableHlo.after_of_writes_sub hostOps1 W hostOps1_writes (by decide)

theorem h1_arg5 :
    StableHlo.after (hostOps1 (F := Ideal)) W (Proc.devRef .tc main_arg5) = W (Proc.devRef .tc main_arg5) :=
  StableHlo.after_of_writes_sub hostOps1 W hostOps1_writes (by decide)

end Cert.KernelIdeal.Val

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Val.Reg0Pay.lean ====
/-
  The value region 0 leaves in its two output buffers, at the ideal values, read at an entry.  For an edge e of
  the staged block and a lane q the messages' buffer holds
      max(Σ_k src(e,k)·Wy1(k,q) + Σ_k tgt(e,k)·Wy2(k,q) + fb(0,q), 0)
  and the logits' buffer holds Σ_k src(e,k)·Wa1(k,q) + Σ_k tgt(e,k)·Wa2(k,q) + wb(0,q), the sums over the 128
  input features, added in the order the body adds them.  The narrowing of the operands to bf16 is the identity
  at the ideal values, each product into a zero accumulator is the plain sum, and the bias row is spread over the
  edges.
-/
import proofs.«127976_j3624952398656_1_alg».proof.Proof.KI.Reg0Defs
import proofs.«127976_j3624952398656_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen

/-- The zero offsets of a whole rectangle of rank 2. -/
theorem zero_off2 : (![0, 0] : Fin 2 → Nat) = fun _ => 0 := funext fun a => by fin_cases a <;> rfl

/-- The body's product of a [4096, 128] block by a [128, 128] matrix into the zero accumulator, at an entry. -/
theorem edge_dot_apply {φ₁ φ₂ : FTy} (lhs : FVec Ideal S4096x128 φ₁) (rhs : FVec Ideal S128x128 φ₂) (e : Fin 4096) (q : Fin 128) :
    FloatOps.matmul dot_S4096x128_S128x128_S4096x128_1_0_0_1_n_n none lhs rhs (constant S4096x128 .f32 0x00000000#32) (ix2 e q)
      = ∑ k : Fin 128, lhs (ix2 e k) * rhs (ix2 k q) :=
  Cert.LibPlainDot.matmul_zero_apply (M := 4096) (K := 128) (N := 128) dot_S4096x128_S128x128_S4096x128_1_0_0_1_n_n
    rfl rfl rfl rfl (fun _ _ => rfl) (fun _ _ => rfl) none lhs rhs e q

/-- The messages' buffer after the body, at an entry. -/
theorem out0_8_apply (x0 x1 : Vec Ideal S4096x128 .f32) (x2 x3 : Vec Ideal S128x128 .f32) (x6 : Vec Ideal S1x128 .f32)
    (e : Fin 4096) (q : Fin 128) :
    Fr.out0_8 x0 x1 x2 x3 x6 (ix2 e q)
      = max (((∑ k : Fin 128, x0 (ix2 e k) * x2 (ix2 k q)) + (∑ k : Fin 128, x1 (ix2 e k) * x3 (ix2 k q))) + x6 (ix2 (0 : Fin 1) q))
          (Ideal.ofBits .f32 0x00000000#32) := by
  unfold Fr.out0_8
  rw [View.canon_unit_zero zero_off2]
  simp only [View.ld_unit_zero (S := S4096x128) zero_off2, View.ld_unit_zero (S := S128x128) zero_off2,
    View.ld_unit_zero (S := S1x128) zero_off2]
  unfold k0_pay4 k0_pay1 k0_pay2
  simp only [shapeCast_self]
  refine congrArg₂ max (congrArg₂ (· + ·) (congrArg₂ (· + ·) ?_ ?_) ?_) rfl
  · exact edge_dot_apply (truncf FTy.bf16 x0 bitsLt_bf16_f32) (truncf FTy.bf16 x2 bitsLt_bf16_f32) e q
  · exact edge_dot_apply (truncf FTy.bf16 x1 bitsLt_bf16_f32) (truncf FTy.bf16 x3 bitsLt_bf16_f32) e q
  · exact broadcastTo_1b_ab_apply x6 broadcasts_S1x128_S4096x128 e q

/-- The logits' buffer after the body, at an entry. -/
theorem out0_9_apply (x0 x1 : Vec Ideal S4096x128 .f32) (x4 x5 : Vec Ideal S128x128 .f32) (x7 : Vec Ideal S1x128 .f32)
    (e : Fin 4096) (q : Fin 128) :
    Fr.out0_9 x0 x1 x4 x5 x7 (ix2 e q)
      = ((∑ k : Fin 128, x0 (ix2 e k) * x4 (ix2 k q)) + (∑ k : Fin 128, x1 (ix2 e k) * x5 (ix2 k q))) + x7 (ix2 (0 : Fin 1) q) := by
  unfold Fr.out0_9
  rw [View.canon_unit_zero zero_off2]
  simp only [View.ld_unit_zero (S := S4096x128) zero_off2, View.ld_unit_zero (S := S128x128) zero_off2,
    View.ld_unit_zero (S := S1x128) zero_off2]
  unfold k0_pay3 k0_pay1 k0_pay2
  simp only [shapeCast_self]
  refine congrArg₂ (· + ·) (congrArg₂ (· + ·) ?_ ?_) ?_
  · exact edge_dot_apply (truncf FTy.bf16 x0 bitsLt_bf16_f32) (truncf FTy.bf16 x4 bitsLt_bf16_f32) e q
  · exact edge_dot_apply (truncf FTy.bf16 x1 bitsLt_bf16_f32) (truncf FTy.bf16 x5 bitsLt_bf16_f32) e q
  · exact broadcastTo_1b_ab_apply x7 broadcasts_S1x128_S4096x128 e q

end Cert.KernelIdeal.Val

end
-- ==== Proof.Val.Reg0Arr.lean ====
/-
  The two arrays region 0 writes, after its last grid point, at the ideal values, read at an entry.  The region
  walks the 65536 edges in 16 blocks of 4096; at each point it stages one block of the source rows and one of the
  target rows together with the whole weight matrices and bias rows, and writes back one block of messages and one
  of logits.  A staged edge block at point t is rows 4096·t … 4096·t + 4095 of its array, so what point t writes
  back is block t of one function of the arrays the region finds; the 16 blocks cover the edges, so the arrays end
  holding that function:
      y(e,q)  = max(Σ_k src(e,k)·Wy1(k,q) + Σ_k tgt(e,k)·Wy2(k,q) + fb(0,q), 0),
      ab(e,q) =     Σ_k src(e,k)·Wa1(k,q) + Σ_k tgt(e,k)·Wa2(k,q) + wb(0,q).
-/
import proofs.«127976_j3624952398656_1_alg».proof.Proof.Val.Reg0Pay

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The messages as one function of the gathered rows, the two weight matrices and the bias row. -/
def msgOf (a0 a1 : S65536x128.Idx → EReal) (w1 w2 : S128x128.Idx → EReal) (b : S1x128.Idx → EReal) : S65536x128.Idx → EReal :=
  fun i => max (((∑ k : Fin 128, a0 (ix2 (i 0 : Fin 65536) k) * w1 (ix2 k (i 1 : Fin 128)))
      + (∑ k : Fin 128, a1 (ix2 (i 0 : Fin 65536) k) * w2 (ix2 k (i 1 : Fin 128)))) + b (ix2 (0 : Fin 1) (i 1 : Fin 128)))
    (Ideal.ofBits .f32 0x00000000#32)

/-- The logits likewise. -/
def logitOf (a0 a1 : S65536x128.Idx → EReal) (w1 w2 : S128x128.Idx → EReal) (b : S1x128.Idx → EReal) : S65536x128.Idx → EReal :=
  fun i => ((∑ k : Fin 128, a0 (ix2 (i 0 : Fin 65536) k) * w1 (ix2 k (i 1 : Fin 128)))
      + (∑ k : Fin 128, a1 (ix2 (i 0 : Fin 65536) k) * w2 (ix2 k (i 1 : Fin 128)))) + b (ix2 (0 : Fin 1) (i 1 : Fin 128))

/-- The messages at an entry. -/
theorem msgOf_apply (a0 a1 : S65536x128.Idx → EReal) (w1 w2 : S128x128.Idx → EReal) (b : S1x128.Idx → EReal) (e : Fin 65536) (q : Fin 128) :
    msgOf a0 a1 w1 w2 b (ix2 e q)
      = max (((∑ k : Fin 128, a0 (ix2 e k) * w1 (ix2 k q)) + (∑ k : Fin 128, a1 (ix2 e k) * w2 (ix2 k q))) + b (ix2 (0 : Fin 1) q))
          (Ideal.ofBits .f32 0x00000000#32) := rfl

/-- The logits at an entry. -/
theorem logitOf_apply (a0 a1 : S65536x128.Idx → EReal) (w1 w2 : S128x128.Idx → EReal) (b : S1x128.Idx → EReal) (e : Fin 65536) (q : Fin 128) :
    logitOf a0 a1 w1 w2 b (ix2 e q)
      = ((∑ k : Fin 128, a0 (ix2 e k) * w1 (ix2 k q)) + (∑ k : Fin 128, a1 (ix2 e k) * w2 (ix2 k q))) + b (ix2 (0 : Fin 1) q) := rfl

/-- One block of messages is the block of `msgOf` at the block's rows: when the staged edge blocks are rows
    T·4096 … of the gathered arrays and the staged weights and bias are the arrays themselves. -/
theorem msg_point (x0 x1 : Vec Ideal S4096x128 .f32) (x2 x3 : Vec Ideal S128x128 .f32) (x6 : Vec Ideal S1x128 .f32)
    (a0 a1 : S65536x128.Idx → EReal) (w1 w2 : S128x128.Idx → EReal) (b : S1x128.Idx → EReal)
    (y : S4096x128.Idx) (i : S65536x128.Idx) (T : Nat)
    (hx0 : ∀ (x : S4096x128.Idx) (j : S65536x128.Idx), (j 0).val = T * 4096 + (x 0).val → (j 1).val = (x 1).val → x0 x = a0 j)
    (hx1 : ∀ (x : S4096x128.Idx) (j : S65536x128.Idx), (j 0).val = T * 4096 + (x 0).val → (j 1).val = (x 1).val → x1 x = a1 j)
    (h2 : x2 = w1) (h3 : x3 = w2) (h6 : x6 = b)
    (hi0 : (i 0).val = T * 4096 + (y 0).val) (hi1 : (i 1).val = (y 1).val) :
    Fr.out0_8 x0 x1 x2 x3 x6 y = msgOf a0 a1 w1 w2 b i := by
  subst h2 h3 h6
  obtain ⟨e', q, rfl⟩ : ∃ (e' : Fin 4096) (q : Fin 128), y = ix2 e' q := ⟨y 0, y 1, eq_ix2 y⟩
  obtain ⟨e, q', rfl⟩ : ∃ (e : Fin 65536) (q' : Fin 128), i = ix2 e q' := ⟨i 0, i 1, eq_ix2 i⟩
  obtain rfl : q' = q := Fin.ext hi1
  rw [out0_8_apply, msgOf_apply]
  have e0 : ∀ k : Fin 128, x0 (ix2 e' k) = a0 (ix2 e k) := fun k => hx0 (ix2 e' k) (ix2 e k) hi0 rfl
  have e1 : ∀ k : Fin 128, x1 (ix2 e' k) = a1 (ix2 e k) := fun k => hx1 (ix2 e' k) (ix2 e k) hi0 rfl
  simp only [e0, e1]

/-- One block of logits is the block of `logitOf` at the block's rows. -/
theorem logit_point (x0 x1 : Vec Ideal S4096x128 .f32) (x4 x5 : Vec Ideal S128x128 .f32) (x7 : Vec Ideal S1x128 .f32)
    (a0 a1 : S65536x128.Idx → EReal) (w1 w2 : S128x128.Idx → EReal) (b : S1x128.Idx → EReal)
    (y : S4096x128.Idx) (i : S65536x128.Idx) (T : Nat)
    (hx0 : ∀ (x : S4096x128.Idx) (j : S65536x128.Idx), (j 0).val = T * 4096 + (x 0).val → (j 1).val = (x 1).val → x0 x = a0 j)
    (hx1 : ∀ (x : S4096x128.Idx) (j : S65536x128.Idx), (j 0).val = T * 4096 + (x 0).val → (j 1).val = (x 1).val → x1 x = a1 j)
    (h4 : x4 = w1) (h5 : x5 = w2) (h7 : x7 = b)
    (hi0 : (i 0).val = T * 4096 + (y 0).val) (hi1 : (i 1).val = (y 1).val) :
    Fr.out0_9 x0 x1 x4 x5 x7 y = logitOf a0 a1 w1 w2 b i := by
  subst h4 h5 h7
  obtain ⟨e', q, rfl⟩ : ∃ (e' : Fin 4096) (q : Fin 128), y = ix2 e' q := ⟨y 0, y 1, eq_ix2 y⟩
  obtain ⟨e, q', rfl⟩ : ∃ (e : Fin 65536) (q' : Fin 128), i = ix2 e q' := ⟨i 0, i 1, eq_ix2 i⟩
  obtain rfl : q' = q := Fin.ext hi1
  rw [out0_9_apply, logitOf_apply]
  have e0 : ∀ k : Fin 128, x0 (ix2 e' k) = a0 (ix2 e k) := fun k => hx0 (ix2 e' k) (ix2 e k) hi0 rfl
  have e1 : ∀ k : Fin 128, x1 (ix2 e' k) = a1 (ix2 e k) := fun k => hx1 (ix2 e' k) (ix2 e k) hi0 rfl
  simp only [e0, e1]

/-- The printed index maps over the grid: the edge windows (0, 1, 8, 9) sit at block (t, 0), the weight and bias
    windows (2 … 7) at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The staged block of source rows at point t is rows 4096·t … of the gathered source array. -/
theorem src_blk (c : Dev nD) (t : Fin cfg0.N) (x : S4096x128.Idx) (j : S65536x128.Idx)
    (h0 : (j 0).val = t.val * 4096 + (x 0).val) (h1 : (j 1).val = (x 1).val) :
    (Fr.iblk0 V c 0 t : Vec Ideal S4096x128 .f32) x = (V c main_v6 : S65536x128.Idx → EReal) j := by
  obtain ⟨⟨i0, i1⟩, -⟩ := index_facts t
  unfold Fr.iblk0
  rw [View.read_apply]
  show V c main_v6 _ = V c main_v6 _
  congr 1
  funext a
  apply Fin.ext
  match a with
  | ⟨0, _⟩ => show win0_0.index t (0 : Fin 2) * 4096 + 1 * (x 0).val = (j 0).val; rw [i0, h0]; omega
  | ⟨1, _⟩ => show win0_0.index t (1 : Fin 2) * 128 + 1 * (x 1).val = (j 1).val; rw [i1, h1]; omega

/-- The staged block of target rows at point t is rows 4096·t … of the gathered target array. -/
theorem tgt_blk (c : Dev nD) (t : Fin cfg0.N) (x : S4096x128.Idx) (j : S65536x128.Idx)
    (h0 : (j 0).val = t.val * 4096 + (x 0).val) (h1 : (j 1).val = (x 1).val) :
    (Fr.iblk0 V c 1 t : Vec Ideal S4096x128 .f32) x = (V c main_v13 : S65536x128.Idx → EReal) j := by
  obtain ⟨-, ⟨i0, i1⟩, -⟩ := index_facts t
  unfold Fr.iblk0
  rw [View.read_apply]
  show V c main_v13 _ = V c main_v13 _
  congr 1
  funext a
  apply Fin.ext
  match a with
  | ⟨0, _⟩ => show win0_1.index t (0 : Fin 2) * 4096 + 1 * (x 0).val = (j 0).val; rw [i0, h0]; omega
  | ⟨1, _⟩ => show win0_1.index t (1 : Fin 2) * 128 + 1 * (x 1).val = (j 1).val; rw [i1, h1]; omega

/-- Each staged weight matrix and bias row is its whole array, at every point. -/
theorem wy1_blk (c : Dev nD) (t : Fin cfg0.N) : (Fr.iblk0 V c 2 t : Vec Ideal S128x128 .f32) = (V c main_v14 : S128x128.Idx → EReal) := by
  obtain ⟨-, -, ⟨i0, i1⟩, -⟩ := index_facts t
  funext x
  unfold Fr.iblk0
  rw [View.read_apply]
  show V c main_v14 _ = V c main_v14 _
  congr 1
  funext a
  apply Fin.ext
  match a with
  | ⟨0, _⟩ => show win0_2.index t (0 : Fin 2) * 128 + 1 * (x 0).val = (x 0).val; rw [i0]; omega
  | ⟨1, _⟩ => show win0_2.index t (1 : Fin 2) * 128 + 1 * (x 1).val = (x 1).val; rw [i1]; omega

theorem wy2_blk (c : Dev nD) (t : Fin cfg0.N) : (Fr.iblk0 V c 3 t : Vec Ideal S128x128 .f32) = (V c main_v15 : S128x128.Idx → EReal) := by
  obtain ⟨-, -, -, ⟨i0, i1⟩, -⟩ := index_facts t
  funext x
  unfold Fr.iblk0
  rw [View.read_apply]
  show V c main_v15 _ = V c main_v15 _
  congr 1
  funext a
  apply Fin.ext
  match a with
  | ⟨0, _⟩ => show win0_3.index t (0 : Fin 2) * 128 + 1 * (x 0).val = (x 0).val; rw [i0]; omega
  | ⟨1, _⟩ => show win0_3.index t (1 : Fin 2) * 128 + 1 * (x 1).val = (x 1).val; rw [i1]; omega

theorem wa1_blk (c : Dev nD) (t : Fin cfg0.N) : (Fr.iblk0 V c 4 t : Vec Ideal S128x128 .f32) = (V c main_v20 : S128x128.Idx → EReal) := by
  obtain ⟨-, -, -, -, ⟨i0, i1⟩, -⟩ := index_facts t
  funext x
  unfold Fr.iblk0
  rw [View.read_apply]
  show V c main_v20 _ = V c main_v20 _
  congr 1
  funext a
  apply Fin.ext
  match a with
  | ⟨0, _⟩ => show win0_4.index t (0 : Fin 2) * 128 + 1 * (x 0).val = (x 0).val; rw [i0]; omega
  | ⟨1, _⟩ => show win0_4.index t (1 : Fin 2) * 128 + 1 * (x 1).val = (x 1).val; rw [i1]; omega

theorem wa2_blk (c : Dev nD) (t : Fin cfg0.N) : (Fr.iblk0 V c 5 t : Vec Ideal S128x128 .f32) = (V c main_v23 : S128x128.Idx → EReal) := by
  obtain ⟨-, -, -, -, -, ⟨i0, i1⟩, -⟩ := index_facts t
  funext x
  unfold Fr.iblk0
  rw [View.read_apply]
  show V c main_v23 _ = V c main_v23 _
  congr 1
  funext a
  apply Fin.ext
  match a with
  | ⟨0, _⟩ => show win0_5.index t (0 : Fin 2) * 128 + 1 * (x 0).val = (x 0).val; rw [i0]; omega
  | ⟨1, _⟩ => show win0_5.index t (1 : Fin 2) * 128 + 1 * (x 1).val = (x 1).val; rw [i1]; omega

theorem fb_blk (c : Dev nD) (t : Fin cfg0.N) : (Fr.iblk0 V c 6 t : Vec Ideal S1x128 .f32) = (V c main_v24 : S1x128.Idx → EReal) := by
  obtain ⟨-, -, -, -, -, -, ⟨i0, i1⟩, -⟩ := index_facts t
  funext x
  unfold Fr.iblk0
  rw [View.read_apply]
  show V c main_v24 _ = V c main_v24 _
  congr 1
  funext a
  apply Fin.ext
  match a with
  | ⟨0, _⟩ => show win0_6.index t (0 : Fin 2) * 1 + 1 * (x 0).val = (x 0).val; rw [i0]; omega
  | ⟨1, _⟩ => show win0_6.index t (1 : Fin 2) * 128 + 1 * (x 1).val = (x 1).val; rw [i1]; omega

theorem wb_blk (c : Dev nD) (t : Fin cfg0.N) : (Fr.iblk0 V c 7 t : Vec Ideal S1x128 .f32) = (V c main_v26 : S1x128.Idx → EReal) := by
  obtain ⟨-, -, -, -, -, -, -, ⟨i0, i1⟩, -⟩ := index_facts t
  funext x
  unfold Fr.iblk0
  rw [View.read_apply]
  show V c main_v26 _ = V c main_v26 _
  congr 1
  funext a
  apply Fin.ext
  match a with
  | ⟨0, _⟩ => show win0_7.index t (0 : Fin 2) * 1 + 1 * (x 0).val = (x 0).val; rw [i0]; omega
  | ⟨1, _⟩ => show win0_7.index t (1 : Fin 2) * 128 + 1 * (x 1).val = (x 1).val; rw [i1]; omega

/-- What point t writes back to the messages' array is block t of `msgOf` of the arrays the region finds. -/
theorem flushed8_eq (c : Dev nD) (t : Fin cfg0.N) :
    (Fr.dat0 V c).flushed 8 t = ((cfg0.win 8).blk t).view.read (Elt Ideal)
      (msgOf (V c main_v6) (V c main_v13) (V c main_v14) (V c main_v15) (V c main_v24)) := by
  show (cfg0.win 8).cut (grid0.coords t) ((Fr.dat0 V c).after 8 t) = _
  rw [Fr.after0_8]
  obtain ⟨-, -, -, -, -, -, -, -, ⟨i0, i1⟩, -⟩ := index_facts t
  funext y
  rw [View.read_apply]
  show Fr.out0_8 (Fr.iblk0 V c 0 t) (Fr.iblk0 V c 1 t) (Fr.iblk0 V c 2 t) (Fr.iblk0 V c 3 t) (Fr.iblk0 V c 6 t) y
      = msgOf (V c main_v6) (V c main_v13) (V c main_v14) (V c main_v15) (V c main_v24) (((cfg0.win 8).blk t).view.emb y)
  exact msg_point (Fr.iblk0 V c 0 t) (Fr.iblk0 V c 1 t) (Fr.iblk0 V c 2 t) (Fr.iblk0 V c 3 t) (Fr.iblk0 V c 6 t)
    (V c main_v6) (V c main_v13) (V c main_v14) (V c main_v15) (V c main_v24) y (((cfg0.win 8).blk t).view.emb y) t.val
    (src_blk V c t) (tgt_blk V c t) (wy1_blk V c t) (wy2_blk V c t) (fb_blk V c t)
    (by show win0_8.index t (0 : Fin 2) * 4096 + 1 * (y 0).val = _; rw [i0]; omega)
    (by show win0_8.index t (1 : Fin 2) * 128 + 1 * (y 1).val = _; rw [i1]; omega)

/-- What point t writes back to the logits' array is block t of `logitOf` of the arrays the region finds. -/
theorem flushed9_eq (c : Dev nD) (t : Fin cfg0.N) :
    (Fr.dat0 V c).flushed 9 t = ((cfg0.win 9).blk t).view.read (Elt Ideal)
      (logitOf (V c main_v6) (V c main_v13) (V c main_v20) (V c main_v23) (V c main_v26)) := by
  show (cfg0.win 9).cut (grid0.coords t) ((Fr.dat0 V c).after 9 t) = _
  rw [Fr.after0_9]
  obtain ⟨-, -, -, -, -, -, -, -, -, ⟨i0, i1⟩⟩ := index_facts t
  funext y
  rw [View.read_apply]
  show Fr.out0_9 (Fr.iblk0 V c 0 t) (Fr.iblk0 V c 1 t) (Fr.iblk0 V c 4 t) (Fr.iblk0 V c 5 t) (Fr.iblk0 V c 7 t) y
      = logitOf (V c main_v6) (V c main_v13) (V c main_v20) (V c main_v23) (V c main_v26) (((cfg0.win 9).blk t).view.emb y)
  exact logit_point (Fr.iblk0 V c 0 t) (Fr.iblk0 V c 1 t) (Fr.iblk0 V c 4 t) (Fr.iblk0 V c 5 t) (Fr.iblk0 V c 7 t)
    (V c main_v6) (V c main_v13) (V c main_v20) (V c main_v23) (V c main_v26) y (((cfg0.win 9).blk t).view.emb y) t.val
    (src_blk V c t) (tgt_blk V c t) (wa1_blk V c t) (wa2_blk V c t) (wb_blk V c t)
    (by show win0_9.index t (0 : Fin 2) * 4096 + 1 * (y 0).val = _; rw [i0]; omega)
    (by show win0_9.index t (1 : Fin 2) * 128 + 1 * (y 1).val = _; rw [i1]; omega)

/-- An entry of the messages' array is in point t's block iff each coordinate is in the block's range. -/
theorem mem_blk8 (t : Fin cfg0.N) (i : S65536x128.Idx) :
    i ∈ ((cfg0.win 8).blk t).view.set ↔ ∀ a : Fin 2, win0_8.index t a * S4096x128.size a ≤ (i a).val
      ∧ (i a).val < win0_8.index t a * S4096x128.size a + S4096x128.size a := by
  show i ∈ ((View.whole main_v27_0).slice (win0_8.rect t)).set ↔ _
  rw [View.set_slice_whole, Rect.mem_set_unit]
  exact Iff.rfl

/-- The same for the logits' array. -/
theorem mem_blk9 (t : Fin cfg0.N) (i : S65536x128.Idx) :
    i ∈ ((cfg0.win 9).blk t).view.set ↔ ∀ a : Fin 2, win0_9.index t a * S4096x128.size a ≤ (i a).val
      ∧ (i a).val < win0_9.index t a * S4096x128.size a + S4096x128.size a := by
  show i ∈ ((View.whole main_v27_1).slice (win0_9.rect t)).set ↔ _
  rw [View.set_slice_whole, Rect.mem_set_unit]
  exact Iff.rfl

/-- Every entry of the messages' array lies in the block of the point its row falls in: row e in block e / 4096. -/
theorem cover8 (i : S65536x128.Idx) : ∃ t : Fin cfg0.N, (cfg0.win 8).flush t = true ∧ i ∈ ((cfg0.win 8).blk t).view.set := by
  have hi0 : (i 0).val < 65536 := (i 0).isLt
  have hi1 : (i 1).val < 128 := (i 1).isLt
  have hN : cfg0.N = 16 := N_0
  obtain ⟨t, ht⟩ : ∃ t : Fin cfg0.N, t.val = (i 0).val / 4096 := ⟨⟨(i 0).val / 4096, by rw [hN]; omega⟩, rfl⟩
  obtain ⟨-, -, -, -, -, -, -, -, ⟨i0, i1⟩, -⟩ := index_facts t
  refine ⟨t, flush0_8 t, ?_⟩
  rw [mem_blk8]
  intro a
  match a with
  | ⟨0, _⟩ =>
    show win0_8.index t (0 : Fin 2) * 4096 ≤ (i 0).val ∧ (i 0).val < win0_8.index t (0 : Fin 2) * 4096 + 4096
    rw [i0, ht]; omega
  | ⟨1, _⟩ =>
    show win0_8.index t (1 : Fin 2) * 128 ≤ (i 1).val ∧ (i 1).val < win0_8.index t (1 : Fin 2) * 128 + 128
    rw [i1]; omega

/-- The same for the logits' array. -/
theorem cover9 (i : S65536x128.Idx) : ∃ t : Fin cfg0.N, (cfg0.win 9).flush t = true ∧ i ∈ ((cfg0.win 9).blk t).view.set := by
  have hi0 : (i 0).val < 65536 := (i 0).isLt
  have hi1 : (i 1).val < 128 := (i 1).isLt
  have hN : cfg0.N = 16 := N_0
  obtain ⟨t, ht⟩ : ∃ t : Fin cfg0.N, t.val = (i 0).val / 4096 := ⟨⟨(i 0).val / 4096, by rw [hN]; omega⟩, rfl⟩
  obtain ⟨-, -, -, -, -, -, -, -, -, ⟨i0, i1⟩⟩ := index_facts t
  refine ⟨t, flush0_9 t, ?_⟩
  rw [mem_blk9]
  intro a
  match a with
  | ⟨0, _⟩ =>
    show win0_9.index t (0 : Fin 2) * 4096 ≤ (i 0).val ∧ (i 0).val < win0_9.index t (0 : Fin 2) * 4096 + 4096
    rw [i0, ht]; omega
  | ⟨1, _⟩ =>
    show win0_9.index t (1 : Fin 2) * 128 ≤ (i 1).val ∧ (i 1).val < win0_9.index t (1 : Fin 2) * 128 + 128
    rw [i1]; omega

/-- The messages' array after the region: `msgOf` of the arrays the region finds. -/
theorem y_arr_eq (c : Dev nD) :
    (Fr.dat0 V c).arrAt 8 cfg0.N = msgOf (V c main_v6) (V c main_v13) (V c main_v14) (V c main_v15) (V c main_v24) :=
  (Fr.dat0 V c).arrAt_eq_of_cover 8 (msgOf (V c main_v6) (V c main_v13) (V c main_v14) (V c main_v15) (V c main_v24))
    (fun t _ => flushed8_eq V c t) cover8

/-- The logits' array after the region: `logitOf` of the arrays the region finds. -/
theorem ab_arr_eq (c : Dev nD) :
    (Fr.dat0 V c).arrAt 9 cfg0.N = logitOf (V c main_v6) (V c main_v13) (V c main_v20) (V c main_v23) (V c main_v26) :=
  (Fr.dat0 V c).arrAt_eq_of_cover 9 (logitOf (V c main_v6) (V c main_v13) (V c main_v20) (V c main_v23) (V c main_v26))
    (fun t _ => flushed9_eq V c t) cover9

/-- The messages' array after the region, at an entry. -/
theorem y_arr (c : Dev nD) (e : Fin 65536) (q : Fin 128) :
    ((Fr.dat0 V c).arrAt 8 cfg0.N : S65536x128.Idx → EReal) (ix2 e q)
      = msgOf (V c main_v6) (V c main_v13) (V c main_v14) (V c main_v15) (V c main_v24) (ix2 e q) :=
  congrFun (y_arr_eq V c) (ix2 e q)

/-- The logits' array after the region, at an entry. -/
theorem ab_arr (c : Dev nD) (e : Fin 65536) (q : Fin 128) :
    ((Fr.dat0 V c).arrAt 9 cfg0.N : S65536x128.Idx → EReal) (ix2 e q)
      = logitOf (V c main_v6) (V c main_v13) (V c main_v20) (V c main_v23) (V c main_v26) (ix2 e q) :=
  congrFun (ab_arr_eq V c) (ix2 e q)

end Cert.KernelIdeal.Val

end
-- ==== Proof.Val.AggDef.lean ====
/-
  The aggregation's result as one function of the arrays region 1 finds: the incidence matrix M, the
  messages Y, the lane-broadcast logits AB and the global maximum mx:
      o(n,q) = (Σ_e M(n,e)·(Y(e,q)·exp(AB(e,q) − mx))) / (Σ_e M(n,e)·exp(AB(e,q) − mx) + eps).
-/
import proofs.«127976_j3624952398656_1_alg».proof.KernelIdeal
import Idealize.ShloMosaic.PureOps.Ideal
import Idealize.ShloMosaic.Lib.ValueIdx

noncomputable section

namespace Cert.KernelIdeal.Val

open Idealize.ShloMosaic Idealize.ShloMosaic.ValueIdx
open Cert.KernelIdeal

/-- The edge-softmax aggregation of the messages, entry by entry. -/
def aggOf (M : S2048x65536.Idx → EReal) (Y AB : S65536x128.Idx → EReal) (mx : S1x1.Idx → EReal) : S2048x128.Idx → EReal :=
  fun i => Ideal.div
    (∑ e : Fin 65536, M (ix2 (i 0 : Fin 2048) e) * (Y (ix2 e (i 1 : Fin 128)) * Ideal.exp (AB (ix2 e (i 1 : Fin 128)) - mx (ix2 (0 : Fin 1) (0 : Fin 1)))))
    ((∑ e : Fin 65536, M (ix2 (i 0 : Fin 2048) e) * Ideal.exp (AB (ix2 e (i 1 : Fin 128)) - mx (ix2 (0 : Fin 1) (0 : Fin 1)))) + Ideal.ofBits .f32 0x358637BD#32)

/-- The aggregation at an entry. -/
theorem aggOf_apply (M : S2048x65536.Idx → EReal) (Y AB : S65536x128.Idx → EReal) (mx : S1x1.Idx → EReal) (n : Fin 2048) (q : Fin 128) :
    aggOf M Y AB mx (ix2 n q)
      = Ideal.div (∑ e : Fin 65536, M (ix2 n e) * (Y (ix2 e q) * Ideal.exp (AB (ix2 e q) - mx (ix2 (0 : Fin 1) (0 : Fin 1)))))
          ((∑ e : Fin 65536, M (ix2 n e) * Ideal.exp (AB (ix2 e q) - mx (ix2 (0 : Fin 1) (0 : Fin 1)))) + Ideal.ofBits .f32 0x358637BD#32) := rfl

end Cert.KernelIdeal.Val

end
-- ==== Proof.Val.Kernel.lean ====
/-
  The kernel program's result as one formula of its arguments, at the extended reals.  The second region's output
  array at the end of the run is what its pipeline leaves; that is the edge-softmax aggregation of the four arrays the
  region finds; each of those is walked back through the second host stretch, the first region and the first host
  stretch to the launch contents: the incidence matrix is an argument nobody writes, the messages and the logits are
  what the first region leaves (functions of the gathered rows, the weight slices and the bias rows the first stretch
  prepares), and the maximum is the supremum of the logits' array.
-/
import proofs.«127976_j3624952398656_1_alg».proof.Proof.Val.Host
import proofs.«127976_j3624952398656_1_alg».proof.Proof.Val.Reg0Arr
import proofs.«127976_j3624952398656_1_alg».proof.Proof.Val.AggDef
import proofs.«127976_j3624952398656_1_alg».proof.Proof.KI.Run
import proofs.«127976_j3624952398656_1_alg».proof.Proof.KI.Reg0Defs
import proofs.«127976_j3624952398656_1_alg».proof.Proof.KI.Reg1Defs

noncomputable section

namespace Cert.KernelIdeal.Val

open Idealize.ShloMosaic Idealize.ShloMosaic.TcCoe Idealize.ShloMosaic.ValueIdx Idealize.ShloMosaic.StableHlo
open Idealize.SL.Sem
open Cert.KernelIdeal Cert.KernelIdeal.Gen

/-! ## The formula of the arguments -/

/-- The messages: max(hs·fW₁ + ht·fW₂ + fb, 0), the two halves of the [256, 128] weight matrix `a6` against the
    gathered source and target rows. -/
def yK (hs ht : S65536x128.Idx → EReal) (a6 : S256x128.Idx → EReal) (a7 : S128.Idx → EReal) (e : Fin 65536) (q : Fin 128) : EReal :=
  max (((∑ k : Fin 128, hs (ix2 e k) * a6 (ix2 (⟨k.val, by omega⟩ : Fin 256) q))
      + (∑ k : Fin 128, ht (ix2 e k) * a6 (ix2 (⟨128 + k.val, by omega⟩ : Fin 256) q))) + a7 (ix1 q))
    (Ideal.ofBits .f32 0x00000000#32)

/-- The logits, the same in every lane `q`: hs·wW₁ + ht·wW₂ + wb, the two halves of the [256, 1] column `a8`. -/
def abK (hs ht : S65536x128.Idx → EReal) (a8 : S256x1.Idx → EReal) (a9 : S1.Idx → EReal) (e : Fin 65536) (q : Fin 128) : EReal :=
  ((∑ k : Fin 128, hs (ix2 e k) * a8 (ix2 (⟨k.val, by omega⟩ : Fin 256) (0 : Fin 1)))
    + (∑ k : Fin 128, ht (ix2 e k) * a8 (ix2 (⟨128 + k.val, by omega⟩ : Fin 256) (0 : Fin 1)))) + a9 (ix1 (0 : Fin 1))

/-- The supremum of the logits over every edge and lane. -/
def amaxK (hs ht : S65536x128.Idx → EReal) (a8 : S256x1.Idx → EReal) (a9 : S1.Idx → EReal) : EReal :=
  iSup (α := EReal) (fun j : (⟨2, ![65536, 128]⟩ : Shape).Idx =>
    abK hs ht a8 a9 ⟨(j 0).val, (j 0).isLt⟩ ⟨(j 1).val, (j 1).isLt⟩)

/-- The result: the incidence-weighted sum of the messages times exp(logit − sup), over the incidence-weighted sum of
    exp(logit − sup) plus the constant of the word 0x358637BD. -/
def oK (hs ht : S65536x128.Idx → EReal) (a5 : S2048x65536.Idx → EReal) (a6 : S256x128.Idx → EReal) (a7 : S128.Idx → EReal)
    (a8 : S256x1.Idx → EReal) (a9 : S1.Idx → EReal) (n : Fin 2048) (q : Fin 128) : EReal :=
  Ideal.div (∑ e : Fin 65536, a5 (ix2 n e) * (yK hs ht a6 a7 e q * Ideal.exp (abK hs ht a8 a9 e q - amaxK hs ht a8 a9)))
    ((∑ e : Fin 65536, a5 (ix2 n e) * Ideal.exp (abK hs ht a8 a9 e q - amaxK hs ht a8 a9)) + Ideal.ofBits .f32 0x358637BD#32)

/-! ## Each region's array once the arrays it finds are known -/

/-- The messages' entry once the five arrays are known: the gathered rows as whole functions, the weights and the
    bias entry by entry. -/
theorem msgOf_eq_yK (A0 A1 : S65536x128.Idx → EReal) (M1 M2 : S128x128.Idx → EReal) (B : S1x128.Idx → EReal)
    (hs ht : S65536x128.Idx → EReal) (a6 : S256x128.Idx → EReal) (a7 : S128.Idx → EReal)
    (h0 : A0 = hs) (h1 : A1 = ht)
    (hm1 : ∀ k q : Fin 128, M1 (ix2 k q) = a6 (ix2 (⟨k.val, by omega⟩ : Fin 256) q))
    (hm2 : ∀ k q : Fin 128, M2 (ix2 k q) = a6 (ix2 (⟨128 + k.val, by omega⟩ : Fin 256) q))
    (hb : ∀ q : Fin 128, B (ix2 (0 : Fin 1) q) = a7 (ix1 q)) (e : Fin 65536) (q : Fin 128) :
    msgOf A0 A1 M1 M2 B (ix2 e q) = yK hs ht a6 a7 e q := by
  subst h0 h1
  rw [msgOf_apply]
  unfold yK
  simp only [hm1, hm2, hb]

/-- The logits' entry likewise. -/
theorem logitOf_eq_abK (A0 A1 : S65536x128.Idx → EReal) (M1 M2 : S128x128.Idx → EReal) (B : S1x128.Idx → EReal)
    (hs ht : S65536x128.Idx → EReal) (a8 : S256x1.Idx → EReal) (a9 : S1.Idx → EReal)
    (h0 : A0 = hs) (h1 : A1 = ht)
    (hm1 : ∀ k q : Fin 128, M1 (ix2 k q) = a8 (ix2 (⟨k.val, by omega⟩ : Fin 256) (0 : Fin 1)))
    (hm2 : ∀ k q : Fin 128, M2 (ix2 k q) = a8 (ix2 (⟨128 + k.val, by omega⟩ : Fin 256) (0 : Fin 1)))
    (hb : ∀ q : Fin 128, B (ix2 (0 : Fin 1) q) = a9 (ix1 (0 : Fin 1))) (e : Fin 65536) (q : Fin 128) :
    logitOf A0 A1 M1 M2 B (ix2 e q) = abK hs ht a8 a9 e q := by
  subst h0 h1
  rw [logitOf_apply]
  unfold abK
  simp only [hm1, hm2, hb]

/-- The result's entry once the incidence matrix is known as a whole function, the messages and the logits entry by
    entry and the maximum at its one entry. -/
theorem aggOf_eq (A5 a5 : S2048x65536.Idx → EReal) (Y AB : S65536x128.Idx → EReal) (MX : S1x1.Idx → EReal)
    (yk abk : Fin 65536 → Fin 128 → EReal) (mxk : EReal)
    (h5 : A5 = a5) (hY : ∀ e q, Y (ix2 e q) = yk e q) (hAB : ∀ e q, AB (ix2 e q) = abk e q)
    (hMX : MX (ix2 (0 : Fin 1) (0 : Fin 1)) = mxk) (n : Fin 2048) (q : Fin 128) :
    aggOf A5 Y AB MX (ix2 n q)
      = Ideal.div (∑ e : Fin 65536, a5 (ix2 n e) * (yk e q * Ideal.exp (abk e q - mxk)))
          ((∑ e : Fin 65536, a5 (ix2 n e) * Ideal.exp (abk e q - mxk)) + Ideal.ofBits .f32 0x358637BD#32) := by
  subst h5
  rw [aggOf_apply]
  simp only [hY, hAB, hMX]

/-! ## The program's result -/

section

variable
  (o_arr_eq : ∀ (V : (c : Dev nD) → (b : Ref sig .tc) → Buf (Elt Ideal) ((c : Thread nD τ).loc b)) (c : Dev nD),
    (Fr.dat1 V c).arrAt 4 cfg1.N = aggOf (V c main_arg5) (V c main_v27_0) (V c main_v27_1) (V c main_v29))
  (m : (ℓ : Loc nD τ sig) → Buf (Elt Ideal) ℓ) (c : Dev nD)

include o_arr_eq in
/-- The second region's output array at the end of the run, entry by entry, as the formula of the launch contents of
    the arguments. -/
theorem kernel_value (n : Fin 2048) (q : Fin 128) :
    (Fr.W4 Fr.dat0 Fr.dat1 m c (Proc.devRef .tc main_v30) : S2048x128.Idx → EReal) (ix2 n q)
      = oK (Cert.ReferenceIdeal.Read.val_main_v6 (F := Ideal) (m ((c : Thread nD τ).loc main_arg0)) (m ((c : Thread nD τ).loc main_arg2)))
          (Cert.ReferenceIdeal.Read.val_main_v13 (F := Ideal) (m ((c : Thread nD τ).loc main_arg0)) (m ((c : Thread nD τ).loc main_arg3)))
          (m ((c : Thread nD τ).loc main_arg5)) (m ((c : Thread nD τ).loc main_arg6)) (m ((c : Thread nD τ).loc main_arg7))
          (m ((c : Thread nD τ).loc main_arg8)) (m ((c : Thread nD τ).loc main_arg9)) n q := by
  -- the first region's two arrays, entry by entry, from the launch contents
  have hY : ∀ (e : Fin 65536) (q : Fin 128),
      ((Fr.dat0 (Fr.V1 m) c).arrAt 8 cfg0.N : S65536x128.Idx → EReal) (ix2 e q)
        = yK (Cert.ReferenceIdeal.Read.val_main_v6 (F := Ideal) (m ((c : Thread nD τ).loc main_arg0)) (m ((c : Thread nD τ).loc main_arg2)))
            (Cert.ReferenceIdeal.Read.val_main_v13 (F := Ideal) (m ((c : Thread nD τ).loc main_arg0)) (m ((c : Thread nD τ).loc main_arg3)))
            (m ((c : Thread nD τ).loc main_arg6)) (m ((c : Thread nD τ).loc main_arg7)) e q := fun e q =>
    (congrFun (y_arr_eq (Fr.V1 m) c) (ix2 e q)).trans
      (msgOf_eq_yK _ _ _ _ _ _ _ _ _ (h0_v6 (Fr.W0 m c)) (h0_v13 (Fr.W0 m c)) (h0_v14 (Fr.W0 m c)) (h0_v15 (Fr.W0 m c))
        (h0_v24 (Fr.W0 m c)) e q)
  have hAB : ∀ (e : Fin 65536) (q : Fin 128),
      ((Fr.dat0 (Fr.V1 m) c).arrAt 9 cfg0.N : S65536x128.Idx → EReal) (ix2 e q)
        = abK (Cert.ReferenceIdeal.Read.val_main_v6 (F := Ideal) (m ((c : Thread nD τ).loc main_arg0)) (m ((c : Thread nD τ).loc main_arg2)))
            (Cert.ReferenceIdeal.Read.val_main_v13 (F := Ideal) (m ((c : Thread nD τ).loc main_arg0)) (m ((c : Thread nD τ).loc main_arg3)))
            (m ((c : Thread nD τ).loc main_arg8)) (m ((c : Thread nD τ).loc main_arg9)) e q := fun e q =>
    (congrFun (ab_arr_eq (Fr.V1 m) c) (ix2 e q)).trans
      (logitOf_eq_abK _ _ _ _ _ _ _ _ _ (h0_v6 (Fr.W0 m c)) (h0_v13 (Fr.W0 m c)) (h0_v20 (Fr.W0 m c)) (h0_v23 (Fr.W0 m c))
        (h0_v26 (Fr.W0 m c)) e q)
  -- the four arrays the second region finds
  have e5 : (Fr.V3 Fr.dat0 m c main_arg5 : S2048x65536.Idx → EReal) = m ((c : Thread nD τ).loc main_arg5) :=
    (Fr.W3_of Fr.dat0 m c main_arg5 (by decide)).trans
      ((Fr.W2_of_ne Fr.dat0 m c main_arg5 (by decide)).trans (Fr.W1_of m c main_arg5 (by decide)))
  have e0 : (Fr.V3 Fr.dat0 m c main_v27_0 : S65536x128.Idx → EReal) = ((Fr.dat0 (Fr.V1 m) c).arrAt 8 cfg0.N : S65536x128.Idx → EReal) :=
    (h1_v27_0 (Fr.W2 Fr.dat0 m c)).trans (Fr.W2_main_v27_0 Fr.dat0 m c)
  have e1 : (Fr.V3 Fr.dat0 m c main_v27_1 : S65536x128.Idx → EReal) = ((Fr.dat0 (Fr.V1 m) c).arrAt 9 cfg0.N : S65536x128.Idx → EReal) :=
    (h1_v27_1 (Fr.W2 Fr.dat0 m c)).trans (Fr.W2_main_v27_1 Fr.dat0 m c)
  have hMX : (Fr.V3 Fr.dat0 m c main_v29 : S1x1.Idx → EReal) (ix2 (0 : Fin 1) (0 : Fin 1))
      = amaxK (Cert.ReferenceIdeal.Read.val_main_v6 (F := Ideal) (m ((c : Thread nD τ).loc main_arg0)) (m ((c : Thread nD τ).loc main_arg2)))
          (Cert.ReferenceIdeal.Read.val_main_v13 (F := Ideal) (m ((c : Thread nD τ).loc main_arg0)) (m ((c : Thread nD τ).loc main_arg3)))
          (m ((c : Thread nD τ).loc main_arg8)) (m ((c : Thread nD τ).loc main_arg9)) := by
    refine (h1_v29 (Fr.W2 Fr.dat0 m c)).trans ?_
    unfold amaxK
    refine congrArg (iSup (α := EReal) (ι := S65536x128.Idx)) (funext fun j => ?_)
    have hj : j = ix2 (⟨(j 0).val, (j 0).isLt⟩ : Fin 65536) (⟨(j 1).val, (j 1).isLt⟩ : Fin 128) := by
      funext d
      match d with
      | ⟨0, _⟩ => rfl
      | ⟨1, _⟩ => rfl
    exact (congrArg (fun i => (Fr.W2 Fr.dat0 m c (Proc.devRef .tc main_v27_1) : S65536x128.Idx → EReal) i) hj).trans
      ((congrFun (Fr.W2_main_v27_1 Fr.dat0 m c) _).trans (hAB _ _))
  refine (congrFun (Fr.W4_main_v30 Fr.dat0 Fr.dat1 m c) (ix2 n q)).trans
    ((congrFun (o_arr_eq (Fr.V3 Fr.dat0 m) c) (ix2 n q)).trans ?_)
  exact aggOf_eq _ _ _ _ _ _ _ _ e5 (fun e q => (congrFun e0 (ix2 e q)).trans (hY e q))
    (fun e q => (congrFun e1 (ix2 e q)).trans (hAB e q)) hMX n q

end

end Cert.KernelIdeal.Val

end
-- ==== Proof.Val.Reg1Pay.lean ====
/-
  The payloads of region 1 (the edge-softmax aggregation) at the ideal values, read at an entry.  For a node r of
  the row block, a lane q, an incidence block x0 [1024, 2048], the staged messages x1 and logits x2 [2048, 128]
  and the global maximum x3 [1, 1]:
    the first accumulator's step adds  Σ_k x0(r,k) · (x1(k,q) · exp(x2(k,q) − x3(0,0)))  to what it held,
    the second's adds                  Σ_k x0(r,k) · exp(x2(k,q) − x3(0,0)),
  the sums over the 2048 edges of the tile; the stored quotient is the first accumulator over the second plus the
  literal 0x358637BD; the restarted accumulators are zero.  The narrowing of the operands to bf16 is the identity
  at the ideal values and the product into a zero accumulator is the plain sum.
-/
import proofs.«127976_j3624952398656_1_alg».proof.Proof.KI.Reg1Defs
import proofs.«127976_j3624952398656_1_alg».proof.Proof.LibPlainDot
import proofs.«127976_j3624952398656_1_alg».proof.Proof.LibTileExtrema
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen

/-- The body's product of a [1024, 2048] block by a [2048, 128] block into the zero accumulator, at an entry. -/
theorem tile_dot_apply {φ₁ φ₂ : FTy} (lhs : FVec Ideal S1024x2048 φ₁) (rhs : FVec Ideal S2048x128 φ₂) (r : Fin 1024) (q : Fin 128) :
    FloatOps.matmul dot_S1024x2048_S2048x128_S1024x128_1_0_0_1_n_n none lhs rhs (constant S1024x128 .f32 0x00000000#32) (ix2 r q)
      = ∑ k : Fin 2048, lhs (ix2 r k) * rhs (ix2 k q) :=
  Cert.LibPlainDot.matmul_zero_apply (M := 1024) (K := 2048) (N := 128) dot_S1024x2048_S2048x128_S1024x128_1_0_0_1_n_n
    rfl rfl rfl rfl (fun _ _ => rfl) (fun _ _ => rfl) none lhs rhs r q

/-- The weight exp(logit − max) of an edge of the tile, at an entry. -/
theorem k1_pay4_apply (x2 : Vec Ideal S2048x128 .f32) (x3 : Vec Ideal S1x1 .f32) (k : Fin 2048) (q : Fin 128) :
    k1_pay4 x2 x3 (ix2 k q) = Ideal.exp (x2 (ix2 k q) - x3 (ix2 (0 : Fin 1) (0 : Fin 1))) := by
  unfold k1_pay4
  simp only [shapeCast_self]
  exact congrArg Ideal.exp (congrArg₂ (· - ·) rfl
    (Cert.LibTileExtrema.broadcastTo_11_ab_apply x3 broadcasts_S1x1_S2048x128 k q))

/-- The first accumulator's step, at an entry. -/
theorem k1_pay5_apply (x0 : Vec Ideal S1024x2048 .f32) (x1 x2 : Vec Ideal S2048x128 .f32) (x3 : Vec Ideal S1x1 .f32)
    (s : Vec Ideal S1024x128 .f32) (r : Fin 1024) (q : Fin 128) :
    k1_pay5 x0 x1 x2 x3 s (ix2 r q)
      = s (ix2 r q) + ∑ k : Fin 2048, x0 (ix2 r k) * (x1 (ix2 k q) * Ideal.exp (x2 (ix2 k q) - x3 (ix2 (0 : Fin 1) (0 : Fin 1)))) := by
  unfold k1_pay5 k1_pay3
  simp only [shapeCast_self]
  refine congrArg₂ (· + ·) rfl ?_
  refine (tile_dot_apply (truncf FTy.bf16 x0 bitsLt_bf16_f32)
    (truncf FTy.bf16 (mulf x1 (k1_pay4 x2 x3)) bitsLt_bf16_f32) r q).trans ?_
  refine Finset.sum_congr rfl fun k _ => ?_
  exact congrArg₂ (· * ·) rfl (congrArg₂ (· * ·) rfl (k1_pay4_apply x2 x3 k q))

/-- The second accumulator's step, at an entry. -/
theorem k1_pay6_apply (x0 : Vec Ideal S1024x2048 .f32) (x2 : Vec Ideal S2048x128 .f32) (x3 : Vec Ideal S1x1 .f32)
    (s : Vec Ideal S1024x128 .f32) (r : Fin 1024) (q : Fin 128) :
    k1_pay6 x0 x2 x3 s (ix2 r q)
      = s (ix2 r q) + ∑ k : Fin 2048, x0 (ix2 r k) * Ideal.exp (x2 (ix2 k q) - x3 (ix2 (0 : Fin 1) (0 : Fin 1))) := by
  unfold k1_pay6 k1_pay3
  simp only [shapeCast_self]
  refine congrArg₂ (· + ·) rfl ?_
  refine (tile_dot_apply (truncf FTy.bf16 x0 bitsLt_bf16_f32)
    (truncf FTy.bf16 (k1_pay4 x2 x3) bitsLt_bf16_f32) r q).trans ?_
  refine Finset.sum_congr rfl fun k _ => ?_
  exact congrArg₂ (· * ·) rfl (k1_pay4_apply x2 x3 k q)

/-- The stored quotient, at an entry. -/
theorem k1_pay7_apply (s0 s1 : Vec Ideal S1024x128 .f32) (r : Fin 1024) (q : Fin 128) :
    k1_pay7 s0 s1 (ix2 r q) = Ideal.div (s0 (ix2 r q)) (s1 (ix2 r q) + Ideal.ofBits .f32 0x358637BD#32) := by
  unfold k1_pay7
  rfl

/-- The restarted accumulators are zero at every entry. -/
theorem k1_pay1_apply (r : Fin 1024) (q : Fin 128) : k1_pay1 (F := Ideal) (ix2 r q) = 0 := by
  unfold k1_pay1
  simp only [shapeCast_self]
  exact Ideal.ofBits_zero_f32

theorem k1_pay2_apply (r : Fin 1024) (q : Fin 128) : k1_pay2 (F := Ideal) (ix2 r q) = 0 := by
  unfold k1_pay2
  simp only [shapeCast_self]
  exact Ideal.ofBits_zero_f32

end Cert.KernelIdeal.Val

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.Val.Reg1Arr.lean ====
/-
  The value region 1 (the edge-softmax aggregation) leaves in its result array, at the ideal values.  With M the
  incidence matrix [2048, 65536], Y the messages and AB the logits [65536, 128] and amax the global maximum, as
  the region finds them, the result at node n and lane q is
      (Σ_e M(n,e) · (Y(e,q) · exp(AB(e,q) − amax))) / (Σ_e M(n,e) · exp(AB(e,q) − amax) + 0x358637BD),
  the sums over all 65536 edges.  The grid is 2 x 32: point t = 32·i + j adds the terms of edge tile j
  (edges 2048·j .. 2048·j + 2047) of row block i (nodes 1024·i .. 1024·i + 1023) to two accumulators restarted at
  j = 0; the quotient is stored and written back at j = 31.  So the accumulators after point 32·i + j hold the sums
  over the tiles 0..j (induction on the point; 0 + x = x and the associativity of + are all that is used), at
  j = 31 the 32 tile sums are the sum over all edges, and the two written blocks cover the array.
-/
import proofs.«127976_j3624952398656_1_alg».proof.Proof.Val.Reg1Pay
import proofs.«127976_j3624952398656_1_alg».proof.Proof.LibERealStats
import proofs.«127976_j3624952398656_1_alg».proof.Proof.Val.AggDef
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The arrays as the region finds them, read at natural-number coordinates (zero outside their extents) -/

/-- The incidence matrix at (node, edge). -/
def Mn (a b : ℕ) : EReal :=
  if h : a < 2048 ∧ b < 65536 then (V c main_arg5 : S2048x65536.Idx → EReal) (ix2 ⟨a, h.1⟩ ⟨b, h.2⟩) else 0
/-- The messages at (edge, lane). -/
def Yn (e q : ℕ) : EReal :=
  if h : e < 65536 ∧ q < 128 then (V c main_v27_0 : S65536x128.Idx → EReal) (ix2 ⟨e, h.1⟩ ⟨q, h.2⟩) else 0
/-- The logits at (edge, lane). -/
def ABn (e q : ℕ) : EReal :=
  if h : e < 65536 ∧ q < 128 then (V c main_v27_1 : S65536x128.Idx → EReal) (ix2 ⟨e, h.1⟩ ⟨q, h.2⟩) else 0
/-- The global maximum. -/
def amax : EReal := (V c main_v29 : S1x1.Idx → EReal) (ix2 (0 : Fin 1) (0 : Fin 1))

/-- Edge e's term of the numerator at (node n, lane q), -/
def term1 (n q e : ℕ) : EReal := Mn V c n e * (Yn V c e q * Ideal.exp (ABn V c e q - amax V c))
/-- and of the normaliser. -/
def term2 (n q e : ℕ) : EReal := Mn V c n e * Ideal.exp (ABn V c e q - amax V c)

/-! ## The printed index maps, decided over the 64 points -/

theorem idx1_0 : ∀ t : Fin cfg1.N, win1_0.index t (0 : Fin 2) = t.val / 32 ∧ win1_0.index t (1 : Fin 2) = t.val % 32 :=
  (by decide +kernel : ∀ t : Fin grid1.N, _)
theorem idx1_1 : ∀ t : Fin cfg1.N, win1_1.index t (0 : Fin 2) = t.val % 32 ∧ win1_1.index t (1 : Fin 2) = 0 :=
  (by decide +kernel : ∀ t : Fin grid1.N, _)
theorem idx1_2 : ∀ t : Fin cfg1.N, win1_2.index t (0 : Fin 2) = t.val % 32 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val / 32 ∧ win1_4.index t (1 : Fin 2) = 0 :=
  (by decide +kernel : ∀ t : Fin grid1.N, _)

/-! ## The staged blocks, read at an entry -/

/-- The incidence block at point t holds the nodes of row block t / 32 against the edges of tile t % 32. -/
theorem blk0_apply (t : Fin cfg1.N) (r : Fin 1024) (k : Fin 2048) :
    (Fr.iblk1 V c 0 t : Vec Ideal S1024x2048 .f32) (ix2 r k) = Mn V c (1024 * (t.val / 32) + r.val) (2048 * (t.val % 32) + k.val) := by
  have hN : cfg1.N = 64 := N_1
  have ht := t.isLt
  obtain ⟨e0, e1⟩ := idx1_0 t
  unfold Mn
  rw [dif_pos ⟨by omega, by omega⟩]
  unfold Fr.iblk1
  rw [View.read_apply]
  show (V c main_arg5 : S2048x65536.Idx → EReal) _ = _
  congr 1
  funext a
  apply Fin.ext
  match a with
  | ⟨0, _⟩ => show win1_0.index t (0 : Fin 2) * 1024 + 1 * r.val = 1024 * (t.val / 32) + r.val; rw [e0]; omega
  | ⟨1, _⟩ => show win1_0.index t (1 : Fin 2) * 2048 + 1 * k.val = 2048 * (t.val % 32) + k.val; rw [e1]; omega

/-- The messages' block at point t holds the edges of tile t % 32. -/
theorem blk1_apply (t : Fin cfg1.N) (k : Fin 2048) (q : Fin 128) :
    (Fr.iblk1 V c 1 t : Vec Ideal S2048x128 .f32) (ix2 k q) = Yn V c (2048 * (t.val % 32) + k.val) q.val := by
  have hN : cfg1.N = 64 := N_1
  have ht := t.isLt
  obtain ⟨e0, e1⟩ := idx1_1 t
  unfold Yn
  rw [dif_pos ⟨by omega, q.isLt⟩]
  unfold Fr.iblk1
  rw [View.read_apply]
  show (V c main_v27_0 : S65536x128.Idx → EReal) _ = _
  congr 1
  funext a
  apply Fin.ext
  match a with
  | ⟨0, _⟩ => show win1_1.index t (0 : Fin 2) * 2048 + 1 * k.val = 2048 * (t.val % 32) + k.val; rw [e0]; omega
  | ⟨1, _⟩ => show win1_1.index t (1 : Fin 2) * 128 + 1 * q.val = q.val; rw [e1]; omega

/-- The logits' block at point t holds the edges of tile t % 32. -/
theorem blk2_apply (t : Fin cfg1.N) (k : Fin 2048) (q : Fin 128) :
    (Fr.iblk1 V c 2 t : Vec Ideal S2048x128 .f32) (ix2 k q) = ABn V c (2048 * (t.val % 32) + k.val) q.val := by
  have hN : cfg1.N = 64 := N_1
  have ht := t.isLt
  obtain ⟨e0, e1⟩ := idx1_2 t
  unfold ABn
  rw [dif_pos ⟨by omega, q.isLt⟩]
  unfold Fr.iblk1
  rw [View.read_apply]
  show (V c main_v27_1 : S65536x128.Idx → EReal) _ = _
  congr 1
  funext a
  apply Fin.ext
  match a with
  | ⟨0, _⟩ => show win1_2.index t (0 : Fin 2) * 2048 + 1 * k.val = 2048 * (t.val % 32) + k.val; rw [e0]; omega
  | ⟨1, _⟩ => show win1_2.index t (1 : Fin 2) * 128 + 1 * q.val = q.val; rw [e1]; omega

/-- The maximum's one block is the array. -/
theorem blk3_apply (t : Fin cfg1.N) :
    (Fr.iblk1 V c 3 t : Vec Ideal S1x1 .f32) (ix2 (0 : Fin 1) (0 : Fin 1)) = amax V c := by
  obtain ⟨e0, e1⟩ := idx1_3 t
  unfold amax
  unfold Fr.iblk1
  rw [View.read_apply]
  show (V c main_v29 : S1x1.Idx → EReal) _ = _
  congr 1
  funext a
  apply Fin.ext
  match a with
  | ⟨0, _⟩ => show win1_3.index t (0 : Fin 2) * 1 + 1 * 0 = 0; rw [e0]
  | ⟨1, _⟩ => show win1_3.index t (1 : Fin 2) * 1 + 1 * 0 = 0; rw [e1]

/-! ## One point's step of the accumulators, at an entry -/

/-- The step adds the terms of the point's edge tile to the first accumulator, -/
theorem step1_apply (t : Fin cfg1.N) (s : Vec Ideal S1024x128 .f32 × Vec Ideal S1024x128 .f32) (r : Fin 1024) (q : Fin 128) :
    (Fr.accStep (Fr.iblk1 V c 0 t) (Fr.iblk1 V c 1 t) (Fr.iblk1 V c 2 t) (Fr.iblk1 V c 3 t) s).1 (ix2 r q)
      = s.1 (ix2 r q) + ∑ k : Fin 2048, term1 V c (1024 * (t.val / 32) + r.val) q.val (2048 * (t.val % 32) + k.val) := by
  refine (k1_pay5_apply (Fr.iblk1 V c 0 t) (Fr.iblk1 V c 1 t) (Fr.iblk1 V c 2 t) (Fr.iblk1 V c 3 t) s.1 r q).trans ?_
  refine congrArg₂ (· + ·) rfl (Finset.sum_congr rfl fun k _ => ?_)
  exact congrArg₂ (· * ·) (blk0_apply V c t r k) (congrArg₂ (· * ·) (blk1_apply V c t k q)
    (congrArg Ideal.exp (congrArg₂ (· - ·) (blk2_apply V c t k q) (blk3_apply V c t))))

/-- and to the second. -/
theorem step2_apply (t : Fin cfg1.N) (s : Vec Ideal S1024x128 .f32 × Vec Ideal S1024x128 .f32) (r : Fin 1024) (q : Fin 128) :
    (Fr.accStep (Fr.iblk1 V c 0 t) (Fr.iblk1 V c 1 t) (Fr.iblk1 V c 2 t) (Fr.iblk1 V c 3 t) s).2 (ix2 r q)
      = s.2 (ix2 r q) + ∑ k : Fin 2048, term2 V c (1024 * (t.val / 32) + r.val) q.val (2048 * (t.val % 32) + k.val) := by
  refine (k1_pay6_apply (Fr.iblk1 V c 0 t) (Fr.iblk1 V c 2 t) (Fr.iblk1 V c 3 t) s.2 r q).trans ?_
  refine congrArg₂ (· + ·) rfl (Finset.sum_congr rfl fun k _ => ?_)
  exact congrArg₂ (· * ·) (blk0_apply V c t r k)
    (congrArg Ideal.exp (congrArg₂ (· - ·) (blk2_apply V c t k q) (blk3_apply V c t)))

/-! ## The accumulators in closed form -/

/-- After point n the first accumulator holds, at (r, q), the terms of the tiles 0 .. n % 32 of row block n / 32. -/
theorem acc1_fst_apply (r : Fin 1024) (q : Fin 128) : ∀ (n : ℕ) (hn : n < cfg1.N),
    (Fr.acc1 V c n hn).1 (ix2 r q)
      = ∑ s ∈ Finset.range (n % 32 + 1), ∑ k : Fin 2048, term1 V c (1024 * (n / 32) + r.val) q.val (2048 * s + k.val) := by
  have first : ∀ (n : ℕ) (hn : n < cfg1.N), n % 32 = 0 →
      (Fr.acc1 V c n hn).1 (ix2 r q)
        = ∑ s ∈ Finset.range (n % 32 + 1), ∑ k : Fin 2048, term1 V c (1024 * (n / 32) + r.val) q.val (2048 * s + k.val) := by
    intro n hn h
    have e : Fr.acc1 V c n hn = _ := Fr.acc1_first V c ⟨n, hn⟩ h
    rw [e, step1_apply V c ⟨n, hn⟩ Fr.accInit r q]
    show k1_pay1 (F := Ideal) (ix2 r q) + _ = _
    rw [k1_pay1_apply, zero_add, h, Finset.sum_range_one]
  intro n
  induction n with
  | zero => intro hn; exact first 0 hn rfl
  | succ m ih =>
    intro hn
    by_cases h : (m + 1) % 32 = 0
    · exact first (m + 1) hn h
    · have e : Fr.acc1 V c (m + 1) hn = _ := Fr.acc1_next V c ⟨m + 1, hn⟩ h
      rw [e, step1_apply V c ⟨m + 1, hn⟩ _ r q]
      show (Fr.acc1 V c m _).1 (ix2 r q) + _ = _
      rw [ih (Nat.lt_of_succ_lt hn)]
      have h1 : (m + 1) % 32 = m % 32 + 1 := by omega
      have h2 : (m + 1) / 32 = m / 32 := by omega
      show _ + ∑ k : Fin 2048, term1 V c (1024 * ((m + 1) / 32) + r.val) q.val (2048 * ((m + 1) % 32) + k.val) = _
      rw [h2, h1, Finset.sum_range_succ _ (m % 32 + 1)]

/-- After point n the second accumulator holds, at (r, q), the normaliser's terms of the tiles 0 .. n % 32 of row block n / 32. -/
theorem acc1_snd_apply (r : Fin 1024) (q : Fin 128) : ∀ (n : ℕ) (hn : n < cfg1.N),
    (Fr.acc1 V c n hn).2 (ix2 r q)
      = ∑ s ∈ Finset.range (n % 32 + 1), ∑ k : Fin 2048, term2 V c (1024 * (n / 32) + r.val) q.val (2048 * s + k.val) := by
  have first : ∀ (n : ℕ) (hn : n < cfg1.N), n % 32 = 0 →
      (Fr.acc1 V c n hn).2 (ix2 r q)
        = ∑ s ∈ Finset.range (n % 32 + 1), ∑ k : Fin 2048, term2 V c (1024 * (n / 32) + r.val) q.val (2048 * s + k.val) := by
    intro n hn h
    have e : Fr.acc1 V c n hn = _ := Fr.acc1_first V c ⟨n, hn⟩ h
    rw [e, step2_apply V c ⟨n, hn⟩ Fr.accInit r q]
    show k1_pay2 (F := Ideal) (ix2 r q) + _ = _
    rw [k1_pay2_apply, zero_add, h, Finset.sum_range_one]
  intro n
  induction n with
  | zero => intro hn; exact first 0 hn rfl
  | succ m ih =>
    intro hn
    by_cases h : (m + 1) % 32 = 0
    · exact first (m + 1) hn h
    · have e : Fr.acc1 V c (m + 1) hn = _ := Fr.acc1_next V c ⟨m + 1, hn⟩ h
      rw [e, step2_apply V c ⟨m + 1, hn⟩ _ r q]
      show (Fr.acc1 V c m _).2 (ix2 r q) + _ = _
      rw [ih (Nat.lt_of_succ_lt hn)]
      have h1 : (m + 1) % 32 = m % 32 + 1 := by omega
      have h2 : (m + 1) / 32 = m / 32 := by omega
      show _ + ∑ k : Fin 2048, term2 V c (1024 * ((m + 1) / 32) + r.val) q.val (2048 * ((m + 1) % 32) + k.val) = _
      rw [h2, h1, Finset.sum_range_succ _ (m % 32 + 1)]

/-! ## At a last tile: the sums over all edges, and the quotient -/

/-- The 32 tile sums of 2048 edges are the sum over the 65536 edges. -/
theorem sum_all_tiles (f : ℕ → EReal) :
    ∑ s ∈ Finset.range 32, ∑ k : Fin 2048, f (2048 * s + k.val) = ∑ e : Fin 65536, f e.val := by
  rw [Finset.sum_range (fun s => ∑ k : Fin 2048, f (2048 * s + k.val)),
    ← Cert.LibERealStats.sum_tiles_of_eq 32 2048 65536 rfl f]
  refine Finset.sum_congr rfl fun s _ => Finset.sum_congr rfl fun k _ => ?_
  rw [Nat.mul_comm]

/-- The result at (node n, lane q), the coordinates as natural numbers. -/
def quot (n q : ℕ) : EReal :=
  Ideal.div (∑ e : Fin 65536, term1 V c n q e.val) ((∑ e : Fin 65536, term2 V c n q e.val) + Ideal.ofBits .f32 0x358637BD#32)

/-- The result as one function of the arrays, index by index. -/
def G1 : S2048x128.Idx → EReal := fun i => quot V c (i 0).val (i 1).val

/-- What the body stores at a last tile, at an entry: the quotient of the full sums of the row block's node. -/
theorem out1_4_apply (t : Fin cfg1.N) (h31 : t.val % 32 = 31) (r : Fin 1024) (q : Fin 128) :
    Fr.out1_4 (Fr.acc1 V c t.val t.isLt) (ix2 r q) = quot V c (1024 * (t.val / 32) + r.val) q.val := by
  unfold Fr.out1_4 quot
  refine (k1_pay7_apply (Fr.acc1 V c t.val t.isLt).1 (Fr.acc1 V c t.val t.isLt).2 r q).trans ?_
  rw [acc1_fst_apply V c r q t.val t.isLt, acc1_snd_apply V c r q t.val t.isLt, h31,
    sum_all_tiles (term1 V c (1024 * (t.val / 32) + r.val) q.val),
    sum_all_tiles (term2 V c (1024 * (t.val / 32) + r.val) q.val)]

/-! ## From the written blocks to the array -/

/-- The output window is uncut: what is written back is the whole staged block. -/
theorem cut1_4 (t : Fin cfg1.N) (X : Vec Ideal S1024x128 .f32) : (cfg1.win 4).cut (grid1.coords t) X = X := rfl

/-- A block of the result array at point t, read at an entry: the array at node 1024·(t / 32) + r, lane q. -/
theorem read_blk1_4 (t : Fin cfg1.N) (G : S2048x128.Idx → EReal) (r : Fin 1024) (q : Fin 128) (i : S2048x128.Idx)
    (h0 : (i 0).val = 1024 * (t.val / 32) + r.val) (h1 : (i 1).val = q.val) :
    ((cfg1.win 4).blk t).view.read (Elt Ideal) G (ix2 r q) = G i := by
  obtain ⟨i0, i1⟩ := idx1_4 t
  rw [View.read_apply]
  show G _ = G i
  congr 1
  funext a
  apply Fin.ext
  match a with
  | ⟨0, _⟩ => show win1_4.index t (0 : Fin 2) * 1024 + 1 * r.val = (i 0).val; rw [i0, h0]; omega
  | ⟨1, _⟩ => show win1_4.index t (1 : Fin 2) * 128 + 1 * q.val = (i 1).val; rw [i1, h1]; omega

/-- The block of `G1` at point t, at an entry: the quotient at node 1024·(t / 32) + r. -/
theorem read1_4 (t : Fin cfg1.N) (r : Fin 1024) (q : Fin 128) :
    ((cfg1.win 4).blk t).view.read (Elt Ideal) (G1 V c) (ix2 r q) = quot V c (1024 * (t.val / 32) + r.val) q.val := by
  have hN : cfg1.N = 64 := N_1
  have ht := t.isLt
  exact read_blk1_4 t (G1 V c) r q (ix2 ⟨1024 * (t.val / 32) + r.val, by omega⟩ q) rfl rfl

/-- What a last tile writes back is its block of `G1`. -/
theorem flushed1_4_eq (t : Fin cfg1.N) (hf : (cfg1.win 4).flush t = true) :
    (Fr.dat1 V c).flushed 4 t = ((cfg1.win 4).blk t).view.read (Elt Ideal) (G1 V c) := by
  have h31 : t.val % 32 = 31 := (flush1_4 t).mp hf
  show (cfg1.win 4).cut (grid1.coords t) ((Fr.dat1 V c).after 4 t) = _
  rw [Fr.after1_4]
  refine (cut1_4 t _).trans ?_
  funext y
  obtain ⟨r, q, rfl⟩ : ∃ (r : Fin 1024) (q : Fin 128), y = ix2 r q := ⟨y 0, y 1, eq_ix2 y⟩
  exact (out1_4_apply V c t h31 r q).trans (read1_4 V c t r q).symm

/-- An index of the array is in point t's block iff each coordinate is in the block's range on its axis. -/
theorem mem_blk1_4 (t : Fin cfg1.N) (i : S2048x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v30).slice (win1_4.rect t)).set ↔ _
  rw [View.set_slice_whole, Rect.mem_set_unit]
  exact Iff.rfl

/-- Every node's row lies in the block written back at the last tile of its row block. -/
theorem cover1_4 (i : S2048x128.Idx) :
    ∃ t : Fin cfg1.N, (cfg1.win 4).flush t = true ∧ i ∈ ((cfg1.win 4).blk t).view.set := by
  have hN : cfg1.N = 64 := N_1
  have hi0 : (i 0).val < 2048 := (i 0).isLt
  have hi1 : (i 1).val < 128 := (i 1).isLt
  refine ⟨⟨32 * ((i 0).val / 1024) + 31, by omega⟩, (flush1_4 _).mpr (by show (32 * ((i 0).val / 1024) + 31) % 32 = 31; omega), ?_⟩
  rw [mem_blk1_4]
  obtain ⟨e0, e1⟩ := idx1_4 ⟨32 * ((i 0).val / 1024) + 31, by omega⟩
  intro a
  match a with
  | ⟨0, _⟩ =>
    show win1_4.index _ (0 : Fin 2) * 1024 ≤ (i 0).val ∧ (i 0).val < win1_4.index _ (0 : Fin 2) * 1024 + 1024
    rw [e0]; show (32 * ((i 0).val / 1024) + 31) / 32 * 1024 ≤ (i 0).val ∧ (i 0).val < (32 * ((i 0).val / 1024) + 31) / 32 * 1024 + 1024
    omega
  | ⟨1, _⟩ =>
    show win1_4.index _ (1 : Fin 2) * 128 ≤ (i 1).val ∧ (i 1).val < win1_4.index _ (1 : Fin 2) * 128 + 128
    rw [e1]; omega

/-- `G1` is the aggregation of the arrays the region finds: inside the extents the guarded reads are the arrays. -/
theorem G1_eq : G1 V c = aggOf (V c main_arg5) (V c main_v27_0) (V c main_v27_1) (V c main_v29) := by
  funext i
  obtain ⟨n, q, rfl⟩ : ∃ (n : Fin 2048) (q : Fin 128), i = ix2 n q := ⟨i 0, i 1, eq_ix2 i⟩
  rw [aggOf_apply]
  show quot V c n.val q.val = _
  unfold quot
  refine congrArg₂ Ideal.div (Finset.sum_congr rfl fun e _ => ?_)
    (congrArg₂ (· + ·) (Finset.sum_congr rfl fun e _ => ?_) rfl)
  · unfold term1 Mn Yn ABn amax
    rw [dif_pos ⟨n.isLt, e.isLt⟩, dif_pos ⟨e.isLt, q.isLt⟩, dif_pos ⟨e.isLt, q.isLt⟩]
  · unfold term2 Mn ABn amax
    rw [dif_pos ⟨n.isLt, e.isLt⟩, dif_pos ⟨e.isLt, q.isLt⟩]

/-- The result array after the region: the edge-softmax aggregation, over all 65536 edges, of the arrays the region finds. -/
theorem o_arr_eq : (Fr.dat1 V c).arrAt 4 cfg1.N = aggOf (V c main_arg5) (V c main_v27_0) (V c main_v27_1) (V c main_v29) :=
  ((Fr.dat1 V c).arrAt_eq_of_cover 4 (G1 V c) (flushed1_4_eq V c) cover1_4).trans (G1_eq V c)

/-- The same at an entry. -/
theorem o_arr (n : Fin 2048) (q : Fin 128) :
    ((Fr.dat1 V c).arrAt 4 cfg1.N : S2048x128.Idx → EReal) (ix2 n q)
      = aggOf (V c main_arg5) (V c main_v27_0) (V c main_v27_1) (V c main_v29) (ix2 n q) :=
  congrFun (o_arr_eq V c) (ix2 n q)

end Cert.KernelIdeal.Val

end
-- ==== Proof.Spec.Join.lean ====
/-
  The law that joins the two sides, on the extended reals.

  One side forms, for every edge e, the message and the logit from the concatenated row of 256 entries, takes the
  supremum of the logits over the edges, and divides the weighted sum of the messages by the sum of the weights plus
  eps.  The other side forms the same affine maps as TWO sums of 128 terms (source half, target half), carries the
  logit on every one of 128 lanes, and takes the supremum over all (edge, lane) entries.  A sum over 256 = 128 + 128
  indices is the sum of its two halves, and the supremum over (edge, lane) of a function of the edge alone is its
  supremum over the edges: so the two results are equal at every (n, q).
-/
import proofs.«127976_j3624952398656_1_alg».proof.Proof.Ref.RefG

noncomputable section

namespace Cert.Spec

open Idealize.ShloMosaic Idealize.ShloMosaic.ValueIdx
open Cert.ReferenceIdeal (S2048x128 S65536 S2048x65536 S256x128 S128 S256x1 S1 S65536x128)

variable (a0 : (⟨S2048x128, .f32⟩ : BufTy).Contents (Elt Ideal))
  (a2 a3 : (⟨S65536, .i32⟩ : BufTy).Contents (Elt Ideal))
  (a5 : (⟨S2048x65536, .f32⟩ : BufTy).Contents (Elt Ideal))
  (a6 : (⟨S256x128, .f32⟩ : BufTy).Contents (Elt Ideal))
  (a7 : (⟨S128, .f32⟩ : BufTy).Contents (Elt Ideal))
  (a8 : (⟨S256x1, .f32⟩ : BufTy).Contents (Elt Ideal))
  (a9 : (⟨S1, .f32⟩ : BufTy).Contents (Elt Ideal))

/-! ## The two-halves form -/

/-- The rows gathered at the source endpoints. -/
def hs : (⟨S65536x128, .f32⟩ : BufTy).Contents (Elt Ideal) := Cert.ReferenceIdeal.Read.val_main_v6 (F := Ideal) a0 a2

/-- The rows gathered at the target endpoints. -/
def ht : (⟨S65536x128, .f32⟩ : BufTy).Contents (Elt Ideal) := Cert.ReferenceIdeal.Read.val_main_v13 (F := Ideal) a0 a3

/-- Edge e's message at feature q, the affine map taken as the source half plus the target half. -/
def yK (e : Fin 65536) (q : Fin 128) : EReal :=
  max (((∑ k : Fin 128, hs a0 a2 (ix2 e k) * a6 (ix2 (⟨k.val, by omega⟩ : Fin 256) q))
      + (∑ k : Fin 128, ht a0 a3 (ix2 e k) * a6 (ix2 (⟨128 + k.val, by omega⟩ : Fin 256) q))) + a7 (ix1 q))
    (Ideal.ofBits .f32 0x00000000#32)

/-- Edge e's logit, carried on lane q (it does not depend on q). -/
def abK (e : Fin 65536) (q : Fin 128) : EReal :=
  ((∑ k : Fin 128, hs a0 a2 (ix2 e k) * a8 (ix2 (⟨k.val, by omega⟩ : Fin 256) (0 : Fin 1)))
    + (∑ k : Fin 128, ht a0 a3 (ix2 e k) * a8 (ix2 (⟨128 + k.val, by omega⟩ : Fin 256) (0 : Fin 1)))) + a9 (ix1 (0 : Fin 1))

/-- The supremum of the lane-carried logits over all (edge, lane) entries. -/
def amaxK : EReal :=
  iSup (α := EReal) (fun j : (⟨2, ![65536, 128]⟩ : Shape).Idx =>
    abK a0 a2 a3 a8 a9 ⟨(j 0).val, (j 0).isLt⟩ ⟨(j 1).val, (j 1).isLt⟩)

/-- The result at node n, feature q, in the two-halves form. -/
def oK (n : Fin 2048) (q : Fin 128) : EReal :=
  Ideal.div (∑ e : Fin 65536, a5 (ix2 n e) * (yK a0 a2 a3 a6 a7 e q * Ideal.exp (abK a0 a2 a3 a8 a9 e q - amaxK a0 a2 a3 a8 a9)))
    ((∑ e : Fin 65536, a5 (ix2 n e) * Ideal.exp (abK a0 a2 a3 a8 a9 e q - amaxK a0 a2 a3 a8 a9)) + Ideal.ofBits .f32 0x358637BD#32)

/-! ## A sum over 256 indices is the sum of its two halves -/

theorem sum_two_halves (f : Fin 256 → EReal) :
    ∑ k : Fin 256, f k
      = (∑ k : Fin 128, f (⟨k.val, by omega⟩ : Fin 256)) + (∑ k : Fin 128, f (⟨128 + k.val, by omega⟩ : Fin 256)) :=
  Fin.sum_univ_add (a := 128) (b := 128) f

open Cert.ReferenceIdeal.RefValue in
/-- The concatenated row in its first half is the source row. -/
theorem hcat_lo (e : Fin 65536) (k : Fin 128) :
    hcat a0 a2 a3 e (⟨k.val, by omega⟩ : Fin 256) = hs a0 a2 (ix2 e k) := by
  unfold Cert.ReferenceIdeal.RefValue.hcat
  rw [dif_pos (show ((⟨k.val, by omega⟩ : Fin 256)).val < 128 from k.isLt)]
  rfl

open Cert.ReferenceIdeal.RefValue in
/-- The concatenated row in its second half is the target row. -/
theorem hcat_hi (e : Fin 65536) (k : Fin 128) :
    hcat a0 a2 a3 e (⟨128 + k.val, by omega⟩ : Fin 256) = ht a0 a3 (ix2 e k) := by
  unfold Cert.ReferenceIdeal.RefValue.hcat
  rw [dif_neg (show ¬ ((⟨128 + k.val, by omega⟩ : Fin 256)).val < 128 by show ¬ 128 + k.val < 128; omega)]
  exact congrArg (fun t : Fin 128 => Cert.ReferenceIdeal.Read.val_main_v13 (F := Ideal) a0 a3 (ix2 e t))
    (Fin.ext (by show 128 + k.val - 128 = k.val; omega))

/-! ## The messages and the logits agree -/

theorem yK_eq (e : Fin 65536) (q : Fin 128) :
    yK a0 a2 a3 a6 a7 e q = Cert.ReferenceIdeal.RefValue.yR a0 a2 a3 a6 a7 e q := by
  unfold yK Cert.ReferenceIdeal.RefValue.yR
  rw [Ideal.ofBits_zero_f32, sum_two_halves]
  simp only [hcat_lo, hcat_hi]

theorem abK_eq (e : Fin 65536) (q : Fin 128) :
    abK a0 a2 a3 a8 a9 e q = Cert.ReferenceIdeal.RefValue.aR a0 a2 a3 a8 a9 e := by
  unfold abK Cert.ReferenceIdeal.RefValue.aR
  rw [sum_two_halves]
  simp only [hcat_lo, hcat_hi]

/-! ## The supremum over (edge, lane) is the supremum over the edges -/

theorem amaxK_eq : amaxK a0 a2 a3 a8 a9 = Cert.ReferenceIdeal.RefValue.amaxR a0 a2 a3 a8 a9 := by
  unfold amaxK Cert.ReferenceIdeal.RefValue.amaxR
  refine le_antisymm (iSup_le fun j => ?_) (iSup_le fun e => ?_)
  · rw [abK_eq]
    exact le_iSup (fun e : Fin 65536 => Cert.ReferenceIdeal.RefValue.aR a0 a2 a3 a8 a9 e) _
  · rw [← abK_eq a0 a2 a3 a8 a9 e (0 : Fin 128)]
    exact le_iSup (α := EReal) (fun j : (⟨2, ![65536, 128]⟩ : Shape).Idx =>
      abK a0 a2 a3 a8 a9 ⟨(j 0).val, (j 0).isLt⟩ ⟨(j 1).val, (j 1).isLt⟩) (ix2 e (0 : Fin 128))

/-! ## The two results agree -/

theorem oK_eq_oR (n : Fin 2048) (q : Fin 128) :
    oK a0 a2 a3 a5 a6 a7 a8 a9 n q = Cert.ReferenceIdeal.RefValue.oR a0 a2 a3 a5 a6 a7 a8 a9 n q := by
  unfold oK Cert.ReferenceIdeal.RefValue.oR Cert.ReferenceIdeal.RefValue.aexpR
  simp only [yK_eq, abK_eq, amaxK_eq]

end Cert.Spec

end
-- ==== Proof.Final.ResultEq.lean ====
/-
  The kernel program's result array, entry by entry, is the reference's formula of the argument arrays: the
  result is what region 1 leaves (the aggregation of region 0's messages and logits under the global maximum),
  that is the kernel's formula, which the joining law turns into the reference's.
-/
import proofs.«127976_j3624952398656_1_alg».proof.Proof.KI.Frames
import proofs.«127976_j3624952398656_1_alg».proof.Proof.Val.Kernel
import proofs.«127976_j3624952398656_1_alg».proof.Proof.Val.Reg1Arr
import proofs.«127976_j3624952398656_1_alg».proof.Proof.Spec.Join

noncomputable section

namespace Cert.Final

open Idealize.ShloMosaic Idealize.ShloMosaic.TcCoe Idealize.ShloMosaic.ValueIdx Idealize.SL.Sem
open Cert.KernelIdeal Cert.KernelIdeal.Gen

/-- Entry (n,q) of the kernel program's result is the reference's formula of the argument arrays. -/
theorem result_apply (m : (ℓ : Loc nD τ sig) → Buf (Elt Ideal) ℓ) (c : Dev nD) (n : Fin 2048) (q : Fin 128) :
    (Fr.resultOf (F := Ideal) m c : S2048x128.Idx → EReal) (ix2 n q)
      = Cert.ReferenceIdeal.RefValue.oR (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) n q := by
  have h := Val.kernel_value Val.o_arr_eq m c n q
  rw [Fr.W4_main_v30] at h
  refine h.trans ?_
  exact (Cert.Spec.oK_eq_oR (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) n q)

end Cert.Final

end
-- ==== Proof.lean ====
/-
  The certificate of an edge-softmax graph layer.  The kernel program gathers, for each of the 65536 edges, the
  source and target rows of the node features; region 0 (16 blocks of 4096 edges) computes the edge messages
  y = max(src·Wy1 + tgt·Wy2 + fb, 0) and the attention logits ab = src·Wa1 + tgt·Wa2 + wb, the logit repeated in
  all 128 lanes; the host takes the maximum of all logits; region 1 (a 2 x 32 grid: row block of 1024 nodes, tile
  of 2048 edges) accumulates in scratch, tile by tile, M·(y·exp(ab − max)) and M·exp(ab − max) for the incidence
  matrix M, and at the last tile of a row block stores their quotient, the normaliser increased by eps.
  The reference concatenates the gathered rows, multiplies once by the whole weight matrices, takes the
  maximum of the [65536,1] logits, and divides Mtgt·(y·exp(a − max)) by Mtgt·exp(a − max) + eps.
  On the extended reals the two agree entry by entry: a sum over 256 is the sum of its two halves, a supremum
  over (edge, lane) of a function of the edge alone is the supremum over the edges, and a sum over 32 tiles of
  sums inside a tile is the sum over all edges; addition and multiplication are only regrouped, so no finiteness
  of the inputs is used.  The three frames: both kernel programs run through their four segments (two host
  stretches, two regions) with every argument array untouched; the reference is a straight-line host program.
-/
import proofs.«127976_j3624952398656_1_alg».proof.Defs
import proofs.«127976_j3624952398656_1_alg».proof.Proof.Gen.Kernel
import proofs.«127976_j3624952398656_1_alg».proof.Proof.Gen.Kernel.Skeleton
import proofs.«127976_j3624952398656_1_alg».proof.Proof.Gen.Kernel.Launch
import proofs.«127976_j3624952398656_1_alg».proof.Proof.Gen.Kernel.Regions
import proofs.«127976_j3624952398656_1_alg».proof.Proof.Gen.Kernel.Points
import proofs.«127976_j3624952398656_1_alg».proof.Proof.Gen.KernelIdeal
import proofs.«127976_j3624952398656_1_alg».proof.Proof.Gen.KernelIdeal.Skeleton
import proofs.«127976_j3624952398656_1_alg».proof.Proof.Gen.KernelIdeal.Launch
import proofs.«127976_j3624952398656_1_alg».proof.Proof.Gen.KernelIdeal.Regions
import proofs.«127976_j3624952398656_1_alg».proof.Proof.Gen.KernelIdeal.Points
import proofs.«127976_j3624952398656_1_alg».proof.Proof.Gen.ReferenceIdeal
import proofs.«127976_j3624952398656_1_alg».proof.Proof.Gen.Pre_finite_inputs
import proofs.«127976_j3624952398656_1_alg».proof.Proof.Gen.ReferenceIdeal.Run
import proofs.«127976_j3624952398656_1_alg».proof.Proof.Gen.ReferenceIdeal.Read
import proofs.«127976_j3624952398656_1_alg».proof.Proof.K.Frames
import proofs.«127976_j3624952398656_1_alg».proof.Proof.KI.Frames
import proofs.«127976_j3624952398656_1_alg».proof.Proof.Ref.RefG
import proofs.«127976_j3624952398656_1_alg».proof.Proof.Final.ResultEq
import Idealize.ShloMosaic.Adequacy
import Idealize.ShloMosaic.Init

noncomputable section

namespace Cert.Proof

open Idealize.ShloMosaic Idealize.ShloMosaic.ValueIdx Idealize.SL.Sem

section Claims

variable [hKernel : Cert.Kernel.Facts] [hKernelIdeal : Cert.KernelIdeal.Facts] [hReferenceIdeal : Cert.ReferenceIdeal.Facts] [hPre : Cert.Pre_finite_inputs.Facts]

/-- The word-level kernel program runs and leaves its arguments untouched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the same array: entry (n,q) of either is the reference's formula `oR` of
    the argument arrays. -/
theorem algebraic : Cert.algebraic_KernelIdeal_ReferenceIdeal := by
  intro m ρ m' ρ' _ hagree
  refine ⟨fun c => Cert.KernelIdeal.Fr.resultOf (F := Ideal) m c, Cert.KernelIdeal.Fr.run_out m ρ, ?_⟩
  refine (θ_run Cert.ReferenceIdeal.defs _ _).mono (fun r h c => ⟨?_, (h c).2⟩) (Cert.ReferenceIdeal.RefValue.run_oR m' ρ')
  obtain ⟨e0, e1, e2, e3, e4, e5, e6, e7, e8, e9⟩ := hagree c
  funext j
  obtain ⟨n, q, rfl⟩ : ∃ (n : Fin 2048) (q : Fin 128), j = ix2 n q := ⟨j 0, j 1, eq_ix2 j⟩
  rw [(h c).1 n q, e0, e2, e3, e5, e6, e7, e8, e9]
  exact (Cert.Final.result_apply m c n q).symm

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
